-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩
abbrev S_ : Shape := ⟨0, ![]⟩

abbrev nBuf : Space → Nat
  | .hbm => 15
  | .vmem => 36
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x128, .f32⟩
  | .local _ .vmem, ⟨15, _⟩ => ⟨S1024x128, .f32⟩
  | .local _ .vmem, ⟨16, _⟩ => ⟨S512x128, .f32⟩
  | .local _ .vmem, ⟨17, _⟩ => ⟨S512x128, .f32⟩
  | .local _ .vmem, ⟨18, _⟩ => ⟨S1024x1, .i32⟩
  | .local _ .vmem, ⟨19, _⟩ => ⟨S1024x1, .i32⟩
  | .local _ .vmem, ⟨20, _⟩ => ⟨S1x512, .i32⟩
  | .local _ .vmem, ⟨21, _⟩ => ⟨S1x512, .i32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S1024x1, .f32⟩
  | .local _ .vmem, ⟨31, _⟩ => ⟨S1024x1, .f32⟩
  | .local _ .vmem, ⟨32, _⟩ => ⟨S1024x1, .f32⟩
  | .local _ .vmem, ⟨33, _⟩ => ⟨S1024x1, .f32⟩
  | .local _ .vmem, ⟨34, _⟩ => ⟨S1024x1, .f32⟩
  | .local _ .vmem, ⟨35, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3_0 : Ref sig .tc := ⟨.hbm, 6, rfl⟩
abbrev main_v3_1 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc1_scratch4 : Ref sig .tc := ⟨.vmem, 34, rfl⟩
abbrev cc1_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_22 : BitVec 32 := 0#32
  let v48 : BitVec 1 := Scalar.cmpi .ne v47 c0_i32_22
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v106 : BitVec 1 := Scalar.cmpi .eq arg1 c15_i32
  let v107 : BitVec 32 := Scalar.extui v106
  let c0_i32_54 : BitVec 32 := 0#32
  let v108 : BitVec 1 := Scalar.cmpi .ne v107 c0_i32_54
  v108

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S1024_S1024x1 : S1024.ShapeCasts S1024x1
  natLt_1_32 : 1 < 32
  reducesTo_S8192x1_S_d0_1 : S8192x1.ReducesTo [0, 1] S_
  h_S_ : 0 < S_.numel
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S8192x1.size a
  hwx1_7 : ∀ i : grid1.Coords, EltTy.bits .f32 = 32 ∨ (Rect.block (s := S8192x1) S1024x1.size (cc1_transform_7 i) (hinb1_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_0) S1024x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v3_1) S1024x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 106
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .i32⟩
  | .hbm, ⟨10, _⟩ => ⟨S8192x8192, .i32⟩
  | .hbm, ⟨11, _⟩ => ⟨S_, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8192x8192, .i1⟩
  | .hbm, ⟨16, _⟩ => ⟨S8192x8192, .i1⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x1, .f32⟩
  | .hbm, ⟨34, _⟩ => ⟨S8192x8192, .f32⟩
  | .hbm, ⟨35, _⟩ => ⟨S8192x8192, .i1⟩
  | .hbm, ⟨36, _⟩ => ⟨S8192x8192, .i1⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S8192x8192, .f32⟩
  | .hbm, ⟨42, _⟩ => ⟨S8192x8192, .i1⟩
  | .hbm, ⟨43, _⟩ => ⟨S8192x8192, .i1⟩
  | .hbm, ⟨44, _⟩ => ⟨S_, .i1⟩
  | .hbm, ⟨45, _⟩ => ⟨S8192, .i1⟩
  | .hbm, ⟨46, _⟩ => ⟨S8192x1, .i1⟩
  | .hbm, ⟨47, _⟩ => ⟨S8192x8192, .i1⟩
  | .hbm, ⟨48, _⟩ => ⟨S8192x8192, .i1⟩
  | .hbm, ⟨49, _⟩ => ⟨S_, .i1⟩
  | .hbm, ⟨50, _⟩ => ⟨S8192, .i1⟩
  | .hbm, ⟨51, _⟩ => ⟨S8192x1, .i1⟩
  | .hbm, ⟨52, _⟩ => ⟨S8192x8192, .i1⟩
  | .hbm, ⟨53, _⟩ => ⟨S8192x8192, .i1⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S_, .f32⟩
  | .hbm, ⟨75, _⟩ => ⟨S8192x8192, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S_, .i1⟩
  | .hbm, ⟨89, _⟩ => ⟨S8192, .i1⟩
  | .hbm, ⟨90, _⟩ => ⟨S_, .i1⟩
  | .hbm, ⟨91, _⟩ => ⟨S8192, .i1⟩
  | .hbm, ⟨92, _⟩ => ⟨S8192, .i1⟩
  | .hbm, ⟨93, _⟩ => ⟨S8192, .f32⟩
  | .hbm, ⟨94, _⟩ => ⟨S8192, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S_, .f32⟩
  | .hbm, ⟨104, _⟩ => ⟨S_, .f32⟩
  | .hbm, ⟨105, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_call2_v0 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_call3_v0 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_call4_v0 : Ref sig .tc := ⟨.hbm, 62, rfl⟩
abbrev main_call4_v1 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_call5_v0 : Ref sig .tc := ⟨.hbm, 79, rfl⟩
abbrev main_call5_v1 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_v55 : Ref sig .tc := ⟨.hbm, 86, rfl⟩
abbrev main_v56 : Ref sig .tc := ⟨.hbm, 87, rfl⟩
abbrev main_c_17 : Ref sig .tc := ⟨.hbm, 88, rfl⟩
abbrev main_v57 : Ref sig .tc := ⟨.hbm, 89, rfl⟩
abbrev main_c_18 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_19 : Ref sig .tc := ⟨.hbm, 95, rfl⟩
abbrev main_v62 : Ref sig .tc := ⟨.hbm, 96, rfl⟩
abbrev main_cst_20 : Ref sig .tc := ⟨.hbm, 97, rfl⟩
abbrev main_v63 : Ref sig .tc := ⟨.hbm, 98, rfl⟩
abbrev main_cst_21 : Ref sig .tc := ⟨.hbm, 99, rfl⟩
abbrev main_call6_v0 : Ref sig .tc := ⟨.hbm, 100, rfl⟩
abbrev main_call6_v1 : Ref sig .tc := ⟨.hbm, 101, rfl⟩
abbrev main_v64 : Ref sig .tc := ⟨.hbm, 102, rfl⟩
abbrev main_cst_22 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Step.lean ====
/-
  The two kernels' per-point state transitions as pure functions, at any float instance.

  Pass 1 keeps, per row of its row tile, a running minimum over the positive pairs and a running maximum over the
  negative pairs of the similarity tile; pass 2 keeps six per-row accumulators (two masked sums of exp(-2(s-1/2)), two of
  exp(50(s-1/2)), and two 0/1 flags "some hard pair met"). One grid point folds one 1024 x 512 tile of the similarity
  matrix into them. The functions below compose the kernels' named arithmetic in the order the bodies apply it.
-/
import proofs.«144686_j9225589752058_2_alg».proof.Proof.Gen.Kernel.Skeleton

noncomputable section

namespace Cert.Kernel.Hand

open Idealize.ShloMosaic Idealize.SL.Sem
open Cert.Kernel

variable {F : FTy → Type} [FloatOps F]

/-! ## Pass 1 -/

/-- The pair (running minimum over positives, running maximum over negatives) before the first column tile: +inf, -inf. -/
def init0 : Vec F S1024x1 .f32 × Vec F S1024x1 .f32 := (Gen.k0_pay3 (F := F), Gen.k0_pay4 (F := F))

/-- One column tile folded into the pair: the row block `x0`, the column block `x1`, the row labels `x2`, the column
    labels `x3`, at grid coordinates `i` (the diagonal mask reads them). -/
def step0 (i : grid0.Coords) (x0 : Vec F S1024x128 .f32) (x1 : Vec F S512x128 .f32) (x2 : Vec F S1024x1 .i32)
    (x3 : Vec F S1x512 .i32) (s : Vec F S1024x1 .f32 × Vec F S1024x1 .f32) : Vec F S1024x1 .f32 × Vec F S1024x1 .f32 :=
  (Gen.k0_pay1 (Gen.k0_pay7 i x0 x1 x2 x3) s.1, Gen.k0_pay2 (Gen.k0_pay8 x0 x1 x2 x3) s.2)

/-! ## Pass 2 -/

/-- Pass 2's six per-row accumulators: hard-positive sum, all-positive sum, hard-positive flag, hard-negative sum,
    all-negative sum, hard-negative flag (the kernel's scratch operands in this order: 0, 1, 2, 3, 4, 5). -/
structure Acc1 (F : FTy → Type) [FloatOps F] where
  ph : Vec F S1024x1 .f32
  pa : Vec F S1024x1 .f32
  ap : Vec F S1024x1 .f32
  nh : Vec F S1024x1 .f32
  na : Vec F S1024x1 .f32
  an : Vec F S1024x1 .f32

/-- All six start at zero. -/
def init1 : Acc1 F := ⟨Gen.k1_pay1 (F := F), Gen.k1_pay2 (F := F), Gen.k1_pay3 (F := F), Gen.k1_pay4 (F := F), Gen.k1_pay5 (F := F), Gen.k1_pay6 (F := F)⟩

/-- One column tile folded into the six accumulators: row block `x0`, column block `x1`, row labels `x2`, column labels
    `x3`, the row block of pass 1's minima `x4` and maxima `x5`. -/
def step1 (i : grid1.Coords) (x0 : Vec F S1024x128 .f32) (x1 : Vec F S512x128 .f32) (x2 : Vec F S1024x1 .i32)
    (x3 : Vec F S1x512 .i32) (x4 : Vec F S1024x1 .f32) (x5 : Vec F S1024x1 .f32) (s : Acc1 F) : Acc1 F :=
  let v6 := Gen.k1_pay7 x0 x1
  let v26 := Gen.k1_pay9 (F := F) i x2 x3
  let v27 := Gen.k1_pay10 (F := F) x2 x3
  let v31 := Gen.k1_pay12 x5
  let v36 := Gen.k1_pay13 x0 x1 x2 x3 x4
  let v41 := Gen.k1_pay14 v6 v26 v31
  let v51 := Gen.k1_pay16 v6
  let v73 := Gen.k1_pay19 v6 v36
  ⟨Gen.k1_pay17 v6 v26 v31 s.ph, Gen.k1_pay18 v6 v26 s.pa, Gen.k1_pay22 v41 s.ap,
   Gen.k1_pay20 s.nh v73, Gen.k1_pay21 v27 v51 s.na, Gen.k1_pay23 v36 s.an⟩

/-- What the last column tile's point writes into the two output blocks, from the accumulators after that point and the
    row blocks of pass 1's minima and maxima: the row losses (zero on rows without a positive or without a negative)
    and the 0/1 validity column. -/
def fin1 (x4 : Vec F S1024x1 .f32) (x5 : Vec F S1024x1 .f32) (s : Acc1 F) : Vec F S1024x1 .f32 × Vec F S1024x1 .f32 :=
  (Gen.k1_pay25 (Gen.k1_pay11 x4) (Gen.k1_pay12 x5) s.ap s.ph s.pa s.an s.nh s.na,
   Gen.k1_pay26 (Gen.k1_pay11 x4) (Gen.k1_pay12 x5))

end Cert.Kernel.Hand

end
-- ==== Proof.K.R0Runs.lean ====
/-
  Pass 1 (pipeline 0), what its three control cases share.

  The body branches twice on the column-tile coordinate j = t % 16 of the grid point t: at j = 0 it first resets the
  two scratch columns (running minimum over positives, running maximum over negatives) to +inf / -inf; at j = 15 it
  copies them to the two output blocks. Here: the two conditions in closed form over the 128 points, where the two
  output windows are idle and where they are written back, the staging and scratch memrefs the body is called on,
  and the region invariant with the two scratch columns split off the other scoped buffers.
-/
import proofs.«144686_j9225589752058_2_alg».proof.Proof.Gen.Kernel.Launch
import proofs.«144686_j9225589752058_2_alg».proof.Proof.Gen.Kernel.Skeleton
import proofs.«144686_j9225589752058_2_alg».proof.Proof.Gen.Kernel.Points
import proofs.«144686_j9225589752058_2_alg».proof.Proof.K.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the first branch (reset the scratch columns), from the grid coordinates. -/
abbrev cond0_0 (i : grid0.Coords) : Prop := (Scalar.cmpi .ne (Scalar.extui (Scalar.cmpi .eq (BitVec.ofNat 32 (i 1).val) 0#32)) 0#32) = 1#1
/-- It holds at the points with column tile 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the second branch (copy the scratch columns to the outputs), from the grid coordinates. -/
abbrev cond0_1 (i : grid0.Coords) : Prop := k0_cond2 i = 1#1
/-- It holds at the points with column tile 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last column tile the two outputs are idle and not written back; on it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called on -/

/-- Each window's current staging memref at point `t`, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two scratch columns: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1

/-- The offsets of every rectangle the body loads or stores through: zero on both axes. -/
theorem hz2 : (![0, 0] : Fin 2 → ℕ) = fun _ => 0 := by funext a; fin_cases a <;> rfl

/-! ## The region invariant -/

/-- The scoped buffers that are neither a staging buffer nor a scratch column of this call (the other call's
    staging buffers and accumulators), each at some contents: they ride through this call untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))

/-- The class's invariant with the two scratch columns as memrefs owned at some contents, the other scoped
    buffers as one remainder, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA; rw [scopedRest0_eq]; unfold rest0; simp only [scM0_0, scM0_1, owns_whole]; try rfl

end Cert.Kernel.Hand

end
-- ==== Proof.K.R0RunB.lean ====
/-
  Pass 1, the body's run at a point with column tile strictly between 0 and 15: no branch is taken. The body loads
  the four input blocks, folds the tile into the two scratch columns and leaves everything else as it was.
-/
import proofs.«144686_j9225589752058_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the inputs' at their blocks, the two idle outputs' at anything (handed back untouched), the
    scratch columns at the pair `s` the point before left — the body runs to the continuation holding the inputs and
    the outputs as they were and the scratch columns at `step0` of the blocks and `s`. -/
theorem kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S512x128 .f32) (x2 : Vec F S1024x1 .i32) (x3 : Vec F S1x512 .i32) (s : Vec F S1024x1 .f32 × Vec F S1024x1 .f32)
    (xi4 : Vec F S1024x1 .f32) (xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare s.1 ∗ owns (c : Thread nD τ) arg9 fullShare s.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (step0 i x0 x1 x2 x3 s).1 ∗ owns (c : Thread nD τ) arg9 fullShare (step0 i x0 x1 x2 x3 s).2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    rw [View.read_writes_eq_canon _ _ _ (fun y => ⟨_, List.Mem.head _, View.mem_set_unit_zero hz2 inb_S1024x1_S1024x1_0_0 y⟩), View.canon_unit_zero hz2]
    sl_unfold_run_names
    simp only [View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  iexists _; isplitr
  swap; · iexact HS1
  ipureintro
  rw [View.read_writes_eq_canon _ _ _ (fun y => ⟨_, List.Mem.head _, View.mem_set_unit_zero hz2 inb_S1024x1_S1024x1_0_0 y⟩), View.canon_unit_zero hz2]
  sl_unfold_run_names
  simp only [View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
  rfl

end Cert.Kernel.Hand

end
-- ==== Proof.K.R0RunA.lean ====
/-
  Pass 1, the body's run at a point with column tile 0: the first branch is taken, the second is not. The body
  first stores +inf / -inf into the two scratch columns, then folds the tile into them; whatever the columns held
  before is overwritten unread.
-/
import proofs.«144686_j9225589752058_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the inputs' at their blocks, the two idle outputs' at anything (handed back untouched), the
    scratch columns at anything — the body runs to the continuation holding the inputs and the outputs as they
    were and the scratch columns at `step0` of the blocks and the initial pair. -/
theorem kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S512x128 .f32) (x2 : Vec F S1024x1 .i32) (x3 : Vec F S1x512 .i32)
    (xi4 : Vec F S1024x1 .f32) (xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (step0 i x0 x1 x2 x3 init0).1 ∗ owns (c : Thread nD τ) arg9 fullShare (step0 i x0 x1 x2 x3 init0).2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  ·
    iexists _; isplitr
    swap; · iexact HS0
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  iexists _; isplitr
  swap; · iexact HS1
  ipureintro
  sl_unfold_run_names
  rw [View.read_writes_eq_canon _ _ _ (fun y => ⟨_, List.Mem.head _, View.mem_set_unit_zero hz2 inb_S1024x1_S1024x1_0_0 y⟩)]
  simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
  rfl

end Cert.Kernel.Hand

end
-- ==== Proof.K.R0RunC.lean ====
/-
  Pass 1, the body's run at a point with column tile 15: the first branch is not taken, the second is. The body
  folds the tile into the two scratch columns and then copies them into the two output blocks.
-/
import proofs.«144686_j9225589752058_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the inputs' at their blocks, the two outputs' at anything, the scratch columns at the pair
    `s` the point before left — the body runs to the continuation holding the inputs as they were and the scratch
    columns and the two outputs at `step0` of the blocks and `s`. -/
theorem kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S512x128 .f32) (x2 : Vec F S1024x1 .i32) (x3 : Vec F S1x512 .i32) (s : Vec F S1024x1 .f32 × Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare s.1 ∗ owns (c : Thread nD τ) arg9 fullShare s.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step0 i x0 x1 x2 x3 s).1 ∗ owns (c : Thread nD τ) arg7 fullShare (step0 i x0 x1 x2 x3 s).2 ∗ owns (c : Thread nD τ) arg8 fullShare (step0 i x0 x1 x2 x3 s).1 ∗ owns (c : Thread nD τ) arg9 fullShare (step0 i x0 x1 x2 x3 s).2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  ·
    iexists _; isplitr
    swap; · iexact H4
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  isplitl [H5]
  ·
    iexists _; isplitr
    swap; · iexact H5
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  isplitl [HS0]
  ·
    iexists _; isplitr
    swap; · iexact HS0
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  iexists _; isplitr
  swap; · iexact HS1
  ipureintro
  sl_unfold_run_names
  rw [View.read_writes_eq_canon _ _ _ (fun y => ⟨_, List.Mem.head _, View.mem_set_unit_zero hz2 inb_S1024x1_S1024x1_0_0 y⟩)]
  simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
  rfl

end Cert.Kernel.Hand

end
-- ==== Proof.K.R0Dat.lean ====
/-
  Pass 1 (pipeline 0), the proof data at a parameter `V` — the TensorCore's buffer contents when the region is
  entered — and its body obligation.

  After the body at point t every input window's staging buffer holds the window's block of its array; the two
  scratch columns hold the fold `acc0` of `step0` over the column tiles of the current row tile up to t (restarted
  from `init0` at column tile 0); at column tile 15 the two output windows' buffers hold the two components of that
  fold, elsewhere they are idle. The region invariant carries the scratch columns at `acc0` of the point before.
-/
import proofs.«144686_j9225589752058_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The scratch columns point by point -/

/-- What the two scratch columns hold after the body at position `n`: `step0` of the point's blocks over the initial
    pair at column tile 0, over what position `n - 1` left elsewhere. -/
def acc0 (c : Dev nD) : (n : ℕ) → n < cfg0.N → Vec F S1024x1 .f32 × Vec F S1024x1 .f32
  | 0, hn => step0 (grid0.coords ⟨0, hn⟩) (iblk0 V c 0 ⟨0, hn⟩) (iblk0 V c 1 ⟨0, hn⟩) (iblk0 V c 2 ⟨0, hn⟩) (iblk0 V c 3 ⟨0, hn⟩) init0
  | n + 1, hn =>
    if (n + 1) % 16 = 0 then step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) init0
    else step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (acc0 c n (Nat.lt_of_succ_lt hn))

/-- At column tile 0 the fold restarts. -/
theorem acc0_first (c : Dev nD) (t : Fin cfg0.N) (h : t.val % 16 = 0) :
    acc0 V c t.val t.isLt = step0 (grid0.coords t) (iblk0 V c 0 t) (iblk0 V c 1 t) (iblk0 V c 2 t) (iblk0 V c 3 t) init0 := by
  obtain ⟨n, hn⟩ := t
  cases n with
  | zero => rfl
  | succ n => exact if_pos h

/-- Elsewhere it continues from the point before. -/
theorem acc0_next (c : Dev nD) (t : Fin cfg0.N) (h : t.val % 16 ≠ 0) :
    acc0 V c t.val t.isLt = step0 (grid0.coords t) (iblk0 V c 0 t) (iblk0 V c 1 t) (iblk0 V c 2 t) (iblk0 V c 3 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- Before the first point the class's invariant; afterwards the two scratch columns at what the point before left,
    the other scoped buffers and the generator register as they come. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2 ∗ rest0 (F := F) c) ∗ (∃ r, prngReg c r)) := by
  cases n with
  | zero => exact absurd rfl hz
  | succ n => rfl

/-! ## The proof data -/

/-- The proof data of pipeline 0 on core `c`, at shares `q` of the input arrays. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := PhiS0 V c t.val (Nat.le_of_lt_succ t.isLt)
  q := q
  owed _ := 0

variable (q : Fin cfg0.W → PosShare TreeShare)

theorem A_eq0 (c : Dev nD) (w : Fin cfg0.W) : (dat0 V q c).A w = V c (Pipeline.arrRef spec0 w) := by
  dsimp only [dat0]

theorem PhiS0_castSucc (c : Dev nD) (t : Fin cfg0.N) :
    (dat0 V q c).Φ t.castSucc = PhiS0 V c t.val (Nat.le_of_lt t.isLt) := by
  dsimp only [dat0]; simp only [Fin.coe_castSucc]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = (acc0 V c t.val t.isLt).1 := by dsimp only [dat0]
theorem after0_5 (c : Dev nD) (t : Fin cfg0.N) : (dat0 V q c).after 5 t = (acc0 V c t.val t.isLt).2 := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

/-! ## The body obligation, at a generic point -/

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d))
    ∗ (∃ d, owns (c : Thread nD τ) (ms0_5 t) fullShare ((dat0 V q c).before 5 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t ∗ (dat0 V q c).leavesExact 1 t ∗ (dat0 V q c).leavesExact 2 t
    ∗ (dat0 V q c).leavesExact 3 t ∗ (dat0 V q c).leavesExact 4 t ∗ (dat0 V q c).leavesExact 5 t)

set_option maxHeartbeats 4800000 in
/-- The body at any point: the inputs' memrefs hold their blocks; the closed forms of the two conditions say which
    case the point is in, and that case's run applies; the invariant hands the body the scratch columns (at anything
    where they are reset, at the point before's fold elsewhere) and takes them back at this point's fold. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [show (dat0 V q c).Φ t.succ = PhiS0 V c (t.val + 1) t.isLt from rfl, PhiS0_succ]
  have hN : t.val < 128 := lt_of_lt_of_eq t.isLt (show cfg0.N = 128 from N_0)
  rw [show (dat0 V q c).leavesExact 0 t = owns (c : Thread nD τ) (ms0_0 t) fullShare ((dat0 V q c).after 0 t) from by
    unfold Dat.leavesExact; first | rw [liveAt0_0 t] | rfl, after0_0]
  rw [show (dat0 V q c).leavesExact 1 t = owns (c : Thread nD τ) (ms0_1 t) fullShare ((dat0 V q c).after 1 t) from by
    unfold Dat.leavesExact; first | rw [liveAt0_1 t] | rfl, after0_1]
  rw [show (dat0 V q c).leavesExact 2 t = owns (c : Thread nD τ) (ms0_2 t) fullShare ((dat0 V q c).after 2 t) from by
    unfold Dat.leavesExact; first | rw [liveAt0_2 t] | rfl, after0_2]
  rw [show (dat0 V q c).leavesExact 3 t = owns (c : Thread nD τ) (ms0_3 t) fullShare ((dat0 V q c).after 3 t) from by
    unfold Dat.leavesExact; first | rw [liveAt0_3 t] | rfl, after0_3]
  by_cases h0 : t.val % 16 = 0
  · have hc0 : cond0_0 (grid0.coords t) := (hcond0_0 t).mpr h0
    have hc1 : ¬cond0_1 (grid0.coords t) := fun h => by have := (hcond0_1 t).mp h; omega
    rw [Dat.leavesExact_idle (dat0 V q c) 4 t (idleAt0_4 t hc1) (noFlush0_4 t hc1), Dat.leavesExact_idle (dat0 V q c) 5 t (idleAt0_5 t hc1) (noFlush0_5 t hc1)]
    rw [acc0_first V c t h0]
    by_cases hz : t.val = 0
    · rw [PhiS0_castSucc V q c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hc0 : ¬cond0_0 (grid0.coords t) := fun h => h0 ((hcond0_0 t).mp h)
    have hz : t.val ≠ 0 := by omega
    by_cases h1 : t.val % 16 = 15
    · have hc1 : cond0_1 (grid0.coords t) := (hcond0_1 t).mpr h1
      rw [show (dat0 V q c).leavesExact 4 t = owns (c : Thread nD τ) (ms0_4 t) fullShare ((dat0 V q c).after 4 t) from by
        unfold Dat.leavesExact; rw [liveAt0_4 t hc1], after0_4]
      rw [show (dat0 V q c).leavesExact 5 t = owns (c : Thread nD τ) (ms0_5 t) fullShare ((dat0 V q c).after 5 t) from by
        unfold Dat.leavesExact; rw [liveAt0_5 t hc1], after0_5]
      rw [acc0_next V c t h0]
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ _ _ hc0 hc1 (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V q c) 4 t (idleAt0_4 t hc1) (noFlush0_4 t hc1), Dat.leavesExact_idle (dat0 V q c) 5 t (idleAt0_5 t hc1) (noFlush0_5 t hc1)]
      rw [acc0_next V c t h0]
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ _ _ hc0 hc1 (iblk0 V c 0 t) (iblk0 V c 1 t) (iblk0 V c 2 t) (iblk0 V c 3 t) (acc0 V c (t.val - 1) (Nat.lt_of_le_of_lt (Nat.sub_le _ _) t.isLt)) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After the last point the invariant gives the class's back: the scratch columns' named contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.Kernel.Hand

end
-- ==== Proof.K.R1Runs.lean ====
/-
  Pass 2 (the second pallas_call), what its three control cases share.

  A grid point t = (t / 16, t % 16) of the 8 x 16 grid folds column tile t % 16 into the six per-row accumulators of row
  tile t / 16. The body resets the accumulators at the first column tile (t % 16 = 0) and writes the two output blocks
  at the last one (t % 16 = 15); elsewhere the output windows are idle and are not written back. This module states the
  two branch conditions in closed form over the grid, where the output windows are idle, the staging and scratch
  memrefs the body is called with, and the region invariant split into the six accumulators' buffers, every other
  scoped buffer (left as one unopened remainder) and the generator register.
-/
import proofs.«144686_j9225589752058_2_alg».proof.Proof.Gen.Kernel.Launch
import proofs.«144686_j9225589752058_2_alg».proof.Proof.Gen.Kernel.Skeleton
import proofs.«144686_j9225589752058_2_alg».proof.Proof.Gen.Kernel.Points
import proofs.«144686_j9225589752058_2_alg».proof.Proof.K.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions -/

/-- The condition of the first conditional (reset the accumulators), from the grid coordinates. -/
abbrev cond1_0 (i : grid1.Coords) : Prop := (Scalar.cmpi .ne (Scalar.extui (Scalar.cmpi .eq (BitVec.ofNat 32 (i 1).val) 0#32)) 0#32) = 1#1
/-- It holds exactly at the first column tile of each row tile. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the second conditional (write the outputs), from the grid coordinates. -/
abbrev cond1_1 (i : grid1.Coords) : Prop := k1_cond2 i = 1#1
/-- It holds exactly at the last column tile of each row tile. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Off the last column tile output window 6 is idle: the body stores nothing into it, -/
theorem idleAt1_6 : ∀ t : Fin cfg1.N, ¬cond1_1 (grid1.coords t) → cfg1.idle 6 (grid1.coords t) = true := by decide +kernel
/-- and the pipeline does not write its block back. -/
theorem noFlush1_6 : ∀ t : Fin cfg1.N, ¬cond1_1 (grid1.coords t) → (cfg1.win 6).flush t = false := by decide +kernel
/-- At the last column tile output window 6 is live. -/
theorem liveAt1_6 : ∀ t : Fin cfg1.N, cond1_1 (grid1.coords t) → cfg1.idle 6 (grid1.coords t) = false := by decide +kernel
/-- Off the last column tile output window 7 is idle: the body stores nothing into it, -/
theorem idleAt1_7 : ∀ t : Fin cfg1.N, ¬cond1_1 (grid1.coords t) → cfg1.idle 7 (grid1.coords t) = true := by decide +kernel
/-- and the pipeline does not write its block back. -/
theorem noFlush1_7 : ∀ t : Fin cfg1.N, ¬cond1_1 (grid1.coords t) → (cfg1.win 7).flush t = false := by decide +kernel
/-- At the last column tile output window 7 is live. -/
theorem liveAt1_7 : ∀ t : Fin cfg1.N, cond1_1 (grid1.coords t) → cfg1.idle 7 (grid1.coords t) = false := by decide +kernel

/-! ## The memrefs the body is called with -/

/-- Window 0's current staging memref at point `t`, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
/-- Window 1's current staging memref at point `t`, and its wholeness. -/
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
/-- Window 2's current staging memref at point `t`, and its wholeness. -/
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
/-- Window 3's current staging memref at point `t`, and its wholeness. -/
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
/-- Window 4's current staging memref at point `t`, and its wholeness. -/
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- Window 5's current staging memref at point `t`, and its wholeness. -/
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- Window 6's current staging memref at point `t`, and its wholeness. -/
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- Window 7's current staging memref at point `t`, and its wholeness. -/
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- Accumulator 0's buffer: a whole scoped buffer of the kernel's own. -/
abbrev scM1_0 : Memref sig .tc .vmem S1024x1 .f32 := Memref.whole cc1_scratch0
/-- Accumulator 1's buffer: a whole scoped buffer of the kernel's own. -/
abbrev scM1_1 : Memref sig .tc .vmem S1024x1 .f32 := Memref.whole cc1_scratch1
/-- Accumulator 2's buffer: a whole scoped buffer of the kernel's own. -/
abbrev scM1_2 : Memref sig .tc .vmem S1024x1 .f32 := Memref.whole cc1_scratch2
/-- Accumulator 3's buffer: a whole scoped buffer of the kernel's own. -/
abbrev scM1_3 : Memref sig .tc .vmem S1024x1 .f32 := Memref.whole cc1_scratch3
/-- Accumulator 4's buffer: a whole scoped buffer of the kernel's own. -/
abbrev scM1_4 : Memref sig .tc .vmem S1024x1 .f32 := Memref.whole cc1_scratch4
/-- Accumulator 5's buffer: a whole scoped buffer of the kernel's own. -/
abbrev scM1_5 : Memref sig .tc .vmem S1024x1 .f32 := Memref.whole cc1_scratch5

/-! ## The region invariant, split -/

/-- The six accumulators' buffers. -/
abbrev accRefs1 : List (Ref sig .tc) := [cc1_scratch0, cc1_scratch1, cc1_scratch2, cc1_scratch3, cc1_scratch4, cc1_scratch5]

/-- Every scoped buffer of the core that is neither a staging buffer of this call nor an accumulator, at some contents
    each: the other call's staging buffers and running pair. The body touches none of them. -/
def others1 (c : Dev nD) : sProp 𝕄 :=
  Pipeline.scopedRestBut (Ix := Unit) (Name := ℕ) (U := UR sig nD τ) (Lvl := ℕ) (Val := Elt F) spec1 c accRefs1

/-- The region invariant as the six accumulators' buffers owned at some contents, the other scoped buffers, and the
    generator register at some state. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ (∃ d, owns (c : Thread nD τ) scM1_4 fullShare d) ∗ (∃ d, owns (c : Thread nD τ) scM1_5 fullShare d))
        ∗ others1 (F := F) c ∗ (∃ r, prngReg c r)) := by
  unfold Pipeline.ΦA others1
  rw [Pipeline.scopedRest_split_of_list spec1 c accRefs1 (by decide) (by decide)]
  simp only [accRefs1, bigSepL_cons_cons, bigSepL_singleton, scM1_0, scM1_1, scM1_2, scM1_3, scM1_4, scM1_5, owns_whole]
  exact BI.equiv_iff.mp ⟨Idealize.SL.BI.sep_assoc, Idealize.SL.BI.sep_assoc'⟩

end Cert.Kernel.Hand

end
-- ==== Proof.K.R1RunA.lean ====
/-
  Pass 2's body at a first column tile (the reset is taken, the outputs are not written): on whole memrefs — the six input
  blocks at their contents, the two output buffers at contents handed back untouched, the six accumulators' buffers at
  anything — the body runs to the continuation holding the inputs and the outputs as they were and the accumulators at
  one tile folded into the initial value (the body stores the initial value, reads it back and folds the tile in).
-/
import proofs.«144686_j9225589752058_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer whose LAST store went through the whole-shape rectangle at zero offsets reads back as that store's payload,
    whatever it held and whatever was stored before. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩), View.canon_cons_unit_zero h]

set_option maxHeartbeats 4000000 in
theorem kernelRun1_A (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond1_0 i) (hc1 : ¬cond1_1 i)
    (x0 : Vec F S1024x128 .f32) (x1 : Vec F S512x128 .f32) (x2 : Vec F S1024x1 .i32) (x3 : Vec F S1x512 .i32) (x4 : Vec F S1024x1 .f32) (x5 : Vec F S1024x1 .f32) (xi6 : Vec F S1024x1 .f32) (xi7 : Vec F S1024x1 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare xi6
        ∗ owns (c : Thread nD τ) arg9 fullShare xi7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare (step1 i x0 x1 x2 x3 x4 x5 init1).ph
            ∗ owns (c : Thread nD τ) arg11 fullShare (step1 i x0 x1 x2 x3 x4 x5 init1).pa
            ∗ owns (c : Thread nD τ) arg12 fullShare (step1 i x0 x1 x2 x3 x4 x5 init1).ap
            ∗ owns (c : Thread nD τ) arg13 fullShare (step1 i x0 x1 x2 x3 x4 x5 init1).nh
            ∗ owns (c : Thread nD τ) arg14 fullShare (step1 i x0 x1 x2 x3 x4 x5 init1).na
            ∗ owns (c : Thread nD τ) arg15 fullShare (step1 i x0 x1 x2 x3 x4 x5 init1).an) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e0, %g0, -, S0⟩, ⟨%e1, %g1, -, S1⟩, ⟨%e2, %g2, -, S2⟩, ⟨%e3, %g3, -, S3⟩, ⟨%e4, %g4, -, S4⟩, ⟨%e5, %g5, -, S5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [S0]
  · iexists _; isplitr
    swap; · iexact S0
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S1]
  · iexists _; isplitr
    swap; · iexact S1
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S2]
  · iexists _; isplitr
    swap; · iexact S2
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S3]
  · iexists _; isplitr
    swap; · iexact S3
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S4]
  · iexists _; isplitr
    swap; · iexact S4
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  iexists _; isplitr
  swap; · iexact S5
  ipureintro
  rw [read_writes_whole _ _ hz2]
  sl_unfold_run_names
  simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]

end Cert.Kernel.Hand

end
-- ==== Proof.K.R1RunB.lean ====
/-
  Pass 2's body at a middle column tile (no reset, the outputs are not written): on whole memrefs — the six input blocks
  at their contents, the two output buffers at contents handed back untouched, the six accumulators' buffers at what the
  tile before left — the body runs to the continuation holding the inputs and the outputs as they were and the
  accumulators with this tile folded in.
-/
import proofs.«144686_j9225589752058_2_alg».proof.Proof.K.R1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem kernelRun1_B (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond1_0 i) (hc1 : ¬cond1_1 i)
    (x0 : Vec F S1024x128 .f32) (x1 : Vec F S512x128 .f32) (x2 : Vec F S1024x1 .i32) (x3 : Vec F S1x512 .i32) (x4 : Vec F S1024x1 .f32) (x5 : Vec F S1024x1 .f32) (s : Acc1 F) (xi6 : Vec F S1024x1 .f32) (xi7 : Vec F S1024x1 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare xi6
        ∗ owns (c : Thread nD τ) arg9 fullShare xi7
        ∗ owns (c : Thread nD τ) arg10 fullShare s.ph
        ∗ owns (c : Thread nD τ) arg11 fullShare s.pa
        ∗ owns (c : Thread nD τ) arg12 fullShare s.ap
        ∗ owns (c : Thread nD τ) arg13 fullShare s.nh
        ∗ owns (c : Thread nD τ) arg14 fullShare s.na
        ∗ owns (c : Thread nD τ) arg15 fullShare s.an
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare (step1 i x0 x1 x2 x3 x4 x5 s).ph
            ∗ owns (c : Thread nD τ) arg11 fullShare (step1 i x0 x1 x2 x3 x4 x5 s).pa
            ∗ owns (c : Thread nD τ) arg12 fullShare (step1 i x0 x1 x2 x3 x4 x5 s).ap
            ∗ owns (c : Thread nD τ) arg13 fullShare (step1 i x0 x1 x2 x3 x4 x5 s).nh
            ∗ owns (c : Thread nD τ) arg14 fullShare (step1 i x0 x1 x2 x3 x4 x5 s).na
            ∗ owns (c : Thread nD τ) arg15 fullShare (step1 i x0 x1 x2 x3 x4 x5 s).an) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hg0; obtain rfl := harg11.eq_unread hg1; obtain rfl := harg12.eq_unread hg2; obtain rfl := harg13.eq_unread hg3; obtain rfl := harg14.eq_unread hg4; obtain rfl := harg15.eq_unread hg5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [S0]
  · iexists _; isplitr
    swap; · iexact S0
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S1]
  · iexists _; isplitr
    swap; · iexact S1
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S2]
  · iexists _; isplitr
    swap; · iexact S2
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S3]
  · iexists _; isplitr
    swap; · iexact S3
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S4]
  · iexists _; isplitr
    swap; · iexact S4
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  iexists _; isplitr
  swap; · iexact S5
  ipureintro
  rw [read_writes_whole _ _ hz2]
  sl_unfold_run_names
  simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]

end Cert.Kernel.Hand

end
-- ==== Proof.K.R1RunC.lean ====
/-
  Pass 2's body at a last column tile (no reset, the outputs are written): on whole memrefs — the six input blocks at
  their contents, the two output buffers at anything, the six accumulators' buffers at what the tile before left — the
  body runs to the continuation holding the inputs as they were, the accumulators with this tile folded in, and the two
  output buffers at the row losses and the validity column computed from the final accumulators.
-/
import proofs.«144686_j9225589752058_2_alg».proof.Proof.K.R1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem kernelRun1_C (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond1_0 i) (hc1 : cond1_1 i)
    (x0 : Vec F S1024x128 .f32) (x1 : Vec F S512x128 .f32) (x2 : Vec F S1024x1 .i32) (x3 : Vec F S1x512 .i32) (x4 : Vec F S1024x1 .f32) (x5 : Vec F S1024x1 .f32) (s : Acc1 F) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ owns (c : Thread nD τ) arg10 fullShare s.ph
        ∗ owns (c : Thread nD τ) arg11 fullShare s.pa
        ∗ owns (c : Thread nD τ) arg12 fullShare s.ap
        ∗ owns (c : Thread nD τ) arg13 fullShare s.nh
        ∗ owns (c : Thread nD τ) arg14 fullShare s.na
        ∗ owns (c : Thread nD τ) arg15 fullShare s.an
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (fin1 x4 x5 (step1 i x0 x1 x2 x3 x4 x5 s)).1
            ∗ owns (c : Thread nD τ) arg9 fullShare (fin1 x4 x5 (step1 i x0 x1 x2 x3 x4 x5 s)).2
            ∗ owns (c : Thread nD τ) arg10 fullShare (step1 i x0 x1 x2 x3 x4 x5 s).ph
            ∗ owns (c : Thread nD τ) arg11 fullShare (step1 i x0 x1 x2 x3 x4 x5 s).pa
            ∗ owns (c : Thread nD τ) arg12 fullShare (step1 i x0 x1 x2 x3 x4 x5 s).ap
            ∗ owns (c : Thread nD τ) arg13 fullShare (step1 i x0 x1 x2 x3 x4 x5 s).nh
            ∗ owns (c : Thread nD τ) arg14 fullShare (step1 i x0 x1 x2 x3 x4 x5 s).na
            ∗ owns (c : Thread nD τ) arg15 fullShare (step1 i x0 x1 x2 x3 x4 x5 s).an) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hg0; obtain rfl := harg11.eq_unread hg1; obtain rfl := harg12.eq_unread hg2; obtain rfl := harg13.eq_unread hg3; obtain rfl := harg14.eq_unread hg4; obtain rfl := harg15.eq_unread hg5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [H7]
  · iexists _; isplitr
    swap; · iexact H7
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S0]
  · iexists _; isplitr
    swap; · iexact S0
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S1]
  · iexists _; isplitr
    swap; · iexact S1
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S2]
  · iexists _; isplitr
    swap; · iexact S2
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S3]
  · iexists _; isplitr
    swap; · iexact S3
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S4]
  · iexists _; isplitr
    swap; · iexact S4
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  iexists _; isplitr
  swap; · iexact S5
  ipureintro
  (try sl_unfold_run_names)
  rw [read_writes_whole _ _ hz2]
  (try sl_unfold_run_names)
  simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]

end Cert.Kernel.Hand

end
-- ==== Proof.K.R1Dat.lean ====
/-
  Pass 2 (the second pallas_call): its proof data at the buffer contents `V` the region is entered with, and the body
  obligation.

  After the body at point t every input window's staging buffer holds the window's block there; the six accumulators hold
  the fold, over the column tiles of the point's row tile up to and including t's, of the one-tile transition from the
  initial value; at a last column tile the two output buffers hold the row losses and the validity column computed
  from the accumulators. The region invariant is, before the first point, every scoped buffer at anything; afterwards
  the accumulators' buffers at the fold up to the point before, and every other scoped buffer and the generator
  register untouched.
-/
import proofs.«144686_j9225589752058_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, its block
    index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, its block
    index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- The six accumulators after the body at position `n`: at a first column tile one tile folded into the initial value,
    elsewhere one tile folded into what the point before left. -/
def acc1 (c : Dev nD) : (n : ℕ) → n < cfg1.N → Acc1 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) init1
  | n + 1, hn =>
    if (n + 1) % 16 = 0 then
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) init1
    else
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (acc1 c n (Nat.lt_of_succ_lt hn))

/-- At a first column tile: the tile folded into the initial value. -/
theorem acc1_first (c : Dev nD) (t : Fin cfg1.N) (h : t.val % 16 = 0) :
    acc1 V c t.val t.isLt = step1 (grid1.coords t) (iblk1 V c 0 t) (iblk1 V c 1 t) (iblk1 V c 2 t) (iblk1 V c 3 t) (iblk1 V c 4 t) (iblk1 V c 5 t) init1 := by
  obtain ⟨n, hn⟩ := t
  cases n with
  | zero => exact rfl
  | succ n => exact (if_pos h).trans rfl

/-- Elsewhere: the tile folded into what the point before left. -/
theorem acc1_next (c : Dev nD) (t : Fin cfg1.N) (h : t.val % 16 ≠ 0) :
    acc1 V c t.val t.isLt = step1 (grid1.coords t) (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- Before position `n`: before the first point every scoped buffer at anything; afterwards the accumulators' buffers at
    what the point before left, the other scoped buffers and the generator register at some contents. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn).ph ∗ owns (c : Thread nD τ) scM1_1 fullShare (acc1 V c n hn).pa ∗ owns (c : Thread nD τ) scM1_2 fullShare (acc1 V c n hn).ap ∗ owns (c : Thread nD τ) scM1_3 fullShare (acc1 V c n hn).nh ∗ owns (c : Thread nD τ) scM1_4 fullShare (acc1 V c n hn).na ∗ owns (c : Thread nD τ) scM1_5 fullShare (acc1 V c n hn).an) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn).ph ∗ owns (c : Thread nD τ) scM1_1 fullShare (acc1 V c n hn).pa ∗ owns (c : Thread nD τ) scM1_2 fullShare (acc1 V c n hn).ap ∗ owns (c : Thread nD τ) scM1_3 fullShare (acc1 V c n hn).nh ∗ owns (c : Thread nD τ) scM1_4 fullShare (acc1 V c n hn).na ∗ owns (c : Thread nD τ) scM1_5 fullShare (acc1 V c n hn).an) ∗ others1 (F := F) c ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)).ph ∗ owns (c : Thread nD τ) scM1_1 fullShare (acc1 V c (n - 1) (by omega)).pa ∗ owns (c : Thread nD τ) scM1_2 fullShare (acc1 V c (n - 1) (by omega)).ap ∗ owns (c : Thread nD τ) scM1_3 fullShare (acc1 V c (n - 1) (by omega)).nh ∗ owns (c : Thread nD τ) scM1_4 fullShare (acc1 V c (n - 1) (by omega)).na ∗ owns (c : Thread nD τ) scM1_5 fullShare (acc1 V c (n - 1) (by omega)).an) ∗ others1 (F := F) c ∗ (∃ r, prngReg c r)) := by
  cases n with
  | zero => exact absurd rfl hz
  | succ n => rfl

/-! ## The proof data -/

/-- The proof data of pass 2 on core `c`, holding input array `w` at the share `q w`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (fin1 (iblk1 V c 4 t) (iblk1 V c 5 t) (acc1 V c t.val t.isLt)).1
    | ⟨7, _⟩ => (fin1 (iblk1 V c 4 t) (iblk1 V c 5 t) (acc1 V c t.val t.isLt)).2
  Φ t := PhiS1 V c t.val (Nat.le_of_lt_succ t.isLt)
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

theorem PhiS1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = iblk1 V c 5 t := by dsimp only [dat1]
theorem after1_6 (q : Fin cfg1.W → PosShare TreeShare) (c : Dev nD) (t : Fin cfg1.N) : (dat1 V q c).after 6 t = (fin1 (iblk1 V c 4 t) (iblk1 V c 5 t) (acc1 V c t.val t.isLt)).1 := by dsimp only [dat1]
theorem after1_7 (q : Fin cfg1.W → PosShare TreeShare) (c : Dev nD) (t : Fin cfg1.N) : (dat1 V q c).after 7 t = (fin1 (iblk1 V c 4 t) (iblk1 V c 5 t) (acc1 V c t.val t.isLt)).2 := by dsimp only [dat1]

/-- Each input's current staging buffer holds its block at every point. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d
theorem before1_5 (q : Fin cfg1.W → PosShare TreeShare) (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d))
    ∗ (∃ d, owns (c : Thread nD τ) (ms1_7 t) fullShare ((dat1 V q c).before 7 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t
    ∗ (dat1 V q c).leavesExact 7 t)

set_option maxHeartbeats 4800000 in
/-- The body at any point: the inputs' buffers hold their blocks; the closed forms of the two conditions say which of
    the three cases the point is in, so that case's run applies; the invariant hands the body the accumulators' buffers at
    what the point before left (at anything before a first column tile) and takes them back at this point's fold. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).owesAt () t.succ = (dat1 V q c).owesAt () t.castSucc from rfl]
  rw [show (dat1 V q c).Φ t.succ = PhiS1 V c (t.val + 1) t.isLt from rfl, PhiS1_succ]
  have hN : t.val < 128 := lt_of_lt_of_eq t.isLt (show cfg1.N = 128 from N_1)
  rw [show (dat1 V q c).leavesExact 0 t = owns (c : Thread nD τ) (ms1_0 t) fullShare ((dat1 V q c).after 0 t) from by unfold Dat.leavesExact; rw [liveAt1_0 t], after1_0]
  rw [show (dat1 V q c).leavesExact 1 t = owns (c : Thread nD τ) (ms1_1 t) fullShare ((dat1 V q c).after 1 t) from by unfold Dat.leavesExact; rw [liveAt1_1 t], after1_1]
  rw [show (dat1 V q c).leavesExact 2 t = owns (c : Thread nD τ) (ms1_2 t) fullShare ((dat1 V q c).after 2 t) from by unfold Dat.leavesExact; rw [liveAt1_2 t], after1_2]
  rw [show (dat1 V q c).leavesExact 3 t = owns (c : Thread nD τ) (ms1_3 t) fullShare ((dat1 V q c).after 3 t) from by unfold Dat.leavesExact; rw [liveAt1_3 t], after1_3]
  rw [show (dat1 V q c).leavesExact 4 t = owns (c : Thread nD τ) (ms1_4 t) fullShare ((dat1 V q c).after 4 t) from by unfold Dat.leavesExact; rw [liveAt1_4 t], after1_4]
  rw [show (dat1 V q c).leavesExact 5 t = owns (c : Thread nD τ) (ms1_5 t) fullShare ((dat1 V q c).after 5 t) from by unfold Dat.leavesExact; rw [liveAt1_5 t], after1_5]
  by_cases h0 : t.val % 16 = 0
  · have h1 : ¬t.val % 16 = 15 := by omega
    rw [Dat.leavesExact_idle (dat1 V q c) 6 t (idleAt1_6 t (fun h => h1 ((hcond1_1 t).mp h))) (noFlush1_6 t (fun h => h1 ((hcond1_1 t).mp h)))]
    rw [Dat.leavesExact_idle (dat1 V q c) 7 t (idleAt1_7 t (fun h => h1 ((hcond1_1 t).mp h))) (noFlush1_7 t (fun h => h1 ((hcond1_1 t).mp h)))]
    rw [acc1_first V c t h0]
    by_cases hz : t.val = 0
    · rw [PhiS1_castSucc V q c t, PhiS1_zero V c _ _ hz, PhiA1_eq]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V q c t, PhiS1_pos V c _ _ hz]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := by omega
    by_cases h1 : t.val % 16 = 15
    · rw [show (dat1 V q c).leavesExact 6 t = owns (c : Thread nD τ) (ms1_6 t) fullShare ((dat1 V q c).after 6 t) from by unfold Dat.leavesExact; rw [liveAt1_6 t ((hcond1_1 t).mpr h1)], after1_6]
      rw [show (dat1 V q c).leavesExact 7 t = owns (c : Thread nD τ) (ms1_7 t) fullShare ((dat1 V q c).after 7 t) from by unfold Dat.leavesExact; rw [liveAt1_7 t ((hcond1_1 t).mpr h1)], after1_7]
      rw [acc1_next V c t h0]
      rw [PhiS1_castSucc V q c t, PhiS1_pos V c _ _ hz]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V q c) 6 t (idleAt1_6 t (fun h => h1 ((hcond1_1 t).mp h))) (noFlush1_6 t (fun h => h1 ((hcond1_1 t).mp h)))]
      rw [Dat.leavesExact_idle (dat1 V q c) 7 t (idleAt1_7 t (fun h => h1 ((hcond1_1 t).mp h))) (noFlush1_7 t (fun h => h1 ((hcond1_1 t).mp h)))]
      rw [acc1_next V c t h0]
      rw [PhiS1_castSucc V q c t, PhiS1_pos V c _ _ hz]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

/-- What the launch hands the region is the invariant before the first point. -/
theorem hin1 (q : Fin cfg1.W → PosShare TreeShare) (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point the invariant gives the launch's back: the accumulators' named contents are forgotten. -/
theorem Phi_out1 (q : Fin cfg1.W → PosShare TreeShare) (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht, PhiA1_eq]
  iintro ⟨⟨S0, S1, S2, S3, S4, S5⟩, Hoth, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [Hoth]; · iexact Hoth
  iexact Hg

/-- The same after the last point. -/
theorem hout1 (q : Fin cfg1.W → PosShare TreeShare) (c : Dev nD) : (dat1 V q c).Φ (Fin.last cfg1.N) ⊢ Pipeline.ΦA spec1 c :=
  Phi_out1 V q c _ (by rw [Fin.val_last]; have : cfg1.N = 128 := N_1; omega)

end Region

end Cert.Kernel.Hand

end
-- ==== Proof.K.Arrays0.lean ====
/-
  Pass 1's windows and the buffers behind them. Two of the six windows (the row block and the column block) read the
  same array, the embedding matrix; the pipeline holds each window's array at a share, so the matrix's full share is
  dealt in two halves to those two windows and put together again when the region ends. The other arrays — the two
  label reshapes and the two result columns — are distinct buffers held whole.
-/
import proofs.«144686_j9225589752058_2_alg».proof.Proof.Gen.Kernel.Launch
import Idealize.ShloMosaic.Lib.Pipeline.Kit
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

/-- The shares the input windows hold their arrays at: the two windows on the embedding matrix one half each. -/
def q0 : Fin cfg0.W → PosShare TreeShare := fun
  | ⟨0, _⟩ => fullShare.left
  | ⟨1, _⟩ => fullShare.right
  | _ => fullShare

/-- The distinct buffers behind the windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0)
          ∗ (((c : Thread nD τ).loc main_v0) ↦{fullShare} V main_v0)
          ∗ (((c : Thread nD τ).loc main_v1) ↦{fullShare} V main_v1)
          ∗ (((c : Thread nD τ).loc main_v2_0) ↦{fullShare} V main_v2_0)
          ∗ (((c : Thread nD τ).loc main_v2_1) ↦{fullShare} V main_v2_1)) := by
  unfold Pipeline.arrBufs
  exact bigSep_eq_bigSepL_of_eq [main_arg0, main_v0, main_v1, main_v2_0, main_v2_1] (by decide) (by decide) _

variable {c : Dev nD}

/-- ENTRY: the core's unscoped buffers at `V` are the windows' arrays at `V`'s contents, the matrix dealt in halves, and the rest. -/
theorem arrays0_split (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (unscopedBufs c V : sProp 𝕄) ⊢ iprop(dat.arrays Fa ∗ Pipeline.unscopedRest spec0 c V) := by
  rw [Pipeline.unscopedBufs_split₀ cfgs 0 winFacts₀0.arr_unscoped c V]
  show iprop(Pipeline.arrBufs spec0 c V ∗ Pipeline.unscopedRest spec0 c V) ⊢ _
  rw [arrBufs0_eq]
  unfold Dat.arrays
  rw [bigSep_W0]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := rfl
  have s5 : dat.share 5 = fullShare := rfl
  rw [(arr_whole0 0).set_eq_univ, (arr_whole0 2).set_eq_univ, (arr_whole0 3).set_eq_univ, (arr_whole0 4).set_eq_univ, (arr_whole0 5).set_eq_univ,
    s0, s1, s2, s3, s4, s5, hF 0, hF 1, hF 2, hF 3, hF 4, hF 5]
  iintro ⟨⟨Ha, H_v0, H_v1, H_v2_0, H_v2_1⟩, Hr⟩
  have hs : (((c : Thread nD τ).loc main_arg0) ↦{fullShare} V main_arg0 : sProp 𝕄) ⊢ iprop((((c : Thread nD τ).loc main_arg0) ↦{fullShare.left} V main_arg0) ∗ (((c : Thread nD τ).loc main_arg0) ↦{fullShare.right} V main_arg0)) :=
    (pointsTo_share (PosShare.mem_left_op_right fullShare)).1
  ihave Hs := hs $$ Ha
  icases Hs with ⟨Hl, Hrr⟩
  isplitr [Hr]
  · isplitl [Hl]; · iexact Hl
    isplitl [Hrr]; · iexact Hrr
    isplitl [H_v0]; · iexact H_v0
    isplitl [H_v1]; · iexact H_v1
    isplitl [H_v2_0]; · iexact H_v2_0
    iexact H_v2_1
  iexact Hr

/-- EXIT: the windows' arrays at contents `Fa`, the matrix's two halves at one contents, and the rest at `V` are the core's unscoped
    buffers at any valuation that has the arrays at `Fa` and agrees with `V` off them. -/
theorem arrays0_join (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [Pipeline.unscopedBufs_split₀ cfgs 0 winFacts₀0.arr_unscoped c V']
  show _ ⊢ iprop(Pipeline.arrBufs spec0 c V' ∗ Pipeline.unscopedRest spec0 c V')
  rw [arrBufs0_eq]
  unfold Dat.arrays
  rw [bigSep_W0]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := rfl
  have s5 : dat.share 5 = fullShare := rfl
  rw [(arr_whole0 0).set_eq_univ, (arr_whole0 2).set_eq_univ, (arr_whole0 3).set_eq_univ, (arr_whole0 4).set_eq_univ, (arr_whole0 5).set_eq_univ,
    s0, s1, s2, s3, s4, s5, hF 0, hF 1, hF 2, hF 3, hF 4, hF 5]
  have hr : (Pipeline.unscopedRest (Ix := Unit) (Name := ℕ) (U := UR sig nD τ) (Lvl := ℕ) spec0 c V : sProp 𝕄) = Pipeline.unscopedRest spec0 c V' := by
    unfold Pipeline.unscopedRest
    exact bigSep_congr fun b hb => by rw [hrest b (Finset.mem_sdiff.mp hb).2]
  rw [hr]
  iintro ⟨⟨Hl, Hrr, H_v0, H_v1, H_v2_0, H_v2_1⟩, Hr⟩
  isplitr [Hr]
  · isplitl [Hl Hrr]
    · iapply (pointsTo_share (PosShare.mem_left_op_right fullShare)).2
      isplitl [Hl]; · iexact Hl
      iexact Hrr
    isplitl [H_v0]; · iexact H_v0
    isplitl [H_v1]; · iexact H_v1
    isplitl [H_v2_0]; · iexact H_v2_0
    iexact H_v2_1
  iexact Hr

end Cert.Kernel.Hand

end
-- ==== Proof.K.Arrays1.lean ====
/-
  Pass 2's windows and the buffers behind them. Two of the eight windows (the row block and the column block) read the
  same array, the embedding matrix; its full share is dealt in two halves to those two windows and put together again
  when the region ends. The other arrays — the two label reshapes, pass 1's two result columns and pass 2's own two —
  are distinct buffers held whole.
-/
import proofs.«144686_j9225589752058_2_alg».proof.Proof.Gen.Kernel.Launch
import Idealize.ShloMosaic.Lib.Pipeline.Kit
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

/-- The shares the input windows hold their arrays at: the two windows on the embedding matrix one half each. -/
def q1 : Fin cfg1.W → PosShare TreeShare := fun
  | ⟨0, _⟩ => fullShare.left
  | ⟨1, _⟩ => fullShare.right
  | _ => fullShare

/-- The distinct buffers behind the windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0)
          ∗ (((c : Thread nD τ).loc main_v0) ↦{fullShare} V main_v0)
          ∗ (((c : Thread nD τ).loc main_v1) ↦{fullShare} V main_v1)
          ∗ (((c : Thread nD τ).loc main_v2_0) ↦{fullShare} V main_v2_0)
          ∗ (((c : Thread nD τ).loc main_v2_1) ↦{fullShare} V main_v2_1)
          ∗ (((c : Thread nD τ).loc main_v3_0) ↦{fullShare} V main_v3_0)
          ∗ (((c : Thread nD τ).loc main_v3_1) ↦{fullShare} V main_v3_1)) := by
  unfold Pipeline.arrBufs
  exact bigSep_eq_bigSepL_of_eq [main_arg0, main_v0, main_v1, main_v2_0, main_v2_1, main_v3_0, main_v3_1] (by decide) (by decide) _

variable {c : Dev nD}

/-- ENTRY: the core's unscoped buffers at `V` are the windows' arrays at `V`'s contents, the matrix dealt in halves, and the rest. -/
theorem arrays1_split (dat : Dat τ (Elt F) Unit ℕ (UR sig nD τ) ℕ cfg1 c)
    (hq0 : dat.q 0 = fullShare.left) (hq1 : dat.q 1 = fullShare.right) (hq2 : dat.q 2 = fullShare) (hq3 : dat.q 3 = fullShare) (hq4 : dat.q 4 = fullShare) (hq5 : dat.q 5 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (unscopedBufs c V : sProp 𝕄) ⊢ iprop(dat.arrays Fa ∗ Pipeline.unscopedRest spec1 c V) := by
  rw [Pipeline.unscopedBufs_split₀ cfgs 1 winFacts₀1.arr_unscoped c V]
  show iprop(Pipeline.arrBufs spec1 c V ∗ Pipeline.unscopedRest spec1 c V) ⊢ _
  rw [arrBufs1_eq]
  unfold Dat.arrays
  rw [bigSep_W1]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := by unfold Dat.share; rw [hq4]; rfl
  have s5 : dat.share 5 = fullShare := by unfold Dat.share; rw [hq5]; rfl
  have s6 : dat.share 6 = fullShare := rfl
  have s7 : dat.share 7 = fullShare := rfl
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ,
    s0, s1, s2, s3, s4, s5, s6, s7, hF 0, hF 1, hF 2, hF 3, hF 4, hF 5, hF 6, hF 7]
  iintro ⟨⟨Ha, H_v0, H_v1, H_v2_0, H_v2_1, H_v3_0, H_v3_1⟩, Hr⟩
  have hs : (((c : Thread nD τ).loc main_arg0) ↦{fullShare} V main_arg0 : sProp 𝕄) ⊢ iprop((((c : Thread nD τ).loc main_arg0) ↦{fullShare.left} V main_arg0) ∗ (((c : Thread nD τ).loc main_arg0) ↦{fullShare.right} V main_arg0)) :=
    (pointsTo_share (PosShare.mem_left_op_right fullShare)).1
  ihave Hs := hs $$ Ha
  icases Hs with ⟨Hl, Hrr⟩
  isplitr [Hr]
  · isplitl [Hl]; · iexact Hl
    isplitl [Hrr]; · iexact Hrr
    isplitl [H_v0]; · iexact H_v0
    isplitl [H_v1]; · iexact H_v1
    isplitl [H_v2_0]; · iexact H_v2_0
    isplitl [H_v2_1]; · iexact H_v2_1
    isplitl [H_v3_0]; · iexact H_v3_0
    iexact H_v3_1
  iexact Hr

/-- EXIT: the windows' arrays at contents `Fa`, the matrix's two halves at one contents, and the rest at `V` are the core's unscoped
    buffers at any valuation that has the arrays at `Fa` and agrees with `V` off them. -/
theorem arrays1_join (dat : Dat τ (Elt F) Unit ℕ (UR sig nD τ) ℕ cfg1 c)
    (hq0 : dat.q 0 = fullShare.left) (hq1 : dat.q 1 = fullShare.right) (hq2 : dat.q 2 = fullShare) (hq3 : dat.q 3 = fullShare) (hq4 : dat.q 4 = fullShare) (hq5 : dat.q 5 = fullShare)
    (V V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [Pipeline.unscopedBufs_split₀ cfgs 1 winFacts₀1.arr_unscoped c V']
  show _ ⊢ iprop(Pipeline.arrBufs spec1 c V' ∗ Pipeline.unscopedRest spec1 c V')
  rw [arrBufs1_eq]
  unfold Dat.arrays
  rw [bigSep_W1]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := by unfold Dat.share; rw [hq4]; rfl
  have s5 : dat.share 5 = fullShare := by unfold Dat.share; rw [hq5]; rfl
  have s6 : dat.share 6 = fullShare := rfl
  have s7 : dat.share 7 = fullShare := rfl
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ,
    s0, s1, s2, s3, s4, s5, s6, s7, hF 0, hF 1, hF 2, hF 3, hF 4, hF 5, hF 6, hF 7]
  have hr : (Pipeline.unscopedRest (Ix := Unit) (Name := ℕ) (U := UR sig nD τ) (Lvl := ℕ) spec1 c V : sProp 𝕄) = Pipeline.unscopedRest spec1 c V' := by
    unfold Pipeline.unscopedRest
    exact bigSep_congr fun b hb => by rw [hrest b (Finset.mem_sdiff.mp hb).2]
  rw [hr]
  iintro ⟨⟨Hl, Hrr, H_v0, H_v1, H_v2_0, H_v2_1, H_v3_0, H_v3_1⟩, Hr⟩
  isplitr [Hr]
  · isplitl [Hl Hrr]
    · iapply (pointsTo_share (PosShare.mem_left_op_right fullShare)).2
      isplitl [Hl]; · iexact Hl
      iexact Hrr
    isplitl [H_v0]; · iexact H_v0
    isplitl [H_v1]; · iexact H_v1
    isplitl [H_v2_0]; · iexact H_v2_0
    isplitl [H_v2_1]; · iexact H_v2_1
    isplitl [H_v3_0]; · iexact H_v3_0
    iexact H_v3_1
  iexact Hr

end Cert.Kernel.Hand

end
-- ==== Proof.K.RunCond.lean ====
/-
  The whole program's run from its two regions' records, with the result buffer read back: the program is two host
  reshapes of the label vector, pass 1, pass 2, and seven host operations that sum the two result columns and divide.
  Between two items every unscoped buffer is held at a valuation: the launch contents, then each host stretch applied,
  then what a region may change. The statement below keeps, beside the two argument arrays, the final valuation's value
  of the result.
-/
import proofs.«144686_j9225589752058_2_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- The program's run, given the regions' records: as the conditional frame, with the result buffer read back too. For any rest
    states `E` the launch makes on every core at once and that end owing nothing, any contents the regions leave (`outs`) and any
    proof data: given, per region, a segment record entered from the thread state before it and left at the one after it, every
    weakly fair execution of @main terminates and every final memory holds the result at the last valuation's value and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v7) = Gen.V4 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => s.mem ((c.tc : Thread nD τ).loc main_v7) = Gen.V4 m outs c main_v7 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.Kernel.Hand

end
-- ==== Proof.K.Regs.lean ====
/-
  The two passes as segments of the program's run, and the run itself.

  Between two items of @main every unscoped buffer of the core is held at a valuation: the launch contents with the two
  label reshapes applied; then pass 1's two result columns at what its write-backs leave; then pass 2's two result columns
  likewise; then the seven closing host operations applied. A pass takes its windows' arrays out of the valuation when it is
  entered (the embedding matrix, which two of its windows read, in two half shares) and puts them back, the result columns at
  their new contents, when it ends; the generator register goes into the body's invariant and comes back; nothing is owed.
-/
import proofs.«144686_j9225589752058_2_alg».proof.Proof.K.R0Dat
import proofs.«144686_j9225589752058_2_alg».proof.Proof.K.R1Dat
import proofs.«144686_j9225589752058_2_alg».proof.Proof.K.Arrays0
import proofs.«144686_j9225589752058_2_alg».proof.Proof.K.Arrays1
import proofs.«144686_j9225589752058_2_alg».proof.Proof.K.RunCond
import Idealize.ShloMosaic.Lib.Pipeline.FrameBody
import Idealize.ShloMosaic.Lib.Pipeline.RegionsLoop
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- The buffers when pass 1 is entered, read at the TensorCore's references. -/
abbrev U1 (c : Dev nD) (b : Ref sig .tc) : Buf (Elt F) ((c : Thread nD τ).loc b) := Gen.V1 m c b

/-- What pass 1's write-backs leave in window `w`'s array. -/
def res0 (c : Dev nD) (w : Fin cfg0.W) : Buf (Elt F) ((cfg0.win w).arr.view.loc (c : Thread nD τ)) :=
  (dat0 (U1 m) q0 c).arrAt w cfg0.N

/-- The buffers when pass 1 ends: its two result columns at what it leaves, every other buffer as entered. -/
def W2 (c : Dev nD) : Valuation τ sig (Elt F) :=
  Function.update (Function.update (Gen.V1 m c) main_v2_0 (res0 m c 4)) main_v2_1 (res0 m c 5)

/-- The same read at the TensorCore's references (what pass 2 is entered from). -/
abbrev U2 (c : Dev nD) (b : Ref sig .tc) : Buf (Elt F) ((c : Thread nD τ).loc b) := W2 m c b

/-- What pass 2's write-backs leave in window `w`'s array. -/
def res1 (c : Dev nD) (w : Fin cfg1.W) : Buf (Elt F) ((cfg1.win w).arr.view.loc (c : Thread nD τ)) :=
  (dat1 (U2 m) q1 c).arrAt w cfg1.N

/-- The buffers when pass 2 ends. -/
def W3 (c : Dev nD) : Valuation τ sig (Elt F) :=
  Function.update (Function.update (W2 m c) main_v3_0 (res1 m c 6)) main_v3_1 (res1 m c 7)

/-- The regions' results as the run's statement takes them: after item 1 the valuation `W2`, after item 2 `W3`. -/
def outsF : Gen.Outs (F := F) := fun J r c => if J = 2 then W2 m c r else W3 m c r

theorem W2_v2_0 (c : Dev nD) : W2 m c main_v2_0 = res0 m c 4 := by
  unfold W2; rw [Function.update_of_ne (by decide), Function.update_self]
theorem W2_v2_1 (c : Dev nD) : W2 m c main_v2_1 = res0 m c 5 := by
  unfold W2; rw [Function.update_self]
theorem W2_of (c : Dev nD) (r : Ref sig .tc) (h : r ∉ ([main_v2_0, main_v2_1] : List (Ref sig .tc))) : W2 m c r = Gen.V1 m c r := by
  unfold W2
  rw [Function.update_of_ne (StableHlo.devRef_ne_of_ne (List.ne_of_not_mem_cons (List.not_mem_of_not_mem_cons h)) : (Proc.devRef .tc r : DevRef τ sig) ≠ Proc.devRef .tc main_v2_1),
    Function.update_of_ne (StableHlo.devRef_ne_of_ne (List.ne_of_not_mem_cons h) : (Proc.devRef .tc r : DevRef τ sig) ≠ Proc.devRef .tc main_v2_0)]
theorem W3_v3_0 (c : Dev nD) : W3 m c main_v3_0 = res1 m c 6 := by
  unfold W3; rw [Function.update_of_ne (by decide), Function.update_self]
theorem W3_v3_1 (c : Dev nD) : W3 m c main_v3_1 = res1 m c 7 := by
  unfold W3; rw [Function.update_self]
theorem W3_of (c : Dev nD) (r : Ref sig .tc) (h : r ∉ ([main_v3_0, main_v3_1] : List (Ref sig .tc))) : W3 m c r = W2 m c r := by
  unfold W3
  rw [Function.update_of_ne (StableHlo.devRef_ne_of_ne (List.ne_of_not_mem_cons (List.not_mem_of_not_mem_cons h)) : (Proc.devRef .tc r : DevRef τ sig) ≠ Proc.devRef .tc main_v3_1),
    Function.update_of_ne (StableHlo.devRef_ne_of_ne (List.ne_of_not_mem_cons h) : (Proc.devRef .tc r : DevRef τ sig) ≠ Proc.devRef .tc main_v3_0)]

/-- The run's valuation after pass 1 is `W2`, -/
theorem V2_eq (c : Dev nD) : Gen.V2 m (outsF m) c = W2 m c := by
  show Function.update (Function.update (Gen.V1 m c) main_v2_0 (outsF m 2 main_v2_0 c)) main_v2_1 (outsF m 2 main_v2_1 c) = _
  unfold outsF; rw [if_pos rfl, if_pos rfl, W2_v2_0, W2_v2_1]; rfl
/-- and after pass 2 `W3`. -/
theorem V3_eq (c : Dev nD) : Gen.V3 m (outsF m) c = W3 m c := by
  show Function.update (Function.update (Gen.V2 m (outsF m) c) main_v3_0 (outsF m 3 main_v3_0 c)) main_v3_1 (outsF m 3 main_v3_1 c) = _
  rw [V2_eq]; unfold outsF; rw [if_neg (by decide), if_neg (by decide), W3_v3_0, W3_v3_1]; rfl

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (U1 m) q0 c
  | ⟨1, _⟩ => fun c => dat1 (U2 m) q1 c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hF0 (c : Dev nD) (w : Fin cfg0.W) : res0 m c w = U2 m c (Pipeline.arrRef spec0 w) := by
  match w with
  | ⟨0, _⟩ => exact (((dat0 (U1 m) q0 c).arrAt_in 0 rfl _).trans (A_eq0 (U1 m) q0 c 0)).trans (W2_of m c main_arg0 (by decide)).symm
  | ⟨1, _⟩ => exact (((dat0 (U1 m) q0 c).arrAt_in 1 rfl _).trans (A_eq0 (U1 m) q0 c 1)).trans (W2_of m c main_arg0 (by decide)).symm
  | ⟨2, _⟩ => exact (((dat0 (U1 m) q0 c).arrAt_in 2 rfl _).trans (A_eq0 (U1 m) q0 c 2)).trans (W2_of m c main_v0 (by decide)).symm
  | ⟨3, _⟩ => exact (((dat0 (U1 m) q0 c).arrAt_in 3 rfl _).trans (A_eq0 (U1 m) q0 c 3)).trans (W2_of m c main_v1 (by decide)).symm
  | ⟨4, _⟩ => exact (W2_v2_0 m c).symm
  | ⟨5, _⟩ => exact (W2_v2_1 m c).symm

theorem hrest0 (c : Dev nD) : ∀ b, b ∉ Finset.univ.image (Pipeline.arrRef spec0) → U2 m c b = U1 m c b := fun b hb =>
  W2_of m c b (fun h => hb (by
    rcases List.mem_cons.mp h with h | h
    · exact h ▸ Finset.mem_image.mpr ⟨4, Finset.mem_univ _, rfl⟩
    · exact (List.mem_singleton.mp h) ▸ Finset.mem_image.mpr ⟨5, Finset.mem_univ _, rfl⟩))

theorem hF1 (c : Dev nD) (w : Fin cfg1.W) : res1 m c w = (fun b : Ref sig .tc => (W3 m c b : Buf (Elt F) ((c : Thread nD τ).loc b))) (Pipeline.arrRef spec1 w) := by
  match w with
  | ⟨0, _⟩ => exact (((dat1 (U2 m) q1 c).arrAt_in 0 rfl _).trans (A_eq1 (U2 m) q1 c 0)).trans (W3_of m c main_arg0 (by decide)).symm
  | ⟨1, _⟩ => exact (((dat1 (U2 m) q1 c).arrAt_in 1 rfl _).trans (A_eq1 (U2 m) q1 c 1)).trans (W3_of m c main_arg0 (by decide)).symm
  | ⟨2, _⟩ => exact (((dat1 (U2 m) q1 c).arrAt_in 2 rfl _).trans (A_eq1 (U2 m) q1 c 2)).trans (W3_of m c main_v0 (by decide)).symm
  | ⟨3, _⟩ => exact (((dat1 (U2 m) q1 c).arrAt_in 3 rfl _).trans (A_eq1 (U2 m) q1 c 3)).trans (W3_of m c main_v1 (by decide)).symm
  | ⟨4, _⟩ => exact (((dat1 (U2 m) q1 c).arrAt_in 4 rfl _).trans (A_eq1 (U2 m) q1 c 4)).trans (W3_of m c main_v2_0 (by decide)).symm
  | ⟨5, _⟩ => exact (((dat1 (U2 m) q1 c).arrAt_in 5 rfl _).trans (A_eq1 (U2 m) q1 c 5)).trans (W3_of m c main_v2_1 (by decide)).symm
  | ⟨6, _⟩ => exact (W3_v3_0 m c).symm
  | ⟨7, _⟩ => exact (W3_v3_1 m c).symm

theorem hrest1 (c : Dev nD) : ∀ b : Ref sig .tc, b ∉ Finset.univ.image (Pipeline.arrRef spec1) → W3 m c b = W2 m c b := fun b hb =>
  W3_of m c b (fun h => hb (by
    rcases List.mem_cons.mp h with h | h
    · exact h ▸ Finset.mem_image.mpr ⟨6, Finset.mem_univ _, rfl⟩
    · exact (List.mem_singleton.mp h) ▸ Finset.mem_image.mpr ⟨7, Finset.mem_univ _, rfl⟩))

/-! ## The regions as segments -/

set_option backward.isDefEq.respectTransparency.types false in
/-- Pass 1 over the thread state: entered from every unscoped buffer at `V1`, left at `W2`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) q0 c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := arrays0_split (pdats m 0 c) rfl rfl rfl rfl (U1 m c) ((pdats m 0 c).arrAt · 0) (fun w => A_eq0 (U1 m) q0 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) q0 c)
    unfold Pipeline.ΦA
    iintro ⟨Hp, -, Hr⟩
    isplitl [Hr]; · iexact Hr
    iexact Hp
  hout c := by
    rw [Pipeline.ownSems0_none]
    refine (hout0 (U1 m) q0 c).trans ?_
    unfold Pipeline.ΦA
    iintro ⟨Hr, Hp⟩
    isplitl [Hp]; · iexact Hp
    isplitr; · iempintro
    iexact Hr
  hexit c := by
    have hjoin := arrays0_join (pdats m 0 c) rfl rfl rfl rfl (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at `W2`, left at `W3`. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) q1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := arrays1_split (pdats m 1 c) rfl rfl rfl rfl rfl rfl (U2 m c) ((pdats m 1 c).arrAt · 0) (fun w => A_eq1 (U2 m) q1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m) q1 c)
    unfold Pipeline.ΦA
    iintro ⟨Hp, -, Hr⟩
    isplitl [Hr]; · iexact Hr
    iexact Hp
  hout c := by
    rw [Pipeline.ownSems0_none]
    refine (hout1 (U2 m) q1 c).trans ?_
    unfold Pipeline.ΦA
    iintro ⟨Hr, Hp⟩
    isplitl [Hp]; · iexact Hp
    isplitr; · iempintro
    iexact Hr
  hexit c := by
    have hjoin := arrays1_join (pdats m 1 c) rfl rfl rfl rfl rfl rfl (U2 m c) (fun b => W3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; the result buffer
    ends at the closing host operations' value of pass 2's two result columns, and the two argument arrays end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v7) = Gen.V4 m (outsF m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond (Ix := Unit) (U := UR sig nD τ) (Lvl := ℕ) m emb₁ () 𝒱₀ L lv (fun _ _ => rfl) ρ (outsF m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

/-- The frame: every weakly fair execution terminates, nothing faults, the argument arrays end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Step.lean ====
/-
  The two kernels' per-point state transitions as pure functions, at any float instance.

  Pass 1 keeps, per row of its row tile, a running minimum over the positive pairs and a running maximum over the
  negative pairs of the similarity tile; pass 2 keeps six per-row accumulators (two masked sums of exp(-2(s-1/2)), two of
  exp(50(s-1/2)), and two 0/1 flags "some hard pair met"). One grid point folds one 1024 x 512 tile of the similarity
  matrix into them. The functions below compose the kernels' named arithmetic in the order the bodies apply it.
-/
import proofs.«144686_j9225589752058_2_alg».proof.Proof.Gen.KernelIdeal.Skeleton

noncomputable section

namespace Cert.KernelIdeal.Hand

open Idealize.ShloMosaic Idealize.SL.Sem
open Cert.KernelIdeal

variable {F : FTy → Type} [FloatOps F]

/-! ## Pass 1 -/

/-- The pair (running minimum over positives, running maximum over negatives) before the first column tile: +inf, -inf. -/
def init0 : Vec F S1024x1 .f32 × Vec F S1024x1 .f32 := (Gen.k0_pay3 (F := F), Gen.k0_pay4 (F := F))

/-- One column tile folded into the pair: the row block `x0`, the column block `x1`, the row labels `x2`, the column
    labels `x3`, at grid coordinates `i` (the diagonal mask reads them). -/
def step0 (i : grid0.Coords) (x0 : Vec F S1024x128 .f32) (x1 : Vec F S512x128 .f32) (x2 : Vec F S1024x1 .i32)
    (x3 : Vec F S1x512 .i32) (s : Vec F S1024x1 .f32 × Vec F S1024x1 .f32) : Vec F S1024x1 .f32 × Vec F S1024x1 .f32 :=
  (Gen.k0_pay1 (Gen.k0_pay7 i x0 x1 x2 x3) s.1, Gen.k0_pay2 (Gen.k0_pay8 x0 x1 x2 x3) s.2)

/-! ## Pass 2 -/

/-- Pass 2's six per-row accumulators: hard-positive sum, all-positive sum, hard-positive flag, hard-negative sum,
    all-negative sum, hard-negative flag (the kernel's scratch operands in this order: 0, 1, 2, 3, 4, 5). -/
structure Acc1 (F : FTy → Type) [FloatOps F] where
  ph : Vec F S1024x1 .f32
  pa : Vec F S1024x1 .f32
  ap : Vec F S1024x1 .f32
  nh : Vec F S1024x1 .f32
  na : Vec F S1024x1 .f32
  an : Vec F S1024x1 .f32

/-- All six start at zero. -/
def init1 : Acc1 F := ⟨Gen.k1_pay1 (F := F), Gen.k1_pay2 (F := F), Gen.k1_pay3 (F := F), Gen.k1_pay4 (F := F), Gen.k1_pay5 (F := F), Gen.k1_pay6 (F := F)⟩

/-- One column tile folded into the six accumulators: row block `x0`, column block `x1`, row labels `x2`, column labels
    `x3`, the row block of pass 1's minima `x4` and maxima `x5`. -/
def step1 (i : grid1.Coords) (x0 : Vec F S1024x128 .f32) (x1 : Vec F S512x128 .f32) (x2 : Vec F S1024x1 .i32)
    (x3 : Vec F S1x512 .i32) (x4 : Vec F S1024x1 .f32) (x5 : Vec F S1024x1 .f32) (s : Acc1 F) : Acc1 F :=
  let v6 := Gen.k1_pay7 x0 x1
  let v26 := Gen.k1_pay9 (F := F) i x2 x3
  let v27 := Gen.k1_pay10 (F := F) x2 x3
  let v31 := Gen.k1_pay12 x5
  let v36 := Gen.k1_pay13 x0 x1 x2 x3 x4
  let v41 := Gen.k1_pay14 v6 v26 v31
  let v51 := Gen.k1_pay16 v6
  let v73 := Gen.k1_pay19 v6 v36
  ⟨Gen.k1_pay17 v6 v26 v31 s.ph, Gen.k1_pay18 v6 v26 s.pa, Gen.k1_pay22 v41 s.ap,
   Gen.k1_pay20 s.nh v73, Gen.k1_pay21 v27 v51 s.na, Gen.k1_pay23 v36 s.an⟩

/-- What the last column tile's point writes into the two output blocks, from the accumulators after that point and the
    row blocks of pass 1's minima and maxima: the row losses (zero on rows without a positive or without a negative)
    and the 0/1 validity column. -/
def fin1 (x4 : Vec F S1024x1 .f32) (x5 : Vec F S1024x1 .f32) (s : Acc1 F) : Vec F S1024x1 .f32 × Vec F S1024x1 .f32 :=
  (Gen.k1_pay25 (Gen.k1_pay11 x4) (Gen.k1_pay12 x5) s.ap s.ph s.pa s.an s.nh s.na,
   Gen.k1_pay26 (Gen.k1_pay11 x4) (Gen.k1_pay12 x5))

end Cert.KernelIdeal.Hand

end
-- ==== Proof.KI.R0Runs.lean ====
/-
  Pass 1 (pipeline 0), what its three control cases share.

  The body branches twice on the column-tile coordinate j = t % 16 of the grid point t: at j = 0 it first resets the
  two scratch columns (running minimum over positives, running maximum over negatives) to +inf / -inf; at j = 15 it
  copies them to the two output blocks. Here: the two conditions in closed form over the 128 points, where the two
  output windows are idle and where they are written back, the staging and scratch memrefs the body is called on,
  and the region invariant with the two scratch columns split off the other scoped buffers.
-/
import proofs.«144686_j9225589752058_2_alg».proof.Proof.Gen.KernelIdeal.Launch
import proofs.«144686_j9225589752058_2_alg».proof.Proof.Gen.KernelIdeal.Skeleton
import proofs.«144686_j9225589752058_2_alg».proof.Proof.Gen.KernelIdeal.Points
import proofs.«144686_j9225589752058_2_alg».proof.Proof.KI.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the first branch (reset the scratch columns), from the grid coordinates. -/
abbrev cond0_0 (i : grid0.Coords) : Prop := (Scalar.cmpi .ne (Scalar.extui (Scalar.cmpi .eq (BitVec.ofNat 32 (i 1).val) 0#32)) 0#32) = 1#1
/-- It holds at the points with column tile 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the second branch (copy the scratch columns to the outputs), from the grid coordinates. -/
abbrev cond0_1 (i : grid0.Coords) : Prop := k0_cond2 i = 1#1
/-- It holds at the points with column tile 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The four input windows are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
/-- Off the last column tile the two outputs are idle and not written back; on it they are live. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The memrefs the body is called on -/

/-- Each window's current staging memref at point `t`, and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two scratch columns: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1

/-- The offsets of every rectangle the body loads or stores through: zero on both axes. -/
theorem hz2 : (![0, 0] : Fin 2 → ℕ) = fun _ => 0 := by funext a; fin_cases a <;> rfl

/-! ## The region invariant -/

/-- The scoped buffers that are neither a staging buffer nor a scratch column of this call (the other call's
    staging buffers and accumulators), each at some contents: they ride through this call untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f))

/-- The class's invariant with the two scratch columns as memrefs owned at some contents, the other scoped
    buffers as one remainder, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA; rw [scopedRest0_eq]; unfold rest0; simp only [scM0_0, scM0_1, owns_whole]; try rfl

end Cert.KernelIdeal.Hand

end
-- ==== Proof.KI.R0RunB.lean ====
/-
  Pass 1, the body's run at a point with column tile strictly between 0 and 15: no branch is taken. The body loads
  the four input blocks, folds the tile into the two scratch columns and leaves everything else as it was.
-/
import proofs.«144686_j9225589752058_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the inputs' at their blocks, the two idle outputs' at anything (handed back untouched), the
    scratch columns at the pair `s` the point before left — the body runs to the continuation holding the inputs and
    the outputs as they were and the scratch columns at `step0` of the blocks and `s`. -/
theorem kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .f32) (x1 : Vec F S512x128 .f32) (x2 : Vec F S1024x1 .i32) (x3 : Vec F S1x512 .i32) (s : Vec F S1024x1 .f32 × Vec F S1024x1 .f32)
    (xi4 : Vec F S1024x1 .f32) (xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare s.1 ∗ owns (c : Thread nD τ) arg9 fullShare s.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (step0 i x0 x1 x2 x3 s).1 ∗ owns (c : Thread nD τ) arg9 fullShare (step0 i x0 x1 x2 x3 s).2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  · iexists _; isplitr
    swap; · iexact HS0
    ipureintro
    rw [View.read_writes_eq_canon _ _ _ (fun y => ⟨_, List.Mem.head _, View.mem_set_unit_zero hz2 inb_S1024x1_S1024x1_0_0 y⟩), View.canon_unit_zero hz2]
    sl_unfold_run_names
    simp only [View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  iexists _; isplitr
  swap; · iexact HS1
  ipureintro
  rw [View.read_writes_eq_canon _ _ _ (fun y => ⟨_, List.Mem.head _, View.mem_set_unit_zero hz2 inb_S1024x1_S1024x1_0_0 y⟩), View.canon_unit_zero hz2]
  sl_unfold_run_names
  simp only [View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
  rfl

end Cert.KernelIdeal.Hand

end
-- ==== Proof.KI.R0RunA.lean ====
/-
  Pass 1, the body's run at a point with column tile 0: the first branch is taken, the second is not. The body
  first stores +inf / -inf into the two scratch columns, then folds the tile into them; whatever the columns held
  before is overwritten unread.
-/
import proofs.«144686_j9225589752058_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the inputs' at their blocks, the two idle outputs' at anything (handed back untouched), the
    scratch columns at anything — the body runs to the continuation holding the inputs and the outputs as they
    were and the scratch columns at `step0` of the blocks and the initial pair. -/
theorem kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .f32) (x1 : Vec F S512x128 .f32) (x2 : Vec F S1024x1 .i32) (x3 : Vec F S1x512 .i32)
    (xi4 : Vec F S1024x1 .f32) (xi5 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare (step0 i x0 x1 x2 x3 init0).1 ∗ owns (c : Thread nD τ) arg9 fullShare (step0 i x0 x1 x2 x3 init0).2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [HS0]
  ·
    iexists _; isplitr
    swap; · iexact HS0
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  iexists _; isplitr
  swap; · iexact HS1
  ipureintro
  sl_unfold_run_names
  rw [View.read_writes_eq_canon _ _ _ (fun y => ⟨_, List.Mem.head _, View.mem_set_unit_zero hz2 inb_S1024x1_S1024x1_0_0 y⟩)]
  simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
  rfl

end Cert.KernelIdeal.Hand

end
-- ==== Proof.KI.R0RunC.lean ====
/-
  Pass 1, the body's run at a point with column tile 15: the first branch is not taken, the second is. The body
  folds the tile into the two scratch columns and then copies them into the two output blocks.
-/
import proofs.«144686_j9225589752058_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the inputs' at their blocks, the two outputs' at anything, the scratch columns at the pair
    `s` the point before left — the body runs to the continuation holding the inputs as they were and the scratch
    columns and the two outputs at `step0` of the blocks and `s`. -/
theorem kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .f32) (x1 : Vec F S512x128 .f32) (x2 : Vec F S1024x1 .i32) (x3 : Vec F S1x512 .i32) (s : Vec F S1024x1 .f32 × Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare s.1 ∗ owns (c : Thread nD τ) arg9 fullShare s.2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step0 i x0 x1 x2 x3 s).1 ∗ owns (c : Thread nD τ) arg7 fullShare (step0 i x0 x1 x2 x3 s).2 ∗ owns (c : Thread nD τ) arg8 fullShare (step0 i x0 x1 x2 x3 s).1 ∗ owns (c : Thread nD τ) arg9 fullShare (step0 i x0 x1 x2 x3 s).2) -∗ K ⟨⟩))
      ⊢ wp frame (wpE (defs₀ (F := F)) Variants.none c none) E (cc0__pass1_kernel i arg2 harg2 arg3 harg3 arg4 harg4 arg5 harg5 arg6 harg6 arg7 harg7 arg8 harg8 arg9 harg9) K := by
  simp only [cc0__pass1_kernel_eq_skeleton]; unfold cc0__pass1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg8.eq_unread hfs0; obtain rfl := harg9.eq_unread hfs1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  ·
    iexists _; isplitr
    swap; · iexact H4
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  isplitl [H5]
  ·
    iexists _; isplitr
    swap; · iexact H5
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  isplitl [HS0]
  ·
    iexists _; isplitr
    swap; · iexact HS0
    ipureintro
    sl_unfold_run_names
    rw [View.read_writes_eq_canon _ _ _ (fun y => ⟨_, List.Mem.head _, View.mem_set_unit_zero hz2 inb_S1024x1_S1024x1_0_0 y⟩)]
    simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
    rfl
  iexists _; isplitr
  swap; · iexact HS1
  ipureintro
  sl_unfold_run_names
  rw [View.read_writes_eq_canon _ _ _ (fun y => ⟨_, List.Mem.head _, View.mem_set_unit_zero hz2 inb_S1024x1_S1024x1_0_0 y⟩)]
  simp only [View.canon_cons_unit_zero (S := S1024x1) hz2, View.readCov_cons_toLoadRect, View.readAt_eq_ld, harg2.read_unread, harg3.read_unread, harg4.read_unread, harg5.read_unread, harg8.read_unread, harg9.read_unread, View.ld_unit_zero (S := S1024x128) hz2, View.ld_unit_zero (S := S512x128) hz2, View.ld_unit_zero (S := S1024x1) hz2, View.ld_unit_zero (S := S1x512) hz2]
  rfl

end Cert.KernelIdeal.Hand

end
-- ==== Proof.KI.R0Dat.lean ====
/-
  Pass 1 (pipeline 0), the proof data at a parameter `V` — the TensorCore's buffer contents when the region is
  entered — and its body obligation.

  After the body at point t every input window's staging buffer holds the window's block of its array; the two
  scratch columns hold the fold `acc0` of `step0` over the column tiles of the current row tile up to t (restarted
  from `init0` at column tile 0); at column tile 15 the two output windows' buffers hold the two components of that
  fold, elsewhere they are idle. The region invariant carries the scratch columns at `acc0` of the point before.
-/
import proofs.«144686_j9225589752058_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: unfetched, the
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: unfetched, the
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: unfetched, the
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The scratch columns point by point -/

/-- What the two scratch columns hold after the body at position `n`: `step0` of the point's blocks over the initial
    pair at column tile 0, over what position `n - 1` left elsewhere. -/
def acc0 (c : Dev nD) : (n : ℕ) → n < cfg0.N → Vec F S1024x1 .f32 × Vec F S1024x1 .f32
  | 0, hn => step0 (grid0.coords ⟨0, hn⟩) (iblk0 V c 0 ⟨0, hn⟩) (iblk0 V c 1 ⟨0, hn⟩) (iblk0 V c 2 ⟨0, hn⟩) (iblk0 V c 3 ⟨0, hn⟩) init0
  | n + 1, hn =>
    if (n + 1) % 16 = 0 then step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) init0
    else step0 (grid0.coords ⟨n + 1, hn⟩) (iblk0 V c 0 ⟨n + 1, hn⟩) (iblk0 V c 1 ⟨n + 1, hn⟩) (iblk0 V c 2 ⟨n + 1, hn⟩) (iblk0 V c 3 ⟨n + 1, hn⟩) (acc0 c n (Nat.lt_of_succ_lt hn))

/-- At column tile 0 the fold restarts. -/
theorem acc0_first (c : Dev nD) (t : Fin cfg0.N) (h : t.val % 16 = 0) :
    acc0 V c t.val t.isLt = step0 (grid0.coords t) (iblk0 V c 0 t) (iblk0 V c 1 t) (iblk0 V c 2 t) (iblk0 V c 3 t) init0 := by
  obtain ⟨n, hn⟩ := t
  cases n with
  | zero => rfl
  | succ n => exact if_pos h

/-- Elsewhere it continues from the point before. -/
theorem acc0_next (c : Dev nD) (t : Fin cfg0.N) (h : t.val % 16 ≠ 0) :
    acc0 V c t.val t.isLt = step0 (grid0.coords t) (iblk0 V c 0 t) (iblk0 V c 1 t) (iblk0 V c 2 t) (iblk0 V c 3 t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- Before the first point the class's invariant; afterwards the two scratch columns at what the point before left,
    the other scoped buffers and the generator register as they come. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2 ∗ rest0 (F := F) c) ∗ (∃ r, prngReg c r)) := by
  cases n with
  | zero => exact absurd rfl hz
  | succ n => rfl

/-! ## The proof data -/

/-- The proof data of pipeline 0 on core `c`, at shares `q` of the input arrays. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (acc0 V c t.val t.isLt).1
    | ⟨5, _⟩ => (acc0 V c t.val t.isLt).2
  Φ t := PhiS0 V c t.val (Nat.le_of_lt_succ t.isLt)
  q := q
  owed _ := 0

variable (q : Fin cfg0.W → PosShare TreeShare)

theorem A_eq0 (c : Dev nD) (w : Fin cfg0.W) : (dat0 V q c).A w = V c (Pipeline.arrRef spec0 w) := by
  dsimp only [dat0]

theorem PhiS0_castSucc (c : Dev nD) (t : Fin cfg0.N) :
    (dat0 V q c).Φ t.castSucc = PhiS0 V c t.val (Nat.le_of_lt t.isLt) := by
  dsimp only [dat0]; simp only [Fin.coe_castSucc]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = (acc0 V c t.val t.isLt).1 := by dsimp only [dat0]
theorem after0_5 (c : Dev nD) (t : Fin cfg0.N) : (dat0 V q c).after 5 t = (acc0 V c t.val t.isLt).2 := by dsimp only [dat0]

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

/-! ## The body obligation, at a generic point -/

/-- What the body is called with at point `t`, -/
def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d))
    ∗ (∃ d, owns (c : Thread nD τ) (ms0_5 t) fullShare ((dat0 V q c).before 5 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t ∗ (dat0 V q c).leavesExact 1 t ∗ (dat0 V q c).leavesExact 2 t
    ∗ (dat0 V q c).leavesExact 3 t ∗ (dat0 V q c).leavesExact 4 t ∗ (dat0 V q c).leavesExact 5 t)

set_option maxHeartbeats 4800000 in
/-- The body at any point: the inputs' memrefs hold their blocks; the closed forms of the two conditions say which
    case the point is in, and that case's run applies; the invariant hands the body the scratch columns (at anything
    where they are reset, at the point before's fold elsewhere) and takes them back at this point's fold. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [show (dat0 V q c).Φ t.succ = PhiS0 V c (t.val + 1) t.isLt from rfl, PhiS0_succ]
  have hN : t.val < 128 := lt_of_lt_of_eq t.isLt (show cfg0.N = 128 from N_0)
  rw [show (dat0 V q c).leavesExact 0 t = owns (c : Thread nD τ) (ms0_0 t) fullShare ((dat0 V q c).after 0 t) from by
    unfold Dat.leavesExact; first | rw [liveAt0_0 t] | rfl, after0_0]
  rw [show (dat0 V q c).leavesExact 1 t = owns (c : Thread nD τ) (ms0_1 t) fullShare ((dat0 V q c).after 1 t) from by
    unfold Dat.leavesExact; first | rw [liveAt0_1 t] | rfl, after0_1]
  rw [show (dat0 V q c).leavesExact 2 t = owns (c : Thread nD τ) (ms0_2 t) fullShare ((dat0 V q c).after 2 t) from by
    unfold Dat.leavesExact; first | rw [liveAt0_2 t] | rfl, after0_2]
  rw [show (dat0 V q c).leavesExact 3 t = owns (c : Thread nD τ) (ms0_3 t) fullShare ((dat0 V q c).after 3 t) from by
    unfold Dat.leavesExact; first | rw [liveAt0_3 t] | rfl, after0_3]
  by_cases h0 : t.val % 16 = 0
  · have hc0 : cond0_0 (grid0.coords t) := (hcond0_0 t).mpr h0
    have hc1 : ¬cond0_1 (grid0.coords t) := fun h => by have := (hcond0_1 t).mp h; omega
    rw [Dat.leavesExact_idle (dat0 V q c) 4 t (idleAt0_4 t hc1) (noFlush0_4 t hc1), Dat.leavesExact_idle (dat0 V q c) 5 t (idleAt0_5 t hc1) (noFlush0_5 t hc1)]
    rw [acc0_first V c t h0]
    by_cases hz : t.val = 0
    · rw [PhiS0_castSucc V q c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hc0 : ¬cond0_0 (grid0.coords t) := fun h => h0 ((hcond0_0 t).mp h)
    have hz : t.val ≠ 0 := by omega
    by_cases h1 : t.val % 16 = 15
    · have hc1 : cond0_1 (grid0.coords t) := (hcond0_1 t).mpr h1
      rw [show (dat0 V q c).leavesExact 4 t = owns (c : Thread nD τ) (ms0_4 t) fullShare ((dat0 V q c).after 4 t) from by
        unfold Dat.leavesExact; rw [liveAt0_4 t hc1], after0_4]
      rw [show (dat0 V q c).leavesExact 5 t = owns (c : Thread nD τ) (ms0_5 t) fullShare ((dat0 V q c).after 5 t) from by
        unfold Dat.leavesExact; rw [liveAt0_5 t hc1], after0_5]
      rw [acc0_next V c t h0]
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_C c (grid0.coords t) _ _ _ _ _ _ _ _ _ _ _ _ _ _ _ _ hc0 hc1 (iblk0 V c 0 t) (iblk0 V c 1 t) (iblk0 V c 2 t) (iblk0 V c 3 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V q c) 4 t (idleAt0_4 t hc1) (noFlush0_4 t hc1), Dat.leavesExact_idle (dat0 V q c) 5 t (idleAt0_5 t hc1) (noFlush0_5 t hc1)]
      rw [acc0_next V c t h0]
      rw [PhiS0_castSucc V q c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) _ _ _ _ _ _ _ _ _ _ _ _ _ _ _ _ hc0 hc1 (iblk0 V c 0 t) (iblk0 V c 1 t) (iblk0 V c 2 t) (iblk0 V c 3 t) (acc0 V c (t.val - 1) (Nat.lt_of_le_of_lt (Nat.sub_le _ _) t.isLt)) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After the last point the invariant gives the class's back: the scratch columns' named contents are forgotten. -/
theorem hout0 (c : Dev nD) : (dat0 V q c).Φ (Fin.last cfg0.N) ⊢ Pipeline.ΦA spec0 c := by
  rw [show (dat0 V q c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS0, HS1, HR⟩, Hg⟩
  isplitr [Hg]
  · isplitl [HS0]; · iexists _; iexact HS0
    isplitl [HS1]; · iexists _; iexact HS1
    iexact HR
  iexact Hg

end Region0

end Cert.KernelIdeal.Hand

end
-- ==== Proof.KI.R1Runs.lean ====
/-
  Pass 2 (the second pallas_call), what its three control cases share.

  A grid point t = (t / 16, t % 16) of the 8 x 16 grid folds column tile t % 16 into the six per-row accumulators of row
  tile t / 16. The body resets the accumulators at the first column tile (t % 16 = 0) and writes the two output blocks
  at the last one (t % 16 = 15); elsewhere the output windows are idle and are not written back. This module states the
  two branch conditions in closed form over the grid, where the output windows are idle, the staging and scratch
  memrefs the body is called with, and the region invariant split into the six accumulators' buffers, every other
  scoped buffer (left as one unopened remainder) and the generator register.
-/
import proofs.«144686_j9225589752058_2_alg».proof.Proof.Gen.KernelIdeal.Launch
import proofs.«144686_j9225589752058_2_alg».proof.Proof.Gen.KernelIdeal.Skeleton
import proofs.«144686_j9225589752058_2_alg».proof.Proof.Gen.KernelIdeal.Points
import proofs.«144686_j9225589752058_2_alg».proof.Proof.KI.Step
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions -/

/-- The condition of the first conditional (reset the accumulators), from the grid coordinates. -/
abbrev cond1_0 (i : grid1.Coords) : Prop := (Scalar.cmpi .ne (Scalar.extui (Scalar.cmpi .eq (BitVec.ofNat 32 (i 1).val) 0#32)) 0#32) = 1#1
/-- It holds exactly at the first column tile of each row tile. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the second conditional (write the outputs), from the grid coordinates. -/
abbrev cond1_1 (i : grid1.Coords) : Prop := k1_cond2 i = 1#1
/-- It holds exactly at the last column tile of each row tile. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Input window 0 is never idle. -/
theorem liveAt1_0 : ∀ t : Fin cfg1.N, cfg1.idle 0 (grid1.coords t) = false := by decide +kernel
/-- Input window 1 is never idle. -/
theorem liveAt1_1 : ∀ t : Fin cfg1.N, cfg1.idle 1 (grid1.coords t) = false := by decide +kernel
/-- Input window 2 is never idle. -/
theorem liveAt1_2 : ∀ t : Fin cfg1.N, cfg1.idle 2 (grid1.coords t) = false := by decide +kernel
/-- Input window 3 is never idle. -/
theorem liveAt1_3 : ∀ t : Fin cfg1.N, cfg1.idle 3 (grid1.coords t) = false := by decide +kernel
/-- Input window 4 is never idle. -/
theorem liveAt1_4 : ∀ t : Fin cfg1.N, cfg1.idle 4 (grid1.coords t) = false := by decide +kernel
/-- Input window 5 is never idle. -/
theorem liveAt1_5 : ∀ t : Fin cfg1.N, cfg1.idle 5 (grid1.coords t) = false := by decide +kernel
/-- Off the last column tile output window 6 is idle: the body stores nothing into it, -/
theorem idleAt1_6 : ∀ t : Fin cfg1.N, ¬cond1_1 (grid1.coords t) → cfg1.idle 6 (grid1.coords t) = true := by decide +kernel
/-- and the pipeline does not write its block back. -/
theorem noFlush1_6 : ∀ t : Fin cfg1.N, ¬cond1_1 (grid1.coords t) → (cfg1.win 6).flush t = false := by decide +kernel
/-- At the last column tile output window 6 is live. -/
theorem liveAt1_6 : ∀ t : Fin cfg1.N, cond1_1 (grid1.coords t) → cfg1.idle 6 (grid1.coords t) = false := by decide +kernel
/-- Off the last column tile output window 7 is idle: the body stores nothing into it, -/
theorem idleAt1_7 : ∀ t : Fin cfg1.N, ¬cond1_1 (grid1.coords t) → cfg1.idle 7 (grid1.coords t) = true := by decide +kernel
/-- and the pipeline does not write its block back. -/
theorem noFlush1_7 : ∀ t : Fin cfg1.N, ¬cond1_1 (grid1.coords t) → (cfg1.win 7).flush t = false := by decide +kernel
/-- At the last column tile output window 7 is live. -/
theorem liveAt1_7 : ∀ t : Fin cfg1.N, cond1_1 (grid1.coords t) → cfg1.idle 7 (grid1.coords t) = false := by decide +kernel

/-! ## The memrefs the body is called with -/

/-- Window 0's current staging memref at point `t`, and its wholeness. -/
abbrev ms1_0 (t : Fin cfg1.N) : Memref sig .tc .vmem S1024x128 .f32 := win1_0.stage (cfg1.slots t 0)
abbrev hs1_0 (t : Fin cfg1.N) : (ms1_0 t).IsWhole := hstage1_0 ((cfg1.slots t 0).cast nbuf1_0)
/-- Window 1's current staging memref at point `t`, and its wholeness. -/
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
/-- Window 2's current staging memref at point `t`, and its wholeness. -/
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
/-- Window 3's current staging memref at point `t`, and its wholeness. -/
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
/-- Window 4's current staging memref at point `t`, and its wholeness. -/
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
/-- Window 5's current staging memref at point `t`, and its wholeness. -/
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- Window 6's current staging memref at point `t`, and its wholeness. -/
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- Window 7's current staging memref at point `t`, and its wholeness. -/
abbrev ms1_7 (t : Fin cfg1.N) : Memref sig .tc .vmem S1024x1 .f32 := win1_7.stage (cfg1.slots t 7)
abbrev hs1_7 (t : Fin cfg1.N) : (ms1_7 t).IsWhole := hstage1_7 ((cfg1.slots t 7).cast nbuf1_7)
/-- Accumulator 0's buffer: a whole scoped buffer of the kernel's own. -/
abbrev scM1_0 : Memref sig .tc .vmem S1024x1 .f32 := Memref.whole cc1_scratch0
/-- Accumulator 1's buffer: a whole scoped buffer of the kernel's own. -/
abbrev scM1_1 : Memref sig .tc .vmem S1024x1 .f32 := Memref.whole cc1_scratch1
/-- Accumulator 2's buffer: a whole scoped buffer of the kernel's own. -/
abbrev scM1_2 : Memref sig .tc .vmem S1024x1 .f32 := Memref.whole cc1_scratch2
/-- Accumulator 3's buffer: a whole scoped buffer of the kernel's own. -/
abbrev scM1_3 : Memref sig .tc .vmem S1024x1 .f32 := Memref.whole cc1_scratch3
/-- Accumulator 4's buffer: a whole scoped buffer of the kernel's own. -/
abbrev scM1_4 : Memref sig .tc .vmem S1024x1 .f32 := Memref.whole cc1_scratch4
/-- Accumulator 5's buffer: a whole scoped buffer of the kernel's own. -/
abbrev scM1_5 : Memref sig .tc .vmem S1024x1 .f32 := Memref.whole cc1_scratch5

/-! ## The region invariant, split -/

/-- The six accumulators' buffers. -/
abbrev accRefs1 : List (Ref sig .tc) := [cc1_scratch0, cc1_scratch1, cc1_scratch2, cc1_scratch3, cc1_scratch4, cc1_scratch5]

/-- Every scoped buffer of the core that is neither a staging buffer of this call nor an accumulator, at some contents
    each: the other call's staging buffers and running pair. The body touches none of them. -/
def others1 (c : Dev nD) : sProp 𝕄 :=
  Pipeline.scopedRestBut (Ix := Unit) (Name := ℕ) (U := UR sig nD τ) (Lvl := ℕ) (Val := Elt F) spec1 c accRefs1

/-- The region invariant as the six accumulators' buffers owned at some contents, the other scoped buffers, and the
    generator register at some state. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)
          ∗ (∃ d, owns (c : Thread nD τ) scM1_2 fullShare d) ∗ (∃ d, owns (c : Thread nD τ) scM1_3 fullShare d)
          ∗ (∃ d, owns (c : Thread nD τ) scM1_4 fullShare d) ∗ (∃ d, owns (c : Thread nD τ) scM1_5 fullShare d))
        ∗ others1 (F := F) c ∗ (∃ r, prngReg c r)) := by
  unfold Pipeline.ΦA others1
  rw [Pipeline.scopedRest_split_of_list spec1 c accRefs1 (by decide) (by decide)]
  simp only [accRefs1, bigSepL_cons_cons, bigSepL_singleton, scM1_0, scM1_1, scM1_2, scM1_3, scM1_4, scM1_5, owns_whole]
  exact BI.equiv_iff.mp ⟨Idealize.SL.BI.sep_assoc, Idealize.SL.BI.sep_assoc'⟩

end Cert.KernelIdeal.Hand

end
-- ==== Proof.KI.R1RunA.lean ====
/-
  Pass 2's body at a first column tile (the reset is taken, the outputs are not written): on whole memrefs — the six input
  blocks at their contents, the two output buffers at contents handed back untouched, the six accumulators' buffers at
  anything — the body runs to the continuation holding the inputs and the outputs as they were and the accumulators at
  one tile folded into the initial value (the body stores the initial value, reads it back and folds the tile in).
-/
import proofs.«144686_j9225589752058_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- A buffer whose LAST store went through the whole-shape rectangle at zero offsets reads back as that store's payload,
    whatever it held and whatever was stored before. -/
theorem read_writes_whole {Val : EltTy → Type} [∀ e, Nonempty (Val e)] {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.Mem.head _, View.mem_set_unit_zero h inb y⟩), View.canon_cons_unit_zero h]

set_option maxHeartbeats 4000000 in
theorem kernelRun1_A (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : cond1_0 i) (hc1 : ¬cond1_1 i)
    (x0 : Vec F S1024x128 .f32) (x1 : Vec F S512x128 .f32) (x2 : Vec F S1024x1 .i32) (x3 : Vec F S1x512 .i32) (x4 : Vec F S1024x1 .f32) (x5 : Vec F S1024x1 .f32) (xi6 : Vec F S1024x1 .f32) (xi7 : Vec F S1024x1 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare xi6
        ∗ owns (c : Thread nD τ) arg9 fullShare xi7
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare (step1 i x0 x1 x2 x3 x4 x5 init1).ph
            ∗ owns (c : Thread nD τ) arg11 fullShare (step1 i x0 x1 x2 x3 x4 x5 init1).pa
            ∗ owns (c : Thread nD τ) arg12 fullShare (step1 i x0 x1 x2 x3 x4 x5 init1).ap
            ∗ owns (c : Thread nD τ) arg13 fullShare (step1 i x0 x1 x2 x3 x4 x5 init1).nh
            ∗ owns (c : Thread nD τ) arg14 fullShare (step1 i x0 x1 x2 x3 x4 x5 init1).na
            ∗ owns (c : Thread nD τ) arg15 fullShare (step1 i x0 x1 x2 x3 x4 x5 init1).an) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%e0, %g0, -, S0⟩, ⟨%e1, %g1, -, S1⟩, ⟨%e2, %g2, -, S2⟩, ⟨%e3, %g3, -, S3⟩, ⟨%e4, %g4, -, S4⟩, ⟨%e5, %g5, -, S5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [S0]
  · iexists _; isplitr
    swap; · iexact S0
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S1]
  · iexists _; isplitr
    swap; · iexact S1
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S2]
  · iexists _; isplitr
    swap; · iexact S2
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S3]
  · iexists _; isplitr
    swap; · iexact S3
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S4]
  · iexists _; isplitr
    swap; · iexact S4
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  iexists _; isplitr
  swap; · iexact S5
  ipureintro
  rw [read_writes_whole _ _ hz2]
  sl_unfold_run_names
  simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]

end Cert.KernelIdeal.Hand

end
-- ==== Proof.KI.R1RunB.lean ====
/-
  Pass 2's body at a middle column tile (no reset, the outputs are not written): on whole memrefs — the six input blocks
  at their contents, the two output buffers at contents handed back untouched, the six accumulators' buffers at what the
  tile before left — the body runs to the continuation holding the inputs and the outputs as they were and the
  accumulators with this tile folded in.
-/
import proofs.«144686_j9225589752058_2_alg».proof.Proof.KI.R1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem kernelRun1_B (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond1_0 i) (hc1 : ¬cond1_1 i)
    (x0 : Vec F S1024x128 .f32) (x1 : Vec F S512x128 .f32) (x2 : Vec F S1024x1 .i32) (x3 : Vec F S1x512 .i32) (x4 : Vec F S1024x1 .f32) (x5 : Vec F S1024x1 .f32) (s : Acc1 F) (xi6 : Vec F S1024x1 .f32) (xi7 : Vec F S1024x1 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare xi6
        ∗ owns (c : Thread nD τ) arg9 fullShare xi7
        ∗ owns (c : Thread nD τ) arg10 fullShare s.ph
        ∗ owns (c : Thread nD τ) arg11 fullShare s.pa
        ∗ owns (c : Thread nD τ) arg12 fullShare s.ap
        ∗ owns (c : Thread nD τ) arg13 fullShare s.nh
        ∗ owns (c : Thread nD τ) arg14 fullShare s.na
        ∗ owns (c : Thread nD τ) arg15 fullShare s.an
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare xi6
            ∗ owns (c : Thread nD τ) arg9 fullShare xi7
            ∗ owns (c : Thread nD τ) arg10 fullShare (step1 i x0 x1 x2 x3 x4 x5 s).ph
            ∗ owns (c : Thread nD τ) arg11 fullShare (step1 i x0 x1 x2 x3 x4 x5 s).pa
            ∗ owns (c : Thread nD τ) arg12 fullShare (step1 i x0 x1 x2 x3 x4 x5 s).ap
            ∗ owns (c : Thread nD τ) arg13 fullShare (step1 i x0 x1 x2 x3 x4 x5 s).nh
            ∗ owns (c : Thread nD τ) arg14 fullShare (step1 i x0 x1 x2 x3 x4 x5 s).na
            ∗ owns (c : Thread nD τ) arg15 fullShare (step1 i x0 x1 x2 x3 x4 x5 s).an) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hg0; obtain rfl := harg11.eq_unread hg1; obtain rfl := harg12.eq_unread hg2; obtain rfl := harg13.eq_unread hg3; obtain rfl := harg14.eq_unread hg4; obtain rfl := harg15.eq_unread hg5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [S0]
  · iexists _; isplitr
    swap; · iexact S0
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S1]
  · iexists _; isplitr
    swap; · iexact S1
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S2]
  · iexists _; isplitr
    swap; · iexact S2
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S3]
  · iexists _; isplitr
    swap; · iexact S3
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S4]
  · iexists _; isplitr
    swap; · iexact S4
    ipureintro
    rw [read_writes_whole _ _ hz2]
    sl_unfold_run_names
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  iexists _; isplitr
  swap; · iexact S5
  ipureintro
  rw [read_writes_whole _ _ hz2]
  sl_unfold_run_names
  simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]

end Cert.KernelIdeal.Hand

end
-- ==== Proof.KI.R1RunC.lean ====
/-
  Pass 2's body at a last column tile (no reset, the outputs are written): on whole memrefs — the six input blocks at
  their contents, the two output buffers at anything, the six accumulators' buffers at what the tile before left — the
  body runs to the continuation holding the inputs as they were, the accumulators with this tile folded in, and the two
  output buffers at the row losses and the validity column computed from the final accumulators.
-/
import proofs.«144686_j9225589752058_2_alg».proof.Proof.KI.R1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem kernelRun1_C (c : Dev nD) (i : grid1.Coords) (arg2 : Memref sig .tc .vmem S1024x128 .f32) (harg2 : arg2.IsWhole) (arg3 : Memref sig .tc .vmem S512x128 .f32) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x1 .f32) (harg14 : arg14.IsWhole) (arg15 : Memref sig .tc .vmem S1024x1 .f32) (harg15 : arg15.IsWhole) (hc0 : ¬cond1_0 i) (hc1 : cond1_1 i)
    (x0 : Vec F S1024x128 .f32) (x1 : Vec F S512x128 .f32) (x2 : Vec F S1024x1 .i32) (x3 : Vec F S1x512 .i32) (x4 : Vec F S1024x1 .f32) (x5 : Vec F S1024x1 .f32) (s : Acc1 F) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ (∃ d, owns (c : Thread nD τ) arg8 fullShare d)
        ∗ (∃ d, owns (c : Thread nD τ) arg9 fullShare d)
        ∗ owns (c : Thread nD τ) arg10 fullShare s.ph
        ∗ owns (c : Thread nD τ) arg11 fullShare s.pa
        ∗ owns (c : Thread nD τ) arg12 fullShare s.ap
        ∗ owns (c : Thread nD τ) arg13 fullShare s.nh
        ∗ owns (c : Thread nD τ) arg14 fullShare s.na
        ∗ owns (c : Thread nD τ) arg15 fullShare s.an
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (fin1 x4 x5 (step1 i x0 x1 x2 x3 x4 x5 s)).1
            ∗ owns (c : Thread nD τ) arg9 fullShare (fin1 x4 x5 (step1 i x0 x1 x2 x3 x4 x5 s)).2
            ∗ owns (c : Thread nD τ) arg10 fullShare (step1 i x0 x1 x2 x3 x4 x5 s).ph
            ∗ owns (c : Thread nD τ) arg11 fullShare (step1 i x0 x1 x2 x3 x4 x5 s).pa
            ∗ owns (c : Thread nD τ) arg12 fullShare (step1 i x0 x1 x2 x3 x4 x5 s).ap
            ∗ owns (c : Thread nD τ) arg13 fullShare (step1 i x0 x1 x2 x3 x4 x5 s).nh
            ∗ owns (c : Thread nD τ) arg14 fullShare (step1 i x0 x1 x2 x3 x4 x5 s).na
            ∗ owns (c : Thread nD τ) arg15 fullShare (step1 i x0 x1 x2 x3 x4 x5 s).an) -∗ K ⟨⟩))
      ⊢ wp frame (wpE (defs₀ (F := F)) Variants.none c none) E (cc1__pass2_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__pass2_kernel_eq_skeleton]; unfold cc1__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hg0; obtain rfl := harg11.eq_unread hg1; obtain rfl := harg12.eq_unread hg2; obtain rfl := harg13.eq_unread hg3; obtain rfl := harg14.eq_unread hg4; obtain rfl := harg15.eq_unread hg5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [H7]
  · iexists _; isplitr
    swap; · iexact H7
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S0]
  · iexists _; isplitr
    swap; · iexact S0
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S1]
  · iexists _; isplitr
    swap; · iexact S1
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S2]
  · iexists _; isplitr
    swap; · iexact S2
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S3]
  · iexists _; isplitr
    swap; · iexact S3
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  isplitl [S4]
  · iexists _; isplitr
    swap; · iexact S4
    ipureintro
    (try sl_unfold_run_names)
    rw [read_writes_whole _ _ hz2]
    (try sl_unfold_run_names)
    simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]
  iexists _; isplitr
  swap; · iexact S5
  ipureintro
  (try sl_unfold_run_names)
  rw [read_writes_whole _ _ hz2]
  (try sl_unfold_run_names)
  simp only [step1, fin1, init1, View.readAt_eq_ld, harg2.read_unread, harg3.read_unread, harg4.read_unread, harg5.read_unread, harg6.read_unread, harg7.read_unread, harg10.read_unread, harg11.read_unread, harg12.read_unread, harg13.read_unread, harg14.read_unread, harg15.read_unread, View.ld_unit_zero (S := S1024x128) hz2, View.ld_unit_zero (S := S512x128) hz2, View.ld_unit_zero (S := S1024x1) hz2, View.ld_unit_zero (S := S1x512) hz2, View.readCov_cons_toLoadRect]

end Cert.KernelIdeal.Hand

end
-- ==== Proof.KI.R1Dat.lean ====
/-
  Pass 2 (the second pallas_call): its proof data at the buffer contents `V` the region is entered with, and the body
  obligation.

  After the body at point t every input window's staging buffer holds the window's block there; the six accumulators hold
  the fold, over the column tiles of the point's row tile up to and including t's, of the one-tile transition from the
  initial value; at a last column tile the two output buffers hold the row losses and the validity column computed
  from the accumulators. The region invariant is, before the first point, every scoped buffer at anything; afterwards
  the accumulators' buffers at the fold up to the point before, and every other scoped buffer and the generator
  register untouched.
-/
import proofs.«144686_j9225589752058_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, its block
    index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, its block
    index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, its block
    index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, its block
    index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, its block
    index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not (unfetched, its block
    index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- The six accumulators after the body at position `n`: at a first column tile one tile folded into the initial value,
    elsewhere one tile folded into what the point before left. -/
def acc1 (c : Dev nD) : (n : ℕ) → n < cfg1.N → Acc1 F
  | 0, hn => step1 (grid1.coords ⟨0, hn⟩) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) init1
  | n + 1, hn =>
    if (n + 1) % 16 = 0 then
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) init1
    else
      step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (acc1 c n (Nat.lt_of_succ_lt hn))

/-- At a first column tile: the tile folded into the initial value. -/
theorem acc1_first (c : Dev nD) (t : Fin cfg1.N) (h : t.val % 16 = 0) :
    acc1 V c t.val t.isLt = step1 (grid1.coords t) (iblk1 V c 0 t) (iblk1 V c 1 t) (iblk1 V c 2 t) (iblk1 V c 3 t) (iblk1 V c 4 t) (iblk1 V c 5 t) init1 := by
  obtain ⟨n, hn⟩ := t
  cases n with
  | zero => exact rfl
  | succ n => exact (if_pos h).trans rfl

/-- Elsewhere: the tile folded into what the point before left. -/
theorem acc1_next (c : Dev nD) (t : Fin cfg1.N) (h : t.val % 16 ≠ 0) :
    acc1 V c t.val t.isLt = step1 (grid1.coords t) (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- Before position `n`: before the first point every scoped buffer at anything; afterwards the accumulators' buffers at
    what the point before left, the other scoped buffers and the generator register at some contents. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn).ph ∗ owns (c : Thread nD τ) scM1_1 fullShare (acc1 V c n hn).pa ∗ owns (c : Thread nD τ) scM1_2 fullShare (acc1 V c n hn).ap ∗ owns (c : Thread nD τ) scM1_3 fullShare (acc1 V c n hn).nh ∗ owns (c : Thread nD τ) scM1_4 fullShare (acc1 V c n hn).na ∗ owns (c : Thread nD τ) scM1_5 fullShare (acc1 V c n hn).an) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn).ph ∗ owns (c : Thread nD τ) scM1_1 fullShare (acc1 V c n hn).pa ∗ owns (c : Thread nD τ) scM1_2 fullShare (acc1 V c n hn).ap ∗ owns (c : Thread nD τ) scM1_3 fullShare (acc1 V c n hn).nh ∗ owns (c : Thread nD τ) scM1_4 fullShare (acc1 V c n hn).na ∗ owns (c : Thread nD τ) scM1_5 fullShare (acc1 V c n hn).an) ∗ others1 (F := F) c ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)).ph ∗ owns (c : Thread nD τ) scM1_1 fullShare (acc1 V c (n - 1) (by omega)).pa ∗ owns (c : Thread nD τ) scM1_2 fullShare (acc1 V c (n - 1) (by omega)).ap ∗ owns (c : Thread nD τ) scM1_3 fullShare (acc1 V c (n - 1) (by omega)).nh ∗ owns (c : Thread nD τ) scM1_4 fullShare (acc1 V c (n - 1) (by omega)).na ∗ owns (c : Thread nD τ) scM1_5 fullShare (acc1 V c (n - 1) (by omega)).an) ∗ others1 (F := F) c ∗ (∃ r, prngReg c r)) := by
  cases n with
  | zero => exact absurd rfl hz
  | succ n => rfl

/-! ## The proof data -/

/-- The proof data of pass 2 on core `c`, holding input array `w` at the share `q w`. -/
def dat1 (q : Fin cfg1.W → PosShare TreeShare) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (fin1 (iblk1 V c 4 t) (iblk1 V c 5 t) (acc1 V c t.val t.isLt)).1
    | ⟨7, _⟩ => (fin1 (iblk1 V c 4 t) (iblk1 V c 5 t) (acc1 V c t.val t.isLt)).2
  Φ t := PhiS1 V c t.val (Nat.le_of_lt_succ t.isLt)
  q := q
  owed _ := 0

/-- The proof data's arrays are the region-entry contents. -/
theorem A_eq1 (q : Fin cfg1.W → PosShare TreeShare) (c : Dev nD) (w : Fin cfg1.W) : (dat1 V q c).A w = V c (Pipeline.arrRef spec1 w) := by
  dsimp only [dat1]

theorem PhiS1_castSucc (q : Fin cfg1.W → PosShare TreeShare) (c : Dev nD) (t : Fin cfg1.N) :
    (dat1 V q c).Φ t.castSucc = PhiS1 V c t.val (Nat.le_of_lt t.isLt) := by
  dsimp only [dat1]; simp only [Fin.coe_castSucc]

/-- What the body leaves, window by window. -/
theorem after1_0 (q : Fin cfg1.W → PosShare TreeShare) (c : Dev nD) (t : Fin cfg1.N) : (dat1 V q c).after 0 t = iblk1 V c 0 t := by dsimp only [dat1]
theorem after1_1 (q : Fin cfg1.W → PosShare TreeShare) (c : Dev nD) (t : Fin cfg1.N) : (dat1 V q c).after 1 t = iblk1 V c 1 t := by dsimp only [dat1]
theorem after1_2 (q : Fin cfg1.W → PosShare TreeShare) (c : Dev nD) (t : Fin cfg1.N) : (dat1 V q c).after 2 t = iblk1 V c 2 t := by dsimp only [dat1]
theorem after1_3 (q : Fin cfg1.W → PosShare TreeShare) (c : Dev nD) (t : Fin cfg1.N) : (dat1 V q c).after 3 t = iblk1 V c 3 t := by dsimp only [dat1]
theorem after1_4 (q : Fin cfg1.W → PosShare TreeShare) (c : Dev nD) (t : Fin cfg1.N) : (dat1 V q c).after 4 t = iblk1 V c 4 t := by dsimp only [dat1]
theorem after1_5 (q : Fin cfg1.W → PosShare TreeShare) (c : Dev nD) (t : Fin cfg1.N) : (dat1 V q c).after 5 t = iblk1 V c 5 t := by dsimp only [dat1]
theorem after1_6 (q : Fin cfg1.W → PosShare TreeShare) (c : Dev nD) (t : Fin cfg1.N) : (dat1 V q c).after 6 t = (fin1 (iblk1 V c 4 t) (iblk1 V c 5 t) (acc1 V c t.val t.isLt)).1 := by dsimp only [dat1]
theorem after1_7 (q : Fin cfg1.W → PosShare TreeShare) (c : Dev nD) (t : Fin cfg1.N) : (dat1 V q c).after 7 t = (fin1 (iblk1 V c 4 t) (iblk1 V c 5 t) (acc1 V c t.val t.isLt)).2 := by dsimp only [dat1]

/-- Each input's current staging buffer holds its block at every point. -/
theorem before1_0 (q : Fin cfg1.W → PosShare TreeShare) (c : Dev nD) (t : Fin cfg1.N) (d) : (dat1 V q c).before 0 t d = iblk1 V c 0 t :=
  before1_0_of V (dat1 V q c) (A_eq1 V q c 0) (after1_0 V q c) t d
theorem before1_1 (q : Fin cfg1.W → PosShare TreeShare) (c : Dev nD) (t : Fin cfg1.N) (d) : (dat1 V q c).before 1 t d = iblk1 V c 1 t :=
  before1_1_of V (dat1 V q c) (A_eq1 V q c 1) (after1_1 V q c) t d
theorem before1_2 (q : Fin cfg1.W → PosShare TreeShare) (c : Dev nD) (t : Fin cfg1.N) (d) : (dat1 V q c).before 2 t d = iblk1 V c 2 t :=
  before1_2_of V (dat1 V q c) (A_eq1 V q c 2) (after1_2 V q c) t d
theorem before1_3 (q : Fin cfg1.W → PosShare TreeShare) (c : Dev nD) (t : Fin cfg1.N) (d) : (dat1 V q c).before 3 t d = iblk1 V c 3 t :=
  before1_3_of V (dat1 V q c) (A_eq1 V q c 3) (after1_3 V q c) t d
theorem before1_4 (q : Fin cfg1.W → PosShare TreeShare) (c : Dev nD) (t : Fin cfg1.N) (d) : (dat1 V q c).before 4 t d = iblk1 V c 4 t :=
  before1_4_of V (dat1 V q c) (A_eq1 V q c 4) (after1_4 V q c) t d
theorem before1_5 (q : Fin cfg1.W → PosShare TreeShare) (c : Dev nD) (t : Fin cfg1.N) (d) : (dat1 V q c).before 5 t d = iblk1 V c 5 t :=
  before1_5_of V (dat1 V q c) (A_eq1 V q c 5) (after1_5 V q c) t d

/-! ## The body obligation, at a generic point -/

/-- What the body is called with at point `t`, -/
def bodyPre1 (q : Fin cfg1.W → PosShare TreeShare) (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d))
    ∗ (∃ d, owns (c : Thread nD τ) (ms1_7 t) fullShare ((dat1 V q c).before 7 t d)))

/-- and what it returns. -/
def bodyPost1 (q : Fin cfg1.W → PosShare TreeShare) (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t
    ∗ (dat1 V q c).leavesExact 7 t)

set_option maxHeartbeats 4800000 in
/-- The body at any point: the inputs' buffers hold their blocks; the closed forms of the two conditions say which of
    the three cases the point is in, so that case's run applies; the invariant hands the body the accumulators' buffers at
    what the point before left (at anything before a first column tile) and takes them back at this point's fold. -/
theorem sound_body1 (q : Fin cfg1.W → PosShare TreeShare) (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4, before1_5]
  rw [show (dat1 V q c).owesAt () t.succ = (dat1 V q c).owesAt () t.castSucc from rfl]
  rw [show (dat1 V q c).Φ t.succ = PhiS1 V c (t.val + 1) t.isLt from rfl, PhiS1_succ]
  have hN : t.val < 128 := lt_of_lt_of_eq t.isLt (show cfg1.N = 128 from N_1)
  rw [show (dat1 V q c).leavesExact 0 t = owns (c : Thread nD τ) (ms1_0 t) fullShare ((dat1 V q c).after 0 t) from by unfold Dat.leavesExact; rw [liveAt1_0 t], after1_0]
  rw [show (dat1 V q c).leavesExact 1 t = owns (c : Thread nD τ) (ms1_1 t) fullShare ((dat1 V q c).after 1 t) from by unfold Dat.leavesExact; rw [liveAt1_1 t], after1_1]
  rw [show (dat1 V q c).leavesExact 2 t = owns (c : Thread nD τ) (ms1_2 t) fullShare ((dat1 V q c).after 2 t) from by unfold Dat.leavesExact; rw [liveAt1_2 t], after1_2]
  rw [show (dat1 V q c).leavesExact 3 t = owns (c : Thread nD τ) (ms1_3 t) fullShare ((dat1 V q c).after 3 t) from by unfold Dat.leavesExact; rw [liveAt1_3 t], after1_3]
  rw [show (dat1 V q c).leavesExact 4 t = owns (c : Thread nD τ) (ms1_4 t) fullShare ((dat1 V q c).after 4 t) from by unfold Dat.leavesExact; rw [liveAt1_4 t], after1_4]
  rw [show (dat1 V q c).leavesExact 5 t = owns (c : Thread nD τ) (ms1_5 t) fullShare ((dat1 V q c).after 5 t) from by unfold Dat.leavesExact; rw [liveAt1_5 t], after1_5]
  by_cases h0 : t.val % 16 = 0
  · have h1 : ¬t.val % 16 = 15 := by omega
    rw [Dat.leavesExact_idle (dat1 V q c) 6 t (idleAt1_6 t (fun h => h1 ((hcond1_1 t).mp h))) (noFlush1_6 t (fun h => h1 ((hcond1_1 t).mp h)))]
    rw [Dat.leavesExact_idle (dat1 V q c) 7 t (idleAt1_7 t (fun h => h1 ((hcond1_1 t).mp h))) (noFlush1_7 t (fun h => h1 ((hcond1_1 t).mp h)))]
    rw [acc1_first V c t h0]
    by_cases hz : t.val = 0
    · rw [PhiS1_castSucc V q c t, PhiS1_zero V c _ _ hz, PhiA1_eq]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS1_castSucc V q c t, PhiS1_pos V c _ _ hz]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_A c (grid1.coords t) _ _ _ _ _ _ _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := by omega
    by_cases h1 : t.val % 16 = 15
    · rw [show (dat1 V q c).leavesExact 6 t = owns (c : Thread nD τ) (ms1_6 t) fullShare ((dat1 V q c).after 6 t) from by unfold Dat.leavesExact; rw [liveAt1_6 t ((hcond1_1 t).mpr h1)], after1_6]
      rw [show (dat1 V q c).leavesExact 7 t = owns (c : Thread nD τ) (ms1_7 t) fullShare ((dat1 V q c).after 7 t) from by unfold Dat.leavesExact; rw [liveAt1_7 t ((hcond1_1 t).mpr h1)], after1_7]
      rw [acc1_next V c t h0]
      rw [PhiS1_castSucc V q c t, PhiS1_pos V c _ _ hz]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_C c (grid1.coords t) _ _ _ _ _ _ _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V q c) 6 t (idleAt1_6 t (fun h => h1 ((hcond1_1 t).mp h))) (noFlush1_6 t (fun h => h1 ((hcond1_1 t).mp h)))]
      rw [Dat.leavesExact_idle (dat1 V q c) 7 t (idleAt1_7 t (fun h => h1 ((hcond1_1 t).mp h))) (noFlush1_7 t (fun h => h1 ((hcond1_1 t).mp h)))]
      rw [acc1_next V c t h0]
      rw [PhiS1_castSucc V q c t, PhiS1_pos V c _ _ hz]
      iintro ⟨⟨⟨S0, S1, S2, S3, S4, S5⟩, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelRun1_B c (grid1.coords t) _ _ _ _ _ _ _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (acc1 V c (t.val - 1) (Nat.lt_of_le_of_lt (Nat.sub_le _ _) t.isLt)) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, H7, S0, S1, S2, S3, S4, S5⟩
      isplitl [S0 S1 S2 S3 S4 S5 Hoth Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation1 (q : Fin cfg1.W → PosShare TreeShare) (c : Dev nD) :
    BodyObligation (dat1 (F := F) V q c) (defs₀ (F := F)) Variants.none () Set.univ := fun t => by
  rw [bigSep_W1, bigSep_W1]
  exact sound_body1 V q c t

/-- What the launch hands the region is the invariant before the first point. -/
theorem hin1 (q : Fin cfg1.W → PosShare TreeShare) (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point the invariant gives the launch's back: the accumulators' named contents are forgotten. -/
theorem Phi_out1 (q : Fin cfg1.W → PosShare TreeShare) (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht, PhiA1_eq]
  iintro ⟨⟨S0, S1, S2, S3, S4, S5⟩, Hoth, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [Hoth]; · iexact Hoth
  iexact Hg

/-- The same after the last point. -/
theorem hout1 (q : Fin cfg1.W → PosShare TreeShare) (c : Dev nD) : (dat1 V q c).Φ (Fin.last cfg1.N) ⊢ Pipeline.ΦA spec1 c :=
  Phi_out1 V q c _ (by rw [Fin.val_last]; have : cfg1.N = 128 := N_1; omega)

end Region

end Cert.KernelIdeal.Hand

end
-- ==== Proof.KI.Arrays0.lean ====
/-
  Pass 1's windows and the buffers behind them. Two of the six windows (the row block and the column block) read the
  same array, the embedding matrix; the pipeline holds each window's array at a share, so the matrix's full share is
  dealt in two halves to those two windows and put together again when the region ends. The other arrays — the two
  label reshapes and the two result columns — are distinct buffers held whole.
-/
import proofs.«144686_j9225589752058_2_alg».proof.Proof.Gen.KernelIdeal.Launch
import Idealize.ShloMosaic.Lib.Pipeline.Kit
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The shares the input windows hold their arrays at: the two windows on the embedding matrix one half each. -/
def q0 : Fin cfg0.W → PosShare TreeShare := fun
  | ⟨0, _⟩ => fullShare.left
  | ⟨1, _⟩ => fullShare.right
  | _ => fullShare

/-- The distinct buffers behind the windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0)
          ∗ (((c : Thread nD τ).loc main_v0) ↦{fullShare} V main_v0)
          ∗ (((c : Thread nD τ).loc main_v1) ↦{fullShare} V main_v1)
          ∗ (((c : Thread nD τ).loc main_v2_0) ↦{fullShare} V main_v2_0)
          ∗ (((c : Thread nD τ).loc main_v2_1) ↦{fullShare} V main_v2_1)) := by
  unfold Pipeline.arrBufs
  exact bigSep_eq_bigSepL_of_eq [main_arg0, main_v0, main_v1, main_v2_0, main_v2_1] (by decide) (by decide) _

variable {c : Dev nD}

/-- ENTRY: the core's unscoped buffers at `V` are the windows' arrays at `V`'s contents, the matrix dealt in halves, and the rest. -/
theorem arrays0_split (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V : (b : Ref sig .tc) → Buf (Elt F) ((c : Thread nD τ).loc b))
    (Fa : (w : Fin cfg0.W) → Buf (Elt F) ((cfg0.win w).arr.view.loc (c : Thread nD τ)))
    (hF : ∀ w, Fa w = V (Pipeline.arrRef spec0 w)) :
    (unscopedBufs c V : sProp 𝕄) ⊢ iprop(dat.arrays Fa ∗ Pipeline.unscopedRest spec0 c V) := by
  rw [Pipeline.unscopedBufs_split₀ cfgs 0 winFacts₀0.arr_unscoped c V]
  show iprop(Pipeline.arrBufs spec0 c V ∗ Pipeline.unscopedRest spec0 c V) ⊢ _
  rw [arrBufs0_eq]
  unfold Dat.arrays
  rw [bigSep_W0]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := rfl
  have s5 : dat.share 5 = fullShare := rfl
  rw [(arr_whole0 0).set_eq_univ, (arr_whole0 2).set_eq_univ, (arr_whole0 3).set_eq_univ, (arr_whole0 4).set_eq_univ, (arr_whole0 5).set_eq_univ,
    s0, s1, s2, s3, s4, s5, hF 0, hF 1, hF 2, hF 3, hF 4, hF 5]
  iintro ⟨⟨Ha, H_v0, H_v1, H_v2_0, H_v2_1⟩, Hr⟩
  have hs : (((c : Thread nD τ).loc main_arg0) ↦{fullShare} V main_arg0 : sProp 𝕄) ⊢ iprop((((c : Thread nD τ).loc main_arg0) ↦{fullShare.left} V main_arg0) ∗ (((c : Thread nD τ).loc main_arg0) ↦{fullShare.right} V main_arg0)) :=
    (pointsTo_share (PosShare.mem_left_op_right fullShare)).1
  ihave Hs := hs $$ Ha
  icases Hs with ⟨Hl, Hrr⟩
  isplitr [Hr]
  · isplitl [Hl]; · iexact Hl
    isplitl [Hrr]; · iexact Hrr
    isplitl [H_v0]; · iexact H_v0
    isplitl [H_v1]; · iexact H_v1
    isplitl [H_v2_0]; · iexact H_v2_0
    iexact H_v2_1
  iexact Hr

/-- EXIT: the windows' arrays at contents `Fa`, the matrix's two halves at one contents, and the rest at `V` are the core's unscoped
    buffers at any valuation that has the arrays at `Fa` and agrees with `V` off them. -/
theorem arrays0_join (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (V V' : (b : Ref sig .tc) → Buf (Elt F) ((c : Thread nD τ).loc b))
    (Fa : (w : Fin cfg0.W) → Buf (Elt F) ((cfg0.win w).arr.view.loc (c : Thread nD τ)))
    (hF : ∀ w, Fa w = V' (Pipeline.arrRef spec0 w))
    (hrest : ∀ b, b ∉ Finset.univ.image (Pipeline.arrRef spec0) → V' b = V b) :
    iprop(dat.arrays Fa ∗ Pipeline.unscopedRest spec0 c V) ⊢ (unscopedBufs c V' : sProp 𝕄) := by
  rw [Pipeline.unscopedBufs_split₀ cfgs 0 winFacts₀0.arr_unscoped c V']
  show _ ⊢ iprop(Pipeline.arrBufs spec0 c V' ∗ Pipeline.unscopedRest spec0 c V')
  rw [arrBufs0_eq]
  unfold Dat.arrays
  rw [bigSep_W0]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := rfl
  have s5 : dat.share 5 = fullShare := rfl
  rw [(arr_whole0 0).set_eq_univ, (arr_whole0 2).set_eq_univ, (arr_whole0 3).set_eq_univ, (arr_whole0 4).set_eq_univ, (arr_whole0 5).set_eq_univ,
    s0, s1, s2, s3, s4, s5, hF 0, hF 1, hF 2, hF 3, hF 4, hF 5]
  have hr : (Pipeline.unscopedRest (Ix := Unit) (Name := ℕ) (U := UR sig nD τ) (Lvl := ℕ) spec0 c V : sProp 𝕄) = Pipeline.unscopedRest spec0 c V' := by
    unfold Pipeline.unscopedRest
    exact bigSep_congr fun b hb => by rw [hrest b (Finset.mem_sdiff.mp hb).2]
  rw [hr]
  iintro ⟨⟨Hl, Hrr, H_v0, H_v1, H_v2_0, H_v2_1⟩, Hr⟩
  isplitr [Hr]
  · isplitl [Hl Hrr]
    · iapply (pointsTo_share (PosShare.mem_left_op_right fullShare)).2
      isplitl [Hl]; · iexact Hl
      iexact Hrr
    isplitl [H_v0]; · iexact H_v0
    isplitl [H_v1]; · iexact H_v1
    isplitl [H_v2_0]; · iexact H_v2_0
    iexact H_v2_1
  iexact Hr

end Cert.KernelIdeal.Hand

end
-- ==== Proof.KI.Arrays1.lean ====
/-
  Pass 2's windows and the buffers behind them. Two of the eight windows (the row block and the column block) read the
  same array, the embedding matrix; its full share is dealt in two halves to those two windows and put together again
  when the region ends. The other arrays — the two label reshapes, pass 1's two result columns and pass 2's own two —
  are distinct buffers held whole.
-/
import proofs.«144686_j9225589752058_2_alg».proof.Proof.Gen.KernelIdeal.Launch
import Idealize.ShloMosaic.Lib.Pipeline.Kit
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The shares the input windows hold their arrays at: the two windows on the embedding matrix one half each. -/
def q1 : Fin cfg1.W → PosShare TreeShare := fun
  | ⟨0, _⟩ => fullShare.left
  | ⟨1, _⟩ => fullShare.right
  | _ => fullShare

/-- The distinct buffers behind the windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg0) ↦{fullShare} V main_arg0)
          ∗ (((c : Thread nD τ).loc main_v0) ↦{fullShare} V main_v0)
          ∗ (((c : Thread nD τ).loc main_v1) ↦{fullShare} V main_v1)
          ∗ (((c : Thread nD τ).loc main_v2_0) ↦{fullShare} V main_v2_0)
          ∗ (((c : Thread nD τ).loc main_v2_1) ↦{fullShare} V main_v2_1)
          ∗ (((c : Thread nD τ).loc main_v3_0) ↦{fullShare} V main_v3_0)
          ∗ (((c : Thread nD τ).loc main_v3_1) ↦{fullShare} V main_v3_1)) := by
  unfold Pipeline.arrBufs
  exact bigSep_eq_bigSepL_of_eq [main_arg0, main_v0, main_v1, main_v2_0, main_v2_1, main_v3_0, main_v3_1] (by decide) (by decide) _

variable {c : Dev nD}

/-- ENTRY: the core's unscoped buffers at `V` are the windows' arrays at `V`'s contents, the matrix dealt in halves, and the rest. -/
theorem arrays1_split (dat : Dat τ (Elt F) Unit ℕ (UR sig nD τ) ℕ cfg1 c)
    (hq0 : dat.q 0 = fullShare.left) (hq1 : dat.q 1 = fullShare.right) (hq2 : dat.q 2 = fullShare) (hq3 : dat.q 3 = fullShare) (hq4 : dat.q 4 = fullShare) (hq5 : dat.q 5 = fullShare)
    (V : (b : Ref sig .tc) → Buf (Elt F) ((c : Thread nD τ).loc b))
    (Fa : (w : Fin cfg1.W) → Buf (Elt F) ((cfg1.win w).arr.view.loc (c : Thread nD τ)))
    (hF : ∀ w, Fa w = V (Pipeline.arrRef spec1 w)) :
    (unscopedBufs c V : sProp 𝕄) ⊢ iprop(dat.arrays Fa ∗ Pipeline.unscopedRest spec1 c V) := by
  rw [Pipeline.unscopedBufs_split₀ cfgs 1 winFacts₀1.arr_unscoped c V]
  show iprop(Pipeline.arrBufs spec1 c V ∗ Pipeline.unscopedRest spec1 c V) ⊢ _
  rw [arrBufs1_eq]
  unfold Dat.arrays
  rw [bigSep_W1]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := by unfold Dat.share; rw [hq4]; rfl
  have s5 : dat.share 5 = fullShare := by unfold Dat.share; rw [hq5]; rfl
  have s6 : dat.share 6 = fullShare := rfl
  have s7 : dat.share 7 = fullShare := rfl
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ,
    s0, s1, s2, s3, s4, s5, s6, s7, hF 0, hF 1, hF 2, hF 3, hF 4, hF 5, hF 6, hF 7]
  iintro ⟨⟨Ha, H_v0, H_v1, H_v2_0, H_v2_1, H_v3_0, H_v3_1⟩, Hr⟩
  have hs : (((c : Thread nD τ).loc main_arg0) ↦{fullShare} V main_arg0 : sProp 𝕄) ⊢ iprop((((c : Thread nD τ).loc main_arg0) ↦{fullShare.left} V main_arg0) ∗ (((c : Thread nD τ).loc main_arg0) ↦{fullShare.right} V main_arg0)) :=
    (pointsTo_share (PosShare.mem_left_op_right fullShare)).1
  ihave Hs := hs $$ Ha
  icases Hs with ⟨Hl, Hrr⟩
  isplitr [Hr]
  · isplitl [Hl]; · iexact Hl
    isplitl [Hrr]; · iexact Hrr
    isplitl [H_v0]; · iexact H_v0
    isplitl [H_v1]; · iexact H_v1
    isplitl [H_v2_0]; · iexact H_v2_0
    isplitl [H_v2_1]; · iexact H_v2_1
    isplitl [H_v3_0]; · iexact H_v3_0
    iexact H_v3_1
  iexact Hr

/-- EXIT: the windows' arrays at contents `Fa`, the matrix's two halves at one contents, and the rest at `V` are the core's unscoped
    buffers at any valuation that has the arrays at `Fa` and agrees with `V` off them. -/
theorem arrays1_join (dat : Dat τ (Elt F) Unit ℕ (UR sig nD τ) ℕ cfg1 c)
    (hq0 : dat.q 0 = fullShare.left) (hq1 : dat.q 1 = fullShare.right) (hq2 : dat.q 2 = fullShare) (hq3 : dat.q 3 = fullShare) (hq4 : dat.q 4 = fullShare) (hq5 : dat.q 5 = fullShare)
    (V V' : (b : Ref sig .tc) → Buf (Elt F) ((c : Thread nD τ).loc b))
    (Fa : (w : Fin cfg1.W) → Buf (Elt F) ((cfg1.win w).arr.view.loc (c : Thread nD τ)))
    (hF : ∀ w, Fa w = V' (Pipeline.arrRef spec1 w))
    (hrest : ∀ b, b ∉ Finset.univ.image (Pipeline.arrRef spec1) → V' b = V b) :
    iprop(dat.arrays Fa ∗ Pipeline.unscopedRest spec1 c V) ⊢ (unscopedBufs c V' : sProp 𝕄) := by
  rw [Pipeline.unscopedBufs_split₀ cfgs 1 winFacts₀1.arr_unscoped c V']
  show _ ⊢ iprop(Pipeline.arrBufs spec1 c V' ∗ Pipeline.unscopedRest spec1 c V')
  rw [arrBufs1_eq]
  unfold Dat.arrays
  rw [bigSep_W1]
  have s0 : dat.share 0 = fullShare.left := by unfold Dat.share; rw [hq0]; rfl
  have s1 : dat.share 1 = fullShare.right := by unfold Dat.share; rw [hq1]; rfl
  have s2 : dat.share 2 = fullShare := by unfold Dat.share; rw [hq2]; rfl
  have s3 : dat.share 3 = fullShare := by unfold Dat.share; rw [hq3]; rfl
  have s4 : dat.share 4 = fullShare := by unfold Dat.share; rw [hq4]; rfl
  have s5 : dat.share 5 = fullShare := by unfold Dat.share; rw [hq5]; rfl
  have s6 : dat.share 6 = fullShare := rfl
  have s7 : dat.share 7 = fullShare := rfl
  rw [(arr_whole1 0).set_eq_univ, (arr_whole1 2).set_eq_univ, (arr_whole1 3).set_eq_univ, (arr_whole1 4).set_eq_univ, (arr_whole1 5).set_eq_univ, (arr_whole1 6).set_eq_univ, (arr_whole1 7).set_eq_univ,
    s0, s1, s2, s3, s4, s5, s6, s7, hF 0, hF 1, hF 2, hF 3, hF 4, hF 5, hF 6, hF 7]
  have hr : (Pipeline.unscopedRest (Ix := Unit) (Name := ℕ) (U := UR sig nD τ) (Lvl := ℕ) spec1 c V : sProp 𝕄) = Pipeline.unscopedRest spec1 c V' := by
    unfold Pipeline.unscopedRest
    exact bigSep_congr fun b hb => by rw [hrest b (Finset.mem_sdiff.mp hb).2]
  rw [hr]
  iintro ⟨⟨Hl, Hrr, H_v0, H_v1, H_v2_0, H_v2_1, H_v3_0, H_v3_1⟩, Hr⟩
  isplitr [Hr]
  · isplitl [Hl Hrr]
    · iapply (pointsTo_share (PosShare.mem_left_op_right fullShare)).2
      isplitl [Hl]; · iexact Hl
      iexact Hrr
    isplitl [H_v0]; · iexact H_v0
    isplitl [H_v1]; · iexact H_v1
    isplitl [H_v2_0]; · iexact H_v2_0
    isplitl [H_v2_1]; · iexact H_v2_1
    isplitl [H_v3_0]; · iexact H_v3_0
    iexact H_v3_1
  iexact Hr

end Cert.KernelIdeal.Hand

end
-- ==== Proof.KI.RunCond.lean ====
/-
  The whole program's run from its two regions' records, with the result buffer read back: the program is two host
  reshapes of the label vector, pass 1, pass 2, and seven host operations that sum the two result columns and divide.
  Between two items every unscoped buffer is held at a valuation: the launch contents, then each host stretch applied,
  then what a region may change. The statement below keeps, beside the two argument arrays, the final valuation's value
  of the result.
-/
import proofs.«144686_j9225589752058_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The program's run, given the regions' records: as the conditional frame, with the result buffer read back too. For any rest
    states `E` the launch makes on every core at once and that end owing nothing, any contents the regions leave (`outs`) and any
    proof data: given, per region, a segment record entered from the thread state before it and left at the one after it, every
    weakly fair execution of @main terminates and every final memory holds the result at the last valuation's value and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v7) = Gen.V4 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => s.mem ((c.tc : Thread nD τ).loc main_v7) = Gen.V4 m outs c main_v7 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.KernelIdeal.Hand

end
-- ==== Proof.KI.Regs.lean ====
/-
  The two passes as segments of the program's run, and the run itself.

  Between two items of @main every unscoped buffer of the core is held at a valuation: the launch contents with the two
  label reshapes applied; then pass 1's two result columns at what its write-backs leave; then pass 2's two result columns
  likewise; then the seven closing host operations applied. A pass takes its windows' arrays out of the valuation when it is
  entered (the embedding matrix, which two of its windows read, in two half shares) and puts them back, the result columns at
  their new contents, when it ends; the generator register goes into the body's invariant and comes back; nothing is owed.
-/
import proofs.«144686_j9225589752058_2_alg».proof.Proof.KI.R0Dat
import proofs.«144686_j9225589752058_2_alg».proof.Proof.KI.R1Dat
import proofs.«144686_j9225589752058_2_alg».proof.Proof.KI.Arrays0
import proofs.«144686_j9225589752058_2_alg».proof.Proof.KI.Arrays1
import proofs.«144686_j9225589752058_2_alg».proof.Proof.KI.RunCond
import Idealize.ShloMosaic.Lib.Pipeline.FrameBody
import Idealize.ShloMosaic.Lib.Pipeline.RegionsLoop
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- The buffers when pass 1 is entered, read at the TensorCore's references. -/
abbrev U1 (c : Dev nD) (b : Ref sig .tc) : Buf (Elt F) ((c : Thread nD τ).loc b) := Gen.V1 m c b

/-- What pass 1's write-backs leave in window `w`'s array. -/
def res0 (c : Dev nD) (w : Fin cfg0.W) : Buf (Elt F) ((cfg0.win w).arr.view.loc (c : Thread nD τ)) :=
  (dat0 (U1 m) q0 c).arrAt w cfg0.N

/-- The buffers when pass 1 ends: its two result columns at what it leaves, every other buffer as entered. -/
def W2 (c : Dev nD) : Valuation τ sig (Elt F) :=
  Function.update (Function.update (Gen.V1 m c) main_v2_0 (res0 m c 4)) main_v2_1 (res0 m c 5)

/-- The same read at the TensorCore's references (what pass 2 is entered from). -/
abbrev U2 (c : Dev nD) (b : Ref sig .tc) : Buf (Elt F) ((c : Thread nD τ).loc b) := W2 m c b

/-- What pass 2's write-backs leave in window `w`'s array. -/
def res1 (c : Dev nD) (w : Fin cfg1.W) : Buf (Elt F) ((cfg1.win w).arr.view.loc (c : Thread nD τ)) :=
  (dat1 (U2 m) q1 c).arrAt w cfg1.N

/-- The buffers when pass 2 ends. -/
def W3 (c : Dev nD) : Valuation τ sig (Elt F) :=
  Function.update (Function.update (W2 m c) main_v3_0 (res1 m c 6)) main_v3_1 (res1 m c 7)

/-- The regions' results as the run's statement takes them: after item 1 the valuation `W2`, after item 2 `W3`. -/
def outsF : Gen.Outs (F := F) := fun J r c => if J = 2 then W2 m c r else W3 m c r

theorem W2_v2_0 (c : Dev nD) : W2 m c main_v2_0 = res0 m c 4 := by
  unfold W2; rw [Function.update_of_ne (by decide), Function.update_self]
theorem W2_v2_1 (c : Dev nD) : W2 m c main_v2_1 = res0 m c 5 := by
  unfold W2; rw [Function.update_self]
theorem W2_of (c : Dev nD) (r : Ref sig .tc) (h : r ∉ ([main_v2_0, main_v2_1] : List (Ref sig .tc))) : W2 m c r = Gen.V1 m c r := by
  unfold W2
  rw [Function.update_of_ne (StableHlo.devRef_ne_of_ne (List.ne_of_not_mem_cons (List.not_mem_of_not_mem_cons h)) : (Proc.devRef .tc r : DevRef τ sig) ≠ Proc.devRef .tc main_v2_1),
    Function.update_of_ne (StableHlo.devRef_ne_of_ne (List.ne_of_not_mem_cons h) : (Proc.devRef .tc r : DevRef τ sig) ≠ Proc.devRef .tc main_v2_0)]
theorem W3_v3_0 (c : Dev nD) : W3 m c main_v3_0 = res1 m c 6 := by
  unfold W3; rw [Function.update_of_ne (by decide), Function.update_self]
theorem W3_v3_1 (c : Dev nD) : W3 m c main_v3_1 = res1 m c 7 := by
  unfold W3; rw [Function.update_self]
theorem W3_of (c : Dev nD) (r : Ref sig .tc) (h : r ∉ ([main_v3_0, main_v3_1] : List (Ref sig .tc))) : W3 m c r = W2 m c r := by
  unfold W3
  rw [Function.update_of_ne (StableHlo.devRef_ne_of_ne (List.ne_of_not_mem_cons (List.not_mem_of_not_mem_cons h)) : (Proc.devRef .tc r : DevRef τ sig) ≠ Proc.devRef .tc main_v3_1),
    Function.update_of_ne (StableHlo.devRef_ne_of_ne (List.ne_of_not_mem_cons h) : (Proc.devRef .tc r : DevRef τ sig) ≠ Proc.devRef .tc main_v3_0)]

/-- The run's valuation after pass 1 is `W2`, -/
theorem V2_eq (c : Dev nD) : Gen.V2 m (outsF m) c = W2 m c := by
  show Function.update (Function.update (Gen.V1 m c) main_v2_0 (outsF m 2 main_v2_0 c)) main_v2_1 (outsF m 2 main_v2_1 c) = _
  unfold outsF; rw [if_pos rfl, if_pos rfl, W2_v2_0, W2_v2_1]; rfl
/-- and after pass 2 `W3`. -/
theorem V3_eq (c : Dev nD) : Gen.V3 m (outsF m) c = W3 m c := by
  show Function.update (Function.update (Gen.V2 m (outsF m) c) main_v3_0 (outsF m 3 main_v3_0 c)) main_v3_1 (outsF m 3 main_v3_1 c) = _
  rw [V2_eq]; unfold outsF; rw [if_neg (by decide), if_neg (by decide), W3_v3_0, W3_v3_1]; rfl

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (U1 m) q0 c
  | ⟨1, _⟩ => fun c => dat1 (U2 m) q1 c

abbrev 𝒱₀ : Variants := Variants.none
abbrev L : GSem nD τ sig → Finset Unit := fun _ => ∅
abbrev lv : GSem nD τ sig → Unit → ℕ := fun _ _ => 0

/-- What rides beside the buffers through every segment: the generator register at some state, and nothing owed. -/
abbrev R (c : Dev nD) : sProp 𝕄 := iprop((∃ r, prngReg c r) ∗ ∃ W, owes (c : Thread nD τ) (0 : CellTallies nD τ sig Unit) W)

theorem hF0 (c : Dev nD) (w : Fin cfg0.W) : res0 m c w = U2 m c (Pipeline.arrRef spec0 w) := by
  match w with
  | ⟨0, _⟩ => exact (((dat0 (U1 m) q0 c).arrAt_in 0 rfl _).trans (A_eq0 (U1 m) q0 c 0)).trans (W2_of m c main_arg0 (by decide)).symm
  | ⟨1, _⟩ => exact (((dat0 (U1 m) q0 c).arrAt_in 1 rfl _).trans (A_eq0 (U1 m) q0 c 1)).trans (W2_of m c main_arg0 (by decide)).symm
  | ⟨2, _⟩ => exact (((dat0 (U1 m) q0 c).arrAt_in 2 rfl _).trans (A_eq0 (U1 m) q0 c 2)).trans (W2_of m c main_v0 (by decide)).symm
  | ⟨3, _⟩ => exact (((dat0 (U1 m) q0 c).arrAt_in 3 rfl _).trans (A_eq0 (U1 m) q0 c 3)).trans (W2_of m c main_v1 (by decide)).symm
  | ⟨4, _⟩ => exact (W2_v2_0 m c).symm
  | ⟨5, _⟩ => exact (W2_v2_1 m c).symm

theorem hrest0 (c : Dev nD) : ∀ b, b ∉ Finset.univ.image (Pipeline.arrRef spec0) → U2 m c b = U1 m c b := fun b hb =>
  W2_of m c b (fun h => hb (by
    rcases List.mem_cons.mp h with h | h
    · exact h ▸ Finset.mem_image.mpr ⟨4, Finset.mem_univ _, rfl⟩
    · exact (List.mem_singleton.mp h) ▸ Finset.mem_image.mpr ⟨5, Finset.mem_univ _, rfl⟩))

theorem hF1 (c : Dev nD) (w : Fin cfg1.W) : res1 m c w = (fun b : Ref sig .tc => (W3 m c b : Buf (Elt F) ((c : Thread nD τ).loc b))) (Pipeline.arrRef spec1 w) := by
  match w with
  | ⟨0, _⟩ => exact (((dat1 (U2 m) q1 c).arrAt_in 0 rfl _).trans (A_eq1 (U2 m) q1 c 0)).trans (W3_of m c main_arg0 (by decide)).symm
  | ⟨1, _⟩ => exact (((dat1 (U2 m) q1 c).arrAt_in 1 rfl _).trans (A_eq1 (U2 m) q1 c 1)).trans (W3_of m c main_arg0 (by decide)).symm
  | ⟨2, _⟩ => exact (((dat1 (U2 m) q1 c).arrAt_in 2 rfl _).trans (A_eq1 (U2 m) q1 c 2)).trans (W3_of m c main_v0 (by decide)).symm
  | ⟨3, _⟩ => exact (((dat1 (U2 m) q1 c).arrAt_in 3 rfl _).trans (A_eq1 (U2 m) q1 c 3)).trans (W3_of m c main_v1 (by decide)).symm
  | ⟨4, _⟩ => exact (((dat1 (U2 m) q1 c).arrAt_in 4 rfl _).trans (A_eq1 (U2 m) q1 c 4)).trans (W3_of m c main_v2_0 (by decide)).symm
  | ⟨5, _⟩ => exact (((dat1 (U2 m) q1 c).arrAt_in 5 rfl _).trans (A_eq1 (U2 m) q1 c 5)).trans (W3_of m c main_v2_1 (by decide)).symm
  | ⟨6, _⟩ => exact (W3_v3_0 m c).symm
  | ⟨7, _⟩ => exact (W3_v3_1 m c).symm

theorem hrest1 (c : Dev nD) : ∀ b : Ref sig .tc, b ∉ Finset.univ.image (Pipeline.arrRef spec1) → W3 m c b = W2 m c b := fun b hb =>
  W3_of m c b (fun h => hb (by
    rcases List.mem_cons.mp h with h | h
    · exact h ▸ Finset.mem_image.mpr ⟨6, Finset.mem_univ _, rfl⟩
    · exact (List.mem_singleton.mp h) ▸ Finset.mem_image.mpr ⟨7, Finset.mem_univ _, rfl⟩))

/-! ## The regions as segments -/

set_option backward.isDefEq.respectTransparency.types false in
/-- Pass 1 over the thread state: entered from every unscoped buffer at `V1`, left at `W2`. -/
def reg0 : Pipeline.RegionSeg (pcfgs (F := F)) Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (U1 m) q0 c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := arrays0_split (pdats m 0 c) rfl rfl rfl rfl (U1 m c) ((pdats m 0 c).arrAt · 0) (fun w => A_eq0 (U1 m) q0 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (U1 m) q0 c)
    unfold Pipeline.ΦA
    iintro ⟨Hp, -, Hr⟩
    isplitl [Hr]; · iexact Hr
    iexact Hp
  hout c := by
    rw [Pipeline.ownSems0_none]
    refine (hout0 (U1 m) q0 c).trans ?_
    unfold Pipeline.ΦA
    iintro ⟨Hr, Hp⟩
    isplitl [Hp]; · iexact Hp
    isplitr; · iempintro
    iexact Hr
  hexit c := by
    have hjoin := arrays0_join (pdats m 0 c) rfl rfl rfl rfl (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered from every unscoped buffer at `W2`, left at `W3`. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) q1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hsplit := arrays1_split (pdats m 1 c) rfl rfl rfl rfl rfl rfl (U2 m c) ((pdats m 1 c).arrAt · 0) (fun w => A_eq1 (U2 m) q1 c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U2 m) q1 c)
    unfold Pipeline.ΦA
    iintro ⟨Hp, -, Hr⟩
    isplitl [Hr]; · iexact Hr
    iexact Hp
  hout c := by
    rw [Pipeline.ownSems0_none]
    refine (hout1 (U2 m) q1 c).trans ?_
    unfold Pipeline.ΦA
    iintro ⟨Hr, Hp⟩
    isplitl [Hp]; · iexact Hp
    isplitr; · iempintro
    iexact Hr
  hexit c := by
    have hjoin := arrays1_join (pdats m 1 c) rfl rfl rfl rfl rfl rfl (U2 m c) (fun b => W3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, nothing faulting; the result buffer
    ends at the closing host operations' value of pass 2's two result columns, and the two argument arrays end as launched. -/
theorem run_main (ρ : Dev nD → PrngReg) :
    θ_run defs (onTc (τ := τ) (main (F := F))) ⟨m, fun _ => 0, ρ⟩ (fun r => ∀ c : Dev nD,
      r.2.mem ((c.tc : Thread nD τ).loc main_v7) = Gen.V4 m (outsF m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond (Ix := Unit) (U := UR sig nD τ) (Lvl := ℕ) m emb₁ () 𝒱₀ L lv (fun _ _ => rfl) ρ (outsF m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V2_eq]; exact .rfl) (fun c => by rw [V3_eq]; exact .rfl)

/-- The frame: every weakly fair execution terminates, nothing faults, the argument arrays end unchanged. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.RowCol.lean ====
/-
  The global row of a row tile's local row, and the global column of a column tile's local column:
  row tile I holds rows 1024 I + r, column tile J holds columns 512 J + q.
-/
import Mathlib.Data.Fin.Basic

namespace Cert.KernelIdeal.KVal

/-- Row r of row tile I. -/
def row (I : Fin 8) (r : Fin 1024) : Fin 8192 := ⟨1024 * I.val + r.val, by omega⟩

/-- Column q of column tile J. -/
def col (J : Fin 16) (q : Fin 512) : Fin 8192 := ⟨512 * J.val + q.val, by omega⟩

@[simp] theorem row_val (I : Fin 8) (r : Fin 1024) : (row I r).val = 1024 * I.val + r.val := rfl
@[simp] theorem col_val (J : Fin 16) (q : Fin 512) : (col J q).val = 512 * J.val + q.val := rfl

end Cert.KernelIdeal.KVal
-- ==== Proof.Spec.lean ====
/-
  The multi-similarity loss as one function of the embedding matrix and the label vector, on the extended reals.

  For rows R, C of an 8192 x 128 matrix e and labels l:  sim R C = sum_k e R k * e C k;  (R, C) is a positive pair when
  the labels agree and R ≠ C, a negative pair when the labels differ.  Per row: posMin = the least similarity over the
  row's positive pairs (+inf when there is none), negMax = the greatest over its negative pairs (-inf when none).  A
  negative pair is hard when sim + 0.1 > posMin, a positive pair is hard when sim - 0.1 < negMax.  The row's positive
  term is log1p of the sum of exp(-2 (sim - 1/2)) over its hard positive pairs — over all its positive pairs when none is
  hard —, divided by 2; the negative term likewise with exp(50 (sim - 1/2)) and 50.  A row counts when it has a
  positive and a negative pair; the loss is the sum of the counted rows' terms over the number of counted rows (at
  least 1).  The float literals are kept as the words both programs print (0.1 is the f32 nearest to 1/10 on both sides).
-/
import Idealize.ShloMosaic.PureOps.Ideal

noncomputable section

namespace Cert.MSL

open Idealize.ShloMosaic
open scoped Classical

/-- The extended real an f32 word denotes. -/
abbrev w32 (b : BitVec 32) : EReal := Ideal.ofBits .f32 b

variable (e : Fin 8192 → Fin 128 → EReal) (l : Fin 8192 → BitVec 32)

/-- The similarity of rows R and C. -/
def sim (R C : Fin 8192) : EReal := ∑ k : Fin 128, e R k * e C k

/-- A positive pair: equal labels, off the diagonal. -/
def pos (R C : Fin 8192) : Prop := l R = l C ∧ R ≠ C

/-- A negative pair: different labels. -/
def neg (R C : Fin 8192) : Prop := l R ≠ l C

/-- The least similarity over row R's positive pairs. -/
def posMin (R : Fin 8192) : EReal := Finset.univ.inf fun C => if pos l R C then sim e R C else ⊤

/-- The greatest similarity over row R's negative pairs. -/
def negMax (R : Fin 8192) : EReal := Finset.univ.sup fun C => if neg l R C then sim e R C else ⊥

/-- A hard negative pair: sim + 0.1 > posMin. -/
def negHard (R C : Fin 8192) : Prop :=
  neg l R C ∧ Ideal.cmp .ogt (sim e R C + w32 0x3DCCCCCD#32) (posMin e l R) = 1#1

/-- A hard positive pair: sim - 0.1 < negMax. -/
def posHard (R C : Fin 8192) : Prop :=
  pos l R C ∧ Ideal.cmp .olt (sim e R C - w32 0x3DCCCCCD#32) (negMax e l R) = 1#1

/-- exp(-2 (sim - 1/2)). -/
def expPos (R C : Fin 8192) : EReal := Ideal.exp (w32 0xC0000000#32 * (sim e R C - w32 0x3F000000#32))

/-- exp(50 (sim - 1/2)). -/
def expNeg (R C : Fin 8192) : EReal := Ideal.exp (w32 0x42480000#32 * (sim e R C - w32 0x3F000000#32))

/-- The sum over the row's hard positive pairs. -/
def posHardSum (R : Fin 8192) : EReal := ∑ C : Fin 8192, if posHard e l R C then expPos e R C else 0
/-- The sum over all the row's positive pairs. -/
def posAllSum (R : Fin 8192) : EReal := ∑ C : Fin 8192, if pos l R C then expPos e R C else 0
/-- The sum over the row's hard negative pairs. -/
def negHardSum (R : Fin 8192) : EReal := ∑ C : Fin 8192, if negHard e l R C then expNeg e R C else 0
/-- The sum over all the row's negative pairs. -/
def negAllSum (R : Fin 8192) : EReal := ∑ C : Fin 8192, if neg l R C then expNeg e R C else 0

/-- The selected positive sum: over the hard pairs if there is one, else over all. -/
def posSel (R : Fin 8192) : EReal := if ∃ C, posHard e l R C then posHardSum e l R else posAllSum e l R
/-- The selected negative sum. -/
def negSel (R : Fin 8192) : EReal := if ∃ C, negHard e l R C then negHardSum e l R else negAllSum e l R

/-- The row's loss term. -/
def rowLoss (R : Fin 8192) : EReal :=
  Ideal.div (Ideal.log1p (posSel e l R)) (w32 0x40000000#32) + Ideal.div (Ideal.log1p (negSel e l R)) (w32 0x42480000#32)

/-- The row counts: it has a positive and a negative pair. -/
def valid (R : Fin 8192) : Prop := (∃ C, pos l R C) ∧ ∃ C, neg l R C

/-- The counted rows' terms (zero elsewhere). -/
def lossRow (R : Fin 8192) : EReal := if valid l R then rowLoss e l R else 0
/-- 1 on a counted row, 0 elsewhere. -/
def validRow (R : Fin 8192) : EReal := if valid l R then 1 else 0

/-- The loss: the counted rows' terms summed, over the number of counted rows or 1. -/
def loss : EReal :=
  Ideal.div (∑ R : Fin 8192, lossRow e l R) (max (∑ R : Fin 8192, validRow l R) (w32 0x3F800000#32))

end Cert.MSL

end
-- ==== Proof.KI.ValBase.lean ====
/-
  The two kernels' vector operations read at one element, at the extended reals: the layout operations of the
  payloads, the similarity tile as a sum of 128 products, the label and diagonal masks as propositions, and a lane
  reduction as an infimum, a supremum or a sum over the 512 columns of the tile.
-/
import proofs.«144686_j9225589752058_2_alg».proof.Proof.KI.Step
import proofs.«144686_j9225589752058_2_alg».proof.Proof.KI.RowCol
import proofs.«144686_j9225589752058_2_alg».proof.Proof.Spec
import Idealize.ShloMosaic.PureOps.Ideal.Laws
import Idealize.ShloMosaic.Lib.ValueLayout

noncomputable section

namespace Cert.KernelIdeal.KVal

open Idealize.ShloMosaic Idealize.ShloMosaic.ValueIdx
open Cert.KernelIdeal
open scoped Classical

/-! ## Layout operations at an index -/

section Layout
variable {α : Type}

theorem castColId (x : S1024x1.Idx → α) (h : S1024x1.ShapeCasts S1024x1) (j : S1024x1.Idx) :
    shapeCast S1024x1 x h j = x j := shapeCast_apply x h j j rfl

theorem castRowId (x : S1x512.Idx → α) (h : S1x512.ShapeCasts S1x512) (j : S1x512.Idx) :
    shapeCast S1x512 x h j = x j := shapeCast_apply x h j j rfl

theorem castLaneCol (x : S1024.Idx → α) (h : S1024.ShapeCasts S1024x1) (r : Fin 1024) (u : Fin 1) :
    shapeCast S1024x1 x h (ix2 r u) = x (ix1 r) :=
  shapeCast_apply x h _ _ (by
    rw [Shape.rowMajor_val_one, Shape.rowMajor_val_two]
    show r.val = r.val * 1 + u.val
    omega)

theorem bcastCol (x : S1024x1.Idx → α) (h : S1024x1.Broadcasts S1024x512) (r : Fin 1024) (q : Fin 512) :
    broadcastTo S1024x512 x h (ix2 r q) = x (ix2 r (0 : Fin 1)) := by
  refine broadcastTo_apply x h (ix2 r q) (ix2 r (0 : Fin 1)) fun ax => ?_
  match ax with
  | ⟨0, _⟩ => rfl
  | ⟨1, _⟩ => rfl

theorem bcastRow (x : S1x512.Idx → α) (h : S1x512.Broadcasts S1024x512) (r : Fin 1024) (q : Fin 512) :
    broadcastTo S1024x512 x h (ix2 r q) = x (ix2 (0 : Fin 1) q) :=
  broadcastTo_1b_ab_apply x h r q

end Layout

/-! ## The similarity tile -/

/-- The product of the row block with the transposed column block, at (r, q): the sum over the 128 features. -/
theorem matmulTile (x0 : FVec Ideal S1024x128 .f32) (x1 : FVec Ideal S512x128 .f32)
    (ht : S512x128.Transposes [1, 0] S128x512) (r : Fin 1024) (q : Fin 512) :
    matmul (F := Ideal) dot_S1024x128_S128x512_S1024x512_1_0_0_1_n_n (some .fp32) x0 (transpose S128x512 [1, 0] x1 ht)
        (constant (F := Ideal) S1024x512 .f32 0x00000000#32) (ix2 r q)
      = ∑ k : Fin 128, x0 (ix2 r k) * x1 (ix2 q k) := by
  refine (Ideal.matmul_constant_zero_apply _ _ _ _ _).trans ?_
  rw [← Equiv.sum_comp (contrEquiv1 dot_S1024x128_S128x512_S1024x512_1_0_0_1_n_n 128 rfl rfl).symm]
  refine Finset.sum_congr rfl fun c _ => ?_
  have c2 := contrEquiv1_symm_val dot_S1024x128_S128x512_S1024x512_1_0_0_1_n_n 128 rfl rfl c
  have l2 : dot_S1024x128_S128x512_S1024x512_1_0_0_1_n_n.lhsIdx (ix2 r q)
      ((contrEquiv1 dot_S1024x128_S128x512_S1024x512_1_0_0_1_n_n 128 rfl rfl).symm c) = ix2 r c := by
    funext ax; apply Fin.ext
    match ax with
    | ⟨0, _⟩ => simp [DotDims.lhsIdx, dot_S1024x128_S128x512_S1024x512_1_0_0_1_n_n]; rfl
    | ⟨1, _⟩ => simp [DotDims.lhsIdx, dot_S1024x128_S128x512_S1024x512_1_0_0_1_n_n]; exact c2
  have r2 : dot_S1024x128_S128x512_S1024x512_1_0_0_1_n_n.rhsIdx (ix2 r q)
      ((contrEquiv1 dot_S1024x128_S128x512_S1024x512_1_0_0_1_n_n 128 rfl rfl).symm c) = ix2 c q := by
    funext ax; apply Fin.ext
    match ax with
    | ⟨0, _⟩ => simp [DotDims.rhsIdx, dot_S1024x128_S128x512_S1024x512_1_0_0_1_n_n]; exact c2
    | ⟨1, _⟩ => simp [DotDims.rhsIdx, dot_S1024x128_S128x512_S1024x512_1_0_0_1_n_n]; rfl
  rw [l2, r2, transpose_ix2_apply]

theorem pay5_apply (x0 : FVec Ideal S1024x128 .f32) (x1 : FVec Ideal S512x128 .f32) (r : Fin 1024) (q : Fin 512) :
    Gen.k0_pay5 (F := Ideal) x0 x1 (ix2 r q) = ∑ k : Fin 128, x0 (ix2 r k) * x1 (ix2 q k) := by
  unfold Gen.k0_pay5
  exact matmulTile x0 x1 _ r q

theorem pay7'_apply (x0 : FVec Ideal S1024x128 .f32) (x1 : FVec Ideal S512x128 .f32) (r : Fin 1024) (q : Fin 512) :
    Gen.k1_pay7 (F := Ideal) x0 x1 (ix2 r q) = ∑ k : Fin 128, x0 (ix2 r k) * x1 (ix2 q k) := by
  unfold Gen.k1_pay7
  exact matmulTile x0 x1 _ r q

/-! ## One-bit words and the masks -/

theorem bit_and_eq_one (a b : BitVec 1) : IntOp.andi a b = 1#1 ↔ a = 1#1 ∧ b = 1#1 := by
  rcases BitVec.eq_zero_or_eq_one a with rfl | rfl <;> rcases BitVec.eq_zero_or_eq_one b with rfl | rfl <;> decide

theorem bit_xor_one_eq_one (a : BitVec 1) : IntOp.xori a 1#1 = 1#1 ↔ ¬ a = 1#1 := by
  rcases BitVec.eq_zero_or_eq_one a with rfl | rfl <;> decide

theorem cmpi_eq_eq_one (x y : BitVec 32) : IntOp.cmpi .eq x y = 1#1 ↔ x = y := by
  show BitVec.ofBool (x == y) = 1#1 ↔ x = y
  by_cases h : x = y
  · subst h
    have hb : (x == x) = true := by simp
    rw [hb]
    exact ⟨fun _ => rfl, fun _ => rfl⟩
  · have hb : (x == y) = false := by simpa using h
    rw [hb]
    exact ⟨fun h' => absurd h' (by decide), fun h' => absurd h' h⟩

theorem select_eq_ite {α : Type} (c : BitVec 1) (a b : α) : Scalar.select c a b = if c = 1#1 then a else b := rfl

/-- The label comparison at (r, q): the row's label word against the column's. -/
theorem pay6_apply {F : FTy → Type} [FloatOps F] (x2 : Vec F S1024x1 .i32) (x3 : Vec F S1x512 .i32) (r : Fin 1024) (q : Fin 512) :
    Gen.k0_pay6 (F := F) x2 x3 (ix2 r q) = IntOp.cmpi .eq (x2 (ix2 r (0 : Fin 1))) (x3 (ix2 (0 : Fin 1) q)) := by
  unfold Gen.k0_pay6
  show IntOp.cmpi .eq (broadcastTo S1024x512 (shapeCast S1024x1 x2 _) _ (ix2 r q))
    (broadcastTo S1024x512 (shapeCast S1x512 x3 _) _ (ix2 r q)) = _
  rw [bcastCol, bcastRow, castColId, castRowId]

theorem pay8'_apply {F : FTy → Type} [FloatOps F] (x2 : Vec F S1024x1 .i32) (x3 : Vec F S1x512 .i32) (r : Fin 1024) (q : Fin 512) :
    Gen.k1_pay8 (F := F) x2 x3 (ix2 r q) = IntOp.cmpi .eq (x2 (ix2 r (0 : Fin 1))) (x3 (ix2 (0 : Fin 1) q)) := by
  unfold Gen.k1_pay8
  show IntOp.cmpi .eq (broadcastTo S1024x512 (shapeCast S1024x1 x2 _) _ (ix2 r q))
    (broadcastTo S1024x512 (shapeCast S1x512 x3 _) _ (ix2 r q)) = _
  rw [bcastCol, bcastRow, castColId, castRowId]

/-- The global row index word against the global column index word: equal exactly on the diagonal (all the
    numbers are below 8192, so the 32-bit arithmetic does not wrap). -/
theorem diagWord (I : Fin 8) (J : Fin 16) (r : Fin 1024) (q : Fin 512) :
    IntOp.cmpi .eq (IntOp.addi (Scalar.muli (BitVec.ofNat 32 I.val) 1024#32) (BitVec.ofNat 32 r.val))
        (IntOp.addi (Scalar.muli (BitVec.ofNat 32 J.val) 512#32) (BitVec.ofNat 32 q.val)) = 1#1
      ↔ row I r = col J q := by
  have hI := I.isLt; have hJ := J.isLt; have hr := r.isLt; have hq := q.isLt
  have hL : IntOp.addi (Scalar.muli (BitVec.ofNat 32 I.val) 1024#32) (BitVec.ofNat 32 r.val)
      = BitVec.ofNat 32 (I.val * 1024 + r.val) := by
    show BitVec.ofNat 32 I.val * BitVec.ofNat 32 1024 + BitVec.ofNat 32 r.val = _
    rw [← BitVec.ofNat_mul, ← BitVec.ofNat_add]
  have hR : IntOp.addi (Scalar.muli (BitVec.ofNat 32 J.val) 512#32) (BitVec.ofNat 32 q.val)
      = BitVec.ofNat 32 (J.val * 512 + q.val) := by
    show BitVec.ofNat 32 J.val * BitVec.ofNat 32 512 + BitVec.ofNat 32 q.val = _
    rw [← BitVec.ofNat_mul, ← BitVec.ofNat_add]
  rw [cmpi_eq_eq_one, hL, hR]
  constructor
  · intro h
    have h' := congrArg BitVec.toNat h
    simp only [BitVec.toNat_ofNat] at h'
    apply Fin.ext
    show 1024 * I.val + r.val = 512 * J.val + q.val
    omega
  · intro h
    have h' : 1024 * I.val + r.val = 512 * J.val + q.val := congrArg Fin.val h
    have : I.val * 1024 + r.val = J.val * 512 + q.val := by omega
    rw [this]

theorem iotaRow_apply (h : S1024x1.Iotas .tc 32 [0]) (r : Fin 1024) (u : Fin 1) :
    iota .tc S1024x1 32 [0] h (ix2 r u) = BitVec.ofNat 32 r.val := by
  show BitVec.ofNat 32 (0 * 1024 + r.val) = _
  rw [Nat.zero_mul, Nat.zero_add]

theorem iotaCol_apply (h : S1x512.Iotas .tc 32 [1]) (u : Fin 1) (q : Fin 512) :
    iota .tc S1x512 32 [1] h (ix2 u q) = BitVec.ofNat 32 q.val := by
  show BitVec.ofNat 32 (0 * 512 + q.val) = _
  rw [Nat.zero_mul, Nat.zero_add]

/-! ## Lane reductions over the 512 columns of a tile -/

theorem fold_min_top {ι : Type} (s : Finset ι) (f : ι → EReal) : s.fold min ⊤ f = s.inf f := by
  classical
  induction s using Finset.induction_on with
  | empty => simp
  | insert a s ha ih => rw [Finset.fold_insert ha, Finset.inf_insert, ih]

theorem fold_max_bot {ι : Type} (s : Finset ι) (f : ι → EReal) : s.fold max ⊥ f = s.sup f := by
  classical
  induction s using Finset.induction_on with
  | empty => simp
  | insert a s ha ih => rw [Finset.fold_insert ha, Finset.sup_insert, ih]

theorem ofBits_posInf : Ideal.ofBits .f32 0x7F800000#32 = ⊤ := by simp [Ideal.ofBits, Ideal.ieee]
theorem ofBits_negInf : Ideal.ofBits .f32 0xFF800000#32 = ⊥ := by simp [Ideal.ofBits, Ideal.ieee]

theorem liftLane (h : S1024x512.Reduces [1] S1024) (r : Fin 1024) (q : Fin 512) : h.lift (ix1 r) q = ix2 r q := by
  funext c; apply Fin.ext
  match c with
  | ⟨0, _⟩ => rfl
  | ⟨1, _⟩ => rfl

theorem redMin_apply (src : FVec Ideal S1024x512 .f32) (h : S1024x512.Reduces [1] S1024) (hφ : FKind.Formats .f32)
    (hacc : (0x7F800000#32 : BitVec 32) = 0x7F800000#32) (r : Fin 1024) :
    multiReduction .minimumf [1] S1024 src 0x7F800000#32 h hφ hacc (ix1 r)
      = Finset.univ.inf fun q : Fin 512 => src (ix2 r q) := by
  refine (multiReduction_minimumf_eq_fold src _ h hφ hacc (ix1 r)).trans ?_
  rw [h.fold_filter_drop_single]
  show (Finset.univ : Finset (Fin 512)).fold min (Ideal.ofBits .f32 0x7F800000#32) (fun q => src (h.lift (ix1 r) q)) = _
  rw [ofBits_posInf]
  exact (fold_min_top _ _).trans (Finset.inf_congr rfl fun q _ => congrArg src (liftLane h r q))

theorem redMax_apply (src : FVec Ideal S1024x512 .f32) (h : S1024x512.Reduces [1] S1024) (hφ : FKind.Formats .f32)
    (hacc : (0xFF800000#32 : BitVec 32) = 0xFF800000#32) (r : Fin 1024) :
    multiReduction .maximumf [1] S1024 src 0xFF800000#32 h hφ hacc (ix1 r)
      = Finset.univ.sup fun q : Fin 512 => src (ix2 r q) := by
  refine (multiReduction_maximumf_eq_fold src _ h hφ hacc (ix1 r)).trans ?_
  rw [h.fold_filter_drop_single]
  show (Finset.univ : Finset (Fin 512)).fold max (Ideal.ofBits .f32 0xFF800000#32) (fun q => src (h.lift (ix1 r) q)) = _
  rw [ofBits_negInf]
  exact (fold_max_bot _ _).trans (Finset.sup_congr rfl fun q _ => congrArg src (liftLane h r q))

theorem redAdd_apply (src : FVec Ideal S1024x512 .f32) (h : S1024x512.Reduces [1] S1024) (hφ : FKind.Formats .f32)
    (hacc : (0x00000000#32 : BitVec 32) = 0x00000000#32) (r : Fin 1024) :
    multiReduction .add [1] S1024 src 0x00000000#32 h hφ hacc (ix1 r) = ∑ q : Fin 512, src (ix2 r q) := by
  refine (Ideal.multiReduction_add_single src 0x00000000#32 h hφ hacc (ix1 r)).trans ?_
  exact Finset.sum_congr rfl fun q _ => congrArg src (liftLane h r q)

/-! ## The masks as propositions about the labels -/

/-- The positive-pair mask's word at (r, q): the label mask's bit and the negated diagonal bit. -/
theorem posMask_apply (eqm : IVec S1024x512 1) (a0 a1 : ℕ) (h1 : S1024x1.Iotas .tc 32 [0]) (h2 : S1024x1.Broadcasts S1024x512)
    (h3 : S1x512.Iotas .tc 32 [1]) (h4 : S1x512.Broadcasts S1024x512) (r : Fin 1024) (q : Fin 512) :
    andi eqm (xori (cmpi .eq
        (broadcastTo S1024x512 (addi (broadcast S1024x1 (Scalar.muli (BitVec.ofNat 32 a0) 1024#32)) (iota .tc S1024x1 32 [0] h1)) h2)
        (broadcastTo S1024x512 (addi (broadcast S1x512 (Scalar.muli (BitVec.ofNat 32 a1) 512#32)) (iota .tc S1x512 32 [1] h3)) h4))
        (constantI S1024x512 1 1#1)) (ix2 r q)
      = IntOp.andi (eqm (ix2 r q)) (IntOp.xori (IntOp.cmpi .eq
          (IntOp.addi (Scalar.muli (BitVec.ofNat 32 a0) 1024#32) (BitVec.ofNat 32 r.val))
          (IntOp.addi (Scalar.muli (BitVec.ofNat 32 a1) 512#32) (BitVec.ofNat 32 q.val))) 1#1) := by
  show IntOp.andi (eqm (ix2 r q)) (IntOp.xori (IntOp.cmpi .eq
      (broadcastTo S1024x512 (addi (broadcast S1024x1 (Scalar.muli (BitVec.ofNat 32 a0) 1024#32)) (iota .tc S1024x1 32 [0] h1)) h2 (ix2 r q))
      (broadcastTo S1024x512 (addi (broadcast S1x512 (Scalar.muli (BitVec.ofNat 32 a1) 512#32)) (iota .tc S1x512 32 [1] h3)) h4 (ix2 r q))) 1#1) = _
  rw [bcastCol, bcastRow]
  show IntOp.andi (eqm (ix2 r q)) (IntOp.xori (IntOp.cmpi .eq
      (IntOp.addi (Scalar.muli (BitVec.ofNat 32 a0) 1024#32) (iota .tc S1024x1 32 [0] h1 (ix2 r (0 : Fin 1))))
      (IntOp.addi (Scalar.muli (BitVec.ofNat 32 a1) 512#32) (iota .tc S1x512 32 [1] h3 (ix2 (0 : Fin 1) q)))) 1#1) = _
  rw [iotaRow_apply, iotaCol_apply]

/-- With the label mask's bit saying "equal labels" and the grid coordinates naming tiles I and J, the positive-pair
    mask's bit says "a positive pair". -/
theorem posMask_iff (l : Fin 8192 → BitVec 32) (I : Fin 8) (J : Fin 16) (eqm : IVec S1024x512 1) (a0 a1 : ℕ)
    (ha0 : a0 = I.val) (ha1 : a1 = J.val) (h1 : S1024x1.Iotas .tc 32 [0]) (h2 : S1024x1.Broadcasts S1024x512)
    (h3 : S1x512.Iotas .tc 32 [1]) (h4 : S1x512.Broadcasts S1024x512) (r : Fin 1024) (q : Fin 512)
    (heq : eqm (ix2 r q) = 1#1 ↔ l (row I r) = l (col J q)) :
    andi eqm (xori (cmpi .eq
        (broadcastTo S1024x512 (addi (broadcast S1024x1 (Scalar.muli (BitVec.ofNat 32 a0) 1024#32)) (iota .tc S1024x1 32 [0] h1)) h2)
        (broadcastTo S1024x512 (addi (broadcast S1x512 (Scalar.muli (BitVec.ofNat 32 a1) 512#32)) (iota .tc S1x512 32 [1] h3)) h4))
        (constantI S1024x512 1 1#1)) (ix2 r q) = 1#1
      ↔ MSL.pos l (row I r) (col J q) := by
  rw [posMask_apply, bit_and_eq_one, bit_xor_one_eq_one, ha0, ha1, diagWord, heq]
  exact Iff.rfl

/-- The negative-pair mask's bit says "different labels". -/
theorem negMask_iff (l : Fin 8192 → BitVec 32) (I : Fin 8) (J : Fin 16) (eqm : IVec S1024x512 1) (r : Fin 1024) (q : Fin 512)
    (heq : eqm (ix2 r q) = 1#1 ↔ l (row I r) = l (col J q)) :
    xori eqm (constantI S1024x512 1 1#1) (ix2 r q) = 1#1 ↔ MSL.neg l (row I r) (col J q) := by
  show IntOp.xori (eqm (ix2 r q)) 1#1 = 1#1 ↔ _
  rw [bit_xor_one_eq_one, heq]
  exact Iff.rfl

/-- The label mask's bit, for blocks that hold the labels of row tile I and column tile J. -/
theorem labelMask0_iff (l : Fin 8192 → BitVec 32) (I : Fin 8) (J : Fin 16) (x2 : Vec Ideal S1024x1 .i32) (x3 : Vec Ideal S1x512 .i32)
    (hx2 : ∀ r, x2 (ix2 r (0 : Fin 1)) = l (row I r)) (hx3 : ∀ q, x3 (ix2 (0 : Fin 1) q) = l (col J q)) (r : Fin 1024) (q : Fin 512) :
    Gen.k0_pay6 (F := Ideal) x2 x3 (ix2 r q) = 1#1 ↔ l (row I r) = l (col J q) := by
  rw [pay6_apply, cmpi_eq_eq_one, hx2, hx3]

theorem labelMask1_iff (l : Fin 8192 → BitVec 32) (I : Fin 8) (J : Fin 16) (x2 : Vec Ideal S1024x1 .i32) (x3 : Vec Ideal S1x512 .i32)
    (hx2 : ∀ r, x2 (ix2 r (0 : Fin 1)) = l (row I r)) (hx3 : ∀ q, x3 (ix2 (0 : Fin 1) q) = l (col J q)) (r : Fin 1024) (q : Fin 512) :
    Gen.k1_pay8 (F := Ideal) x2 x3 (ix2 r q) = 1#1 ↔ l (row I r) = l (col J q) := by
  rw [pay8'_apply, cmpi_eq_eq_one, hx2, hx3]

/-- The similarity tile holds the similarities of the tile's rows and columns. -/
theorem simTile_eq (e : Fin 8192 → Fin 128 → EReal) (I : Fin 8) (J : Fin 16) (x0 : FVec Ideal S1024x128 .f32)
    (x1 : FVec Ideal S512x128 .f32) (hx0 : ∀ r k, x0 (ix2 r k) = e (row I r) k) (hx1 : ∀ q k, x1 (ix2 q k) = e (col J q) k)
    (r : Fin 1024) (q : Fin 512) : (∑ k : Fin 128, x0 (ix2 r k) * x1 (ix2 q k)) = MSL.sim e (row I r) (col J q) := by
  unfold MSL.sim
  exact Finset.sum_congr rfl fun k _ => by rw [hx0, hx1]

/-- A select on a mask bit that says p is the conditional on p. -/
theorem select_of_iff {α : Type} (c : BitVec 1) (p : Prop) (hc : c = 1#1 ↔ p) (a b : α) :
    Scalar.select c a b = if p then a else b := by
  rw [select_eq_ite]
  by_cases hp : p
  · rw [if_pos hp, if_pos (hc.mpr hp)]
  · rw [if_neg hp, if_neg (fun h => hp (hc.mp h))]

end Cert.KernelIdeal.KVal

end
-- ==== Proof.KI.Tiles.lean ====
/-
  The 8192 columns as sixteen tiles of 512: the columns before tile n, and how an infimum, a supremum and a sum over
  the columns before tile n + 1 split into the part before tile n and tile n itself.
-/
import proofs.«144686_j9225589752058_2_alg».proof.Proof.KI.RowCol
import Mathlib.Data.EReal.Basic
import Mathlib.Algebra.BigOperators.Group.Finset.Basic
import Mathlib.Order.Fin.Basic
import Mathlib.Data.Fintype.Basic
import Mathlib.Data.Fintype.Fin
import Mathlib.Algebra.BigOperators.Fin
import Mathlib.Data.Finset.Lattice.Fold

namespace Cert.KernelIdeal.KVal

/-- The columns of the tiles before tile n. -/
def before (n : ℕ) : Finset (Fin 8192) := Finset.univ.filter fun C => C.val < 512 * n

theorem mem_before (n : ℕ) (C : Fin 8192) : C ∈ before n ↔ C.val < 512 * n := by
  simp [before]

theorem before_zero : before 0 = ∅ := by
  ext C; simp [mem_before]

theorem before_sixteen : before 16 = Finset.univ := by
  ext C; have := C.isLt; simp [mem_before]

theorem col_injective (J : Fin 16) : Function.Injective (col J) := by
  intro q q' h
  have h' : 512 * J.val + q.val = 512 * J.val + q'.val := congrArg Fin.val h
  exact Fin.ext (by omega)

theorem before_succ (J : Fin 16) : before (J.val + 1) = before J.val ∪ Finset.univ.image (col J) := by
  ext C
  have hJ := J.isLt
  simp only [mem_before, Finset.mem_union, Finset.mem_image, Finset.mem_univ, true_and]
  constructor
  · intro h
    by_cases hlt : C.val < 512 * J.val
    · exact Or.inl hlt
    · refine Or.inr ⟨⟨C.val - 512 * J.val, by omega⟩, Fin.ext ?_⟩
      show 512 * J.val + (C.val - 512 * J.val) = C.val
      omega
  · rintro (h | ⟨q, rfl⟩)
    · omega
    · have := q.isLt
      show 512 * J.val + q.val < 512 * (J.val + 1)
      omega

theorem disjoint_before_col (J : Fin 16) : Disjoint (before J.val) (Finset.univ.image (col J)) := by
  rw [Finset.disjoint_left]
  intro C hC hC'
  rw [mem_before] at hC
  obtain ⟨q, _, rfl⟩ := Finset.mem_image.mp hC'
  have : (col J q).val = 512 * J.val + q.val := rfl
  omega

theorem inf_before_succ (g : Fin 8192 → EReal) (J : Fin 16) :
    (before (J.val + 1)).inf g = min ((before J.val).inf g) (Finset.univ.inf fun q : Fin 512 => g (col J q)) := by
  rw [before_succ, Finset.inf_union, Finset.inf_image]
  rfl

theorem sup_before_succ (g : Fin 8192 → EReal) (J : Fin 16) :
    (before (J.val + 1)).sup g = max ((before J.val).sup g) (Finset.univ.sup fun q : Fin 512 => g (col J q)) := by
  rw [before_succ, Finset.sup_union, Finset.sup_image]
  rfl

theorem sum_before_succ (g : Fin 8192 → EReal) (J : Fin 16) :
    ∑ C ∈ before (J.val + 1), g C = ∑ C ∈ before J.val, g C + ∑ q : Fin 512, g (col J q) := by
  rw [before_succ, Finset.sum_union (disjoint_before_col J),
    Finset.sum_image (fun q _ q' _ h => col_injective J h)]

/-! ## Sixteen steps -/

/-- A value that starts as the first tile's infimum against +inf and takes the minimum with each next tile's
    infimum ends as the infimum over all the columns. -/
theorem min_chain (g : Fin 8192 → EReal) (v : Fin 16 → EReal)
    (h0 : v 0 = min ⊤ (Finset.univ.inf fun q : Fin 512 => g (col 0 q)))
    (hS : ∀ (J : Fin 16) (hJ : J.val + 1 < 16),
      v ⟨J.val + 1, hJ⟩ = min (v J) (Finset.univ.inf fun q : Fin 512 => g (col ⟨J.val + 1, hJ⟩ q))) :
    v 15 = Finset.univ.inf g := by
  have inv : ∀ (n : ℕ) (hn : n < 16), v ⟨n, hn⟩ = (before (n + 1)).inf g := by
    intro n
    induction n with
    | zero =>
      intro hn
      have e1 : (before (0 + 1)).inf g = min ((before 0).inf g) (Finset.univ.inf fun q : Fin 512 => g (col 0 q)) :=
        inf_before_succ g 0
      rw [e1, before_zero, Finset.inf_empty]
      exact h0
    | succ n ih =>
      intro hn
      have e1 : (before (n + 1 + 1)).inf g
          = min ((before (n + 1)).inf g) (Finset.univ.inf fun q : Fin 512 => g (col ⟨n + 1, hn⟩ q)) :=
        inf_before_succ g ⟨n + 1, hn⟩
      rw [e1, ← ih (by omega)]
      exact hS ⟨n, by omega⟩ hn
  have h15 := inv 15 (by omega)
  have hb : before (15 + 1) = Finset.univ := before_sixteen
  rw [hb] at h15
  exact h15

/-- The same for a maximum from -inf. -/
theorem max_chain (g : Fin 8192 → EReal) (v : Fin 16 → EReal)
    (h0 : v 0 = max ⊥ (Finset.univ.sup fun q : Fin 512 => g (col 0 q)))
    (hS : ∀ (J : Fin 16) (hJ : J.val + 1 < 16),
      v ⟨J.val + 1, hJ⟩ = max (v J) (Finset.univ.sup fun q : Fin 512 => g (col ⟨J.val + 1, hJ⟩ q))) :
    v 15 = Finset.univ.sup g := by
  have inv : ∀ (n : ℕ) (hn : n < 16), v ⟨n, hn⟩ = (before (n + 1)).sup g := by
    intro n
    induction n with
    | zero =>
      intro hn
      have e1 : (before (0 + 1)).sup g = max ((before 0).sup g) (Finset.univ.sup fun q : Fin 512 => g (col 0 q)) :=
        sup_before_succ g 0
      rw [e1, before_zero, Finset.sup_empty]
      exact h0
    | succ n ih =>
      intro hn
      have e1 : (before (n + 1 + 1)).sup g
          = max ((before (n + 1)).sup g) (Finset.univ.sup fun q : Fin 512 => g (col ⟨n + 1, hn⟩ q)) :=
        sup_before_succ g ⟨n + 1, hn⟩
      rw [e1, ← ih (by omega)]
      exact hS ⟨n, by omega⟩ hn
  have h15 := inv 15 (by omega)
  have hb : before (15 + 1) = Finset.univ := before_sixteen
  rw [hb] at h15
  exact h15

/-- A sum that starts at zero plus the first tile's sum and adds each next tile's sum ends as the sum over all the
    columns. -/
theorem sum_chain (g : Fin 8192 → EReal) (v : Fin 16 → EReal)
    (h0 : v 0 = 0 + ∑ q : Fin 512, g (col 0 q))
    (hS : ∀ (J : Fin 16) (hJ : J.val + 1 < 16), v ⟨J.val + 1, hJ⟩ = v J + ∑ q : Fin 512, g (col ⟨J.val + 1, hJ⟩ q)) :
    v 15 = ∑ C, g C := by
  have inv : ∀ (n : ℕ) (hn : n < 16), v ⟨n, hn⟩ = ∑ C ∈ before (n + 1), g C := by
    intro n
    induction n with
    | zero =>
      intro hn
      have e1 : ∑ C ∈ before (0 + 1), g C = ∑ C ∈ before 0, g C + ∑ q : Fin 512, g (col 0 q) := sum_before_succ g 0
      rw [e1, before_zero, Finset.sum_empty]
      exact h0
    | succ n ih =>
      intro hn
      have e1 : ∑ C ∈ before (n + 1 + 1), g C = ∑ C ∈ before (n + 1), g C + ∑ q : Fin 512, g (col ⟨n + 1, hn⟩ q) :=
        sum_before_succ g ⟨n + 1, hn⟩
      rw [e1, ← ih (by omega)]
      exact hS ⟨n, by omega⟩ hn
  have h15 := inv 15 (by omega)
  have hb : before (15 + 1) = Finset.univ := before_sixteen
  rw [hb] at h15
  exact h15

/-- A maximum that starts at zero: after the sixteen tiles, zero against the supremum over all the columns. -/
theorem flag_chain (g : Fin 8192 → EReal) (v : Fin 16 → EReal)
    (h0 : v 0 = max 0 (Finset.univ.sup fun q : Fin 512 => g (col 0 q)))
    (hS : ∀ (J : Fin 16) (hJ : J.val + 1 < 16),
      v ⟨J.val + 1, hJ⟩ = max (v J) (Finset.univ.sup fun q : Fin 512 => g (col ⟨J.val + 1, hJ⟩ q))) :
    v 15 = max 0 (Finset.univ.sup g) := by
  have inv : ∀ (n : ℕ) (hn : n < 16), v ⟨n, hn⟩ = max 0 ((before (n + 1)).sup g) := by
    intro n
    induction n with
    | zero =>
      intro hn
      have e1 : (before (0 + 1)).sup g = max ((before 0).sup g) (Finset.univ.sup fun q : Fin 512 => g (col 0 q)) :=
        sup_before_succ g 0
      rw [e1, before_zero, Finset.sup_empty, max_eq_right bot_le]
      exact h0
    | succ n ih =>
      intro hn
      have e1 : (before (n + 1 + 1)).sup g
          = max ((before (n + 1)).sup g) (Finset.univ.sup fun q : Fin 512 => g (col ⟨n + 1, hn⟩ q)) :=
        sup_before_succ g ⟨n + 1, hn⟩
      rw [e1, ← max_assoc, ← ih (by omega)]
      exact hS ⟨n, by omega⟩ hn
  have h15 := inv 15 (by omega)
  have hb : before (15 + 1) = Finset.univ := before_sixteen
  rw [hb] at h15
  exact h15

/-- Zero against the supremum of a 0/1 indicator: 1 if the property holds somewhere, else 0 (for any way of deciding
    the property and its existence). -/
theorem max_zero_sup_flag (p : Fin 8192 → Prop) [DecidablePred p] [Decidable (∃ C, p C)] :
    max (0 : EReal) (Finset.univ.sup fun C => if p C then (1 : EReal) else 0) = if ∃ C, p C then 1 else 0 := by
  by_cases h : ∃ C, p C
  · obtain ⟨C0, hC0⟩ := h
    rw [if_pos ⟨C0, hC0⟩]
    have h1 : (1 : EReal) ≤ Finset.univ.sup fun C => if p C then (1 : EReal) else 0 := by
      have := Finset.le_sup (f := fun C => if p C then (1 : EReal) else 0) (Finset.mem_univ C0)
      simpa [hC0] using this
    have h2 : (Finset.univ.sup fun C => if p C then (1 : EReal) else 0) ≤ 1 :=
      Finset.sup_le fun C _ => by
        by_cases hp : p C
        · rw [if_pos hp]
        · rw [if_neg hp]; exact zero_le_one
    exact le_antisymm (max_le zero_le_one h2) (le_max_of_le_right h1)
  · rw [if_neg h]
    have h2 : (Finset.univ.sup fun C => if p C then (1 : EReal) else 0) ≤ 0 :=
      Finset.sup_le fun C _ => by
        have hp : ¬ p C := fun hp => h ⟨C, hp⟩
        rw [if_neg hp]
    exact max_eq_left h2

end Cert.KernelIdeal.KVal
-- ==== Proof.KI.Val0.lean ====
/-
  Pass 1 at the extended reals. One grid point folds one 1024 x 512 tile of the similarity matrix into the pair of
  per-row running values: the minimum over the tile's positive pairs into the first, the maximum over its negative
  pairs into the second. After the sixteen column tiles of a row tile the pair holds, at each row, the least
  similarity over the row's positive pairs and the greatest over its negative pairs.
-/
import proofs.«144686_j9225589752058_2_alg».proof.Proof.KI.ValBase
import proofs.«144686_j9225589752058_2_alg».proof.Proof.KI.Tiles

noncomputable section

namespace Cert.KernelIdeal.KVal

open Idealize.ShloMosaic Idealize.ShloMosaic.ValueIdx
open Cert.KernelIdeal Cert.KernelIdeal.Hand
open scoped Classical

variable (e : Fin 8192 → Fin 128 → EReal) (l : Fin 8192 → BitVec 32)

/-- What column C contributes to row R's minimum: the similarity on a positive pair, +inf elsewhere. -/
def posTerm (R C : Fin 8192) : EReal := if MSL.pos l R C then MSL.sim e R C else ⊤
/-- What column C contributes to row R's maximum: the similarity on a negative pair, -inf elsewhere. -/
def negTerm (R C : Fin 8192) : EReal := if MSL.neg l R C then MSL.sim e R C else ⊥

theorem posMin_eq (R : Fin 8192) : MSL.posMin e l R = Finset.univ.inf (posTerm e l R) := rfl
theorem negMax_eq (R : Fin 8192) : MSL.negMax e l R = Finset.univ.sup (negTerm e l R) := rfl

/-! ## The start values -/

theorem init0_fst (j : S1024x1.Idx) : (init0 (F := Ideal)).1 j = ⊤ := by
  show Gen.k0_pay3 (F := Ideal) j = ⊤
  unfold Gen.k0_pay3
  exact (castColId _ _ j).trans ofBits_posInf

theorem init0_snd (j : S1024x1.Idx) : (init0 (F := Ideal)).2 j = ⊥ := by
  show Gen.k0_pay4 (F := Ideal) j = ⊥
  unfold Gen.k0_pay4
  exact (castColId _ _ j).trans ofBits_negInf

/-! ## One tile -/

section Tile
variable (i : grid0.Coords) (I : Fin 8) (J : Fin 16) (hi0 : (i 0).val = I.val) (hi1 : (i 1).val = J.val)
  (x0 : Vec Ideal S1024x128 .f32) (x1 : Vec Ideal S512x128 .f32) (x2 : Vec Ideal S1024x1 .i32) (x3 : Vec Ideal S1x512 .i32)
  (hx0 : ∀ r k, x0 (ix2 r k) = e (row I r) k) (hx1 : ∀ q k, x1 (ix2 q k) = e (col J q) k)
  (hx2 : ∀ r, x2 (ix2 r (0 : Fin 1)) = l (row I r)) (hx3 : ∀ q, x3 (ix2 (0 : Fin 1) q) = l (col J q))

include hi0 hi1 hx0 hx1 hx2 hx3 in
/-- The tile's minimum over its positive pairs, per row. -/
theorem pay7_apply (r : Fin 1024) :
    Gen.k0_pay7 (F := Ideal) i x0 x1 x2 x3 (ix2 r (0 : Fin 1))
      = Finset.univ.inf fun q : Fin 512 => posTerm e l (row I r) (col J q) := by
  unfold Gen.k0_pay7
  refine (castLaneCol _ _ r 0).trans ?_
  refine (redMin_apply _ _ _ _ r).trans ?_
  refine Finset.inf_congr rfl fun q _ => ?_
  refine (select_apply _ _ _ _).trans ?_
  have hm := posMask_iff l I J (Gen.k0_pay6 (F := Ideal) x2 x3) (i 0).val (i 1).val hi0 hi1
    Gen.iota_S1024x1_d0_w32 Gen.broadcasts_S1024x1_S1024x512 Gen.iota_S1x512_d1_w32 Gen.broadcasts_S1x512_S1024x512 r q
    (labelMask0_iff l I J x2 x3 hx2 hx3 r q)
  have hs : Gen.k0_pay5 (F := Ideal) x0 x1 (ix2 r q) = MSL.sim e (row I r) (col J q) :=
    (pay5_apply x0 x1 r q).trans (simTile_eq e I J x0 x1 hx0 hx1 r q)
  refine (select_of_iff _ _ hm _ _).trans ?_
  rw [hs]
  exact congrArg (fun t => if MSL.pos l (row I r) (col J q) then MSL.sim e (row I r) (col J q) else t) ofBits_posInf

include hx0 hx1 hx2 hx3 in
/-- The tile's maximum over its negative pairs, per row. -/
theorem pay8_apply (r : Fin 1024) :
    Gen.k0_pay8 (F := Ideal) x0 x1 x2 x3 (ix2 r (0 : Fin 1))
      = Finset.univ.sup fun q : Fin 512 => negTerm e l (row I r) (col J q) := by
  unfold Gen.k0_pay8
  refine (castLaneCol _ _ r 0).trans ?_
  refine (redMax_apply _ _ _ _ r).trans ?_
  refine Finset.sup_congr rfl fun q _ => ?_
  refine (select_apply _ _ _ _).trans ?_
  have hm := negMask_iff l I J (Gen.k0_pay6 (F := Ideal) x2 x3) r q (labelMask0_iff l I J x2 x3 hx2 hx3 r q)
  have hs : Gen.k0_pay5 (F := Ideal) x0 x1 (ix2 r q) = MSL.sim e (row I r) (col J q) :=
    (pay5_apply x0 x1 r q).trans (simTile_eq e I J x0 x1 hx0 hx1 r q)
  refine (select_of_iff _ _ hm _ _).trans ?_
  rw [hs]
  exact congrArg (fun t => if MSL.neg l (row I r) (col J q) then MSL.sim e (row I r) (col J q) else t) ofBits_negInf

include hi0 hi1 hx0 hx1 hx2 hx3 in
/-- ONE TILE, the minimum: the running minimum against the tile's. -/
theorem step0_fst (s : Vec Ideal S1024x1 .f32 × Vec Ideal S1024x1 .f32) (r : Fin 1024) :
    (step0 i x0 x1 x2 x3 s).1 (ix2 r (0 : Fin 1))
      = min (s.1 (ix2 r (0 : Fin 1))) (Finset.univ.inf fun q : Fin 512 => posTerm e l (row I r) (col J q)) := by
  show Gen.k0_pay1 (F := Ideal) (Gen.k0_pay7 i x0 x1 x2 x3) s.1 (ix2 r (0 : Fin 1)) = _
  unfold Gen.k0_pay1
  refine (castColId _ _ _).trans ?_
  refine (minimumf_apply _ _ _).trans ?_
  rw [pay7_apply e l i I J hi0 hi1 x0 x1 x2 x3 hx0 hx1 hx2 hx3 r]

include hx0 hx1 hx2 hx3 in
/-- ONE TILE, the maximum: the running maximum against the tile's. -/
theorem step0_snd (s : Vec Ideal S1024x1 .f32 × Vec Ideal S1024x1 .f32) (r : Fin 1024) :
    (step0 i x0 x1 x2 x3 s).2 (ix2 r (0 : Fin 1))
      = max (s.2 (ix2 r (0 : Fin 1))) (Finset.univ.sup fun q : Fin 512 => negTerm e l (row I r) (col J q)) := by
  show Gen.k0_pay2 (F := Ideal) (Gen.k0_pay8 x0 x1 x2 x3) s.2 (ix2 r (0 : Fin 1)) = _
  unfold Gen.k0_pay2
  refine (castColId _ _ _).trans ?_
  refine (maximumf_apply _ _ _).trans ?_
  rw [pay8_apply e l I J x0 x1 x2 x3 hx0 hx1 hx2 hx3 r]

end Tile

/-! ## Sixteen tiles -/

/-- SIXTEEN TILES: a sequence of pairs that starts with the first tile folded into the start values and folds tile
    J + 1 into the pair after tile J ends, at each row, with the row's least positive and greatest negative
    similarity. -/
theorem pass1_sixteen (I : Fin 8) (i : Fin 16 → grid0.Coords)
    (hi0 : ∀ J, ((i J) 0).val = I.val) (hi1 : ∀ J, ((i J) 1).val = J.val)
    (x0 : Vec Ideal S1024x128 .f32) (x1 : Fin 16 → Vec Ideal S512x128 .f32) (x2 : Vec Ideal S1024x1 .i32)
    (x3 : Fin 16 → Vec Ideal S1x512 .i32)
    (hx0 : ∀ r k, x0 (ix2 r k) = e (row I r) k) (hx1 : ∀ J q k, x1 J (ix2 q k) = e (col J q) k)
    (hx2 : ∀ r, x2 (ix2 r (0 : Fin 1)) = l (row I r)) (hx3 : ∀ J q, x3 J (ix2 (0 : Fin 1) q) = l (col J q))
    (a : Fin 16 → Vec Ideal S1024x1 .f32 × Vec Ideal S1024x1 .f32)
    (h0 : a 0 = step0 (i 0) x0 (x1 0) x2 (x3 0) init0)
    (hS : ∀ (J : Fin 16) (hJ : J.val + 1 < 16),
      a ⟨J.val + 1, hJ⟩ = step0 (i ⟨J.val + 1, hJ⟩) x0 (x1 ⟨J.val + 1, hJ⟩) x2 (x3 ⟨J.val + 1, hJ⟩) (a J))
    (r : Fin 1024) :
    (a 15).1 (ix2 r (0 : Fin 1)) = MSL.posMin e l (row I r) ∧ (a 15).2 (ix2 r (0 : Fin 1)) = MSL.negMax e l (row I r) := by
  constructor
  · refine (min_chain (posTerm e l (row I r)) (fun J => (a J).1 (ix2 r (0 : Fin 1))) ?_ ?_).trans (posMin_eq e l (row I r)).symm
    · show (a 0).1 (ix2 r (0 : Fin 1)) = _
      rw [h0, step0_fst e l (i 0) I 0 (hi0 0) (hi1 0) x0 (x1 0) x2 (x3 0) hx0 (hx1 0) hx2 (hx3 0), init0_fst]
    · intro J hJ
      show (a ⟨J.val + 1, hJ⟩).1 (ix2 r (0 : Fin 1)) = min ((a J).1 (ix2 r (0 : Fin 1))) _
      rw [hS J hJ, step0_fst e l (i ⟨J.val + 1, hJ⟩) I ⟨J.val + 1, hJ⟩ (hi0 _) (hi1 _) x0 (x1 ⟨J.val + 1, hJ⟩) x2
        (x3 ⟨J.val + 1, hJ⟩) hx0 (hx1 _) hx2 (hx3 _)]
  · refine (max_chain (negTerm e l (row I r)) (fun J => (a J).2 (ix2 r (0 : Fin 1))) ?_ ?_).trans (negMax_eq e l (row I r)).symm
    · show (a 0).2 (ix2 r (0 : Fin 1)) = _
      rw [h0, step0_snd e l (i 0) I 0 x0 (x1 0) x2 (x3 0) hx0 (hx1 0) hx2 (hx3 0), init0_snd]
    · intro J hJ
      show (a ⟨J.val + 1, hJ⟩).2 (ix2 r (0 : Fin 1)) = max ((a J).2 (ix2 r (0 : Fin 1))) _
      rw [hS J hJ, step0_snd e l (i ⟨J.val + 1, hJ⟩) I ⟨J.val + 1, hJ⟩ x0 (x1 ⟨J.val + 1, hJ⟩) x2
        (x3 ⟨J.val + 1, hJ⟩) hx0 (hx1 _) hx2 (hx3 _)]

/-- SIXTEEN TILES with the row blocks given per column tile (equal as functions, not as terms). -/
theorem pass1_sixteen_gen (I : Fin 8) (i : Fin 16 → grid0.Coords)
    (hi0 : ∀ J, ((i J) 0).val = I.val) (hi1 : ∀ J, ((i J) 1).val = J.val)
    (x0 : Fin 16 → Vec Ideal S1024x128 .f32) (x1 : Fin 16 → Vec Ideal S512x128 .f32) (x2 : Fin 16 → Vec Ideal S1024x1 .i32)
    (x3 : Fin 16 → Vec Ideal S1x512 .i32)
    (hx0 : ∀ J r k, x0 J (ix2 r k) = e (row I r) k) (hx1 : ∀ J q k, x1 J (ix2 q k) = e (col J q) k)
    (hx2 : ∀ J r, x2 J (ix2 r (0 : Fin 1)) = l (row I r)) (hx3 : ∀ J q, x3 J (ix2 (0 : Fin 1) q) = l (col J q))
    (a : Fin 16 → Vec Ideal S1024x1 .f32 × Vec Ideal S1024x1 .f32)
    (h0 : a 0 = step0 (i 0) (x0 0) (x1 0) (x2 0) (x3 0) init0)
    (hS : ∀ (J : Fin 16) (hJ : J.val + 1 < 16),
      a ⟨J.val + 1, hJ⟩ = step0 (i ⟨J.val + 1, hJ⟩) (x0 ⟨J.val + 1, hJ⟩) (x1 ⟨J.val + 1, hJ⟩) (x2 ⟨J.val + 1, hJ⟩) (x3 ⟨J.val + 1, hJ⟩) (a J))
    (r : Fin 1024) :
    (a 15).1 (ix2 r (0 : Fin 1)) = MSL.posMin e l (row I r) ∧ (a 15).2 (ix2 r (0 : Fin 1)) = MSL.negMax e l (row I r) := by
  constructor
  · refine (min_chain (posTerm e l (row I r)) (fun J => (a J).1 (ix2 r (0 : Fin 1))) ?_ ?_).trans (posMin_eq e l (row I r)).symm
    · show (a 0).1 (ix2 r (0 : Fin 1)) = _
      rw [h0, step0_fst e l (i 0) I 0 (hi0 0) (hi1 0) (x0 0) (x1 0) (x2 0) (x3 0) (hx0 0) (hx1 0) (hx2 0) (hx3 0), init0_fst]
    · intro J hJ
      show (a ⟨J.val + 1, hJ⟩).1 (ix2 r (0 : Fin 1)) = min ((a J).1 (ix2 r (0 : Fin 1))) _
      rw [hS J hJ, step0_fst e l (i ⟨J.val + 1, hJ⟩) I ⟨J.val + 1, hJ⟩ (hi0 _) (hi1 _) (x0 ⟨J.val + 1, hJ⟩) (x1 ⟨J.val + 1, hJ⟩)
        (x2 ⟨J.val + 1, hJ⟩) (x3 ⟨J.val + 1, hJ⟩) (hx0 _) (hx1 _) (hx2 _) (hx3 _)]
  · refine (max_chain (negTerm e l (row I r)) (fun J => (a J).2 (ix2 r (0 : Fin 1))) ?_ ?_).trans (negMax_eq e l (row I r)).symm
    · show (a 0).2 (ix2 r (0 : Fin 1)) = _
      rw [h0, step0_snd e l (i 0) I 0 (x0 0) (x1 0) (x2 0) (x3 0) (hx0 0) (hx1 0) (hx2 0) (hx3 0), init0_snd]
    · intro J hJ
      show (a ⟨J.val + 1, hJ⟩).2 (ix2 r (0 : Fin 1)) = max ((a J).2 (ix2 r (0 : Fin 1))) _
      rw [hS J hJ, step0_snd e l (i ⟨J.val + 1, hJ⟩) I ⟨J.val + 1, hJ⟩ (x0 ⟨J.val + 1, hJ⟩) (x1 ⟨J.val + 1, hJ⟩)
        (x2 ⟨J.val + 1, hJ⟩) (x3 ⟨J.val + 1, hJ⟩) (hx0 _) (hx1 _) (hx2 _) (hx3 _)]

end Cert.KernelIdeal.KVal

end
-- ==== Proof.KI.Blocks0.lean ====
/-
  Pass 1, from blocks to arrays. Grid point t is row tile t / 16 and column tile t % 16; its input blocks are the rows
  of row tile t / 16 and the columns of column tile t % 16 of the embedding matrix and the labels. So the fold of the
  sixteen column tiles of a row tile leaves, in the two scratch columns, the row tile's least positive and greatest
  negative similarities, and the last column tile's point writes them back to the row tile's block of the two result
  columns: after the grid the first result column holds every row's least positive similarity and the second every
  row's greatest negative similarity.
-/
import proofs.«144686_j9225589752058_2_alg».proof.Proof.KI.R0Dat
import proofs.«144686_j9225589752058_2_alg».proof.Proof.KI.Val0

noncomputable section

namespace Cert.KernelIdeal.KVal

open Idealize.ShloMosaic Idealize.ShloMosaic.TcCoe Idealize.ShloMosaic.ValueIdx Idealize.SL.Sem
open Idealize.SL Idealize.SL.RA
open Idealize.ShloMosaic.Pipeline (Dat)
open Cert.KernelIdeal Cert.KernelIdeal.Gen Cert.KernelIdeal.Hand
open scoped Classical

/-- The printed index maps and the grid coordinates, decided over the 128 points: point t is row tile t / 16 and
    column tile t % 16. -/
theorem idx0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0
    ∧ ((grid0.coords t) 0).val = t.val / 16 ∧ ((grid0.coords t) 1).val = t.val % 16 :=
  (by decide +kernel : ∀ t : Fin grid0.N, _)

/-- The first result column as one function of the row: the row's least positive similarity. -/
def G4 (e : Fin 8192 → Fin 128 → EReal) (l : Fin 8192 → BitVec 32) : S8192x1.Idx → Elt Ideal .f32 :=
  fun idx => MSL.posMin e l ⟨(idx 0).val, idx2_lt0 idx⟩
/-- The second result column: the row's greatest negative similarity. -/
def G5 (e : Fin 8192 → Fin 128 → EReal) (l : Fin 8192 → BitVec 32) : S8192x1.Idx → Elt Ideal .f32 :=
  fun idx => MSL.negMax e l ⟨(idx 0).val, idx2_lt0 idx⟩

section
variable (V : (c : Dev nD) → (b : Ref sig .tc) → Buf (Elt Ideal) ((c : Thread nD τ).loc b)) (c : Dev nD)

/-! ## The blocks read where the arrays say -/

theorem iblk0_0_apply (t : Fin cfg0.N) (r : Fin 1024) (k : Fin 128) (R : Fin 8192) (hR : R.val = 1024 * (t.val / 16) + r.val) :
    iblk0 (F := Ideal) V c 0 t (ix2 r k) = V c main_arg0 (ix2 R k) := by
  unfold iblk0
  show V c main_arg0 (((cfg0.win 0).blk t).view.emb (ix2 r k)) = _
  refine congrArg (V c main_arg0) ?_
  obtain ⟨e0, e1, -⟩ := idx0 t
  funext a; apply Fin.ext
  match a with
  | ⟨0, _⟩ => show win0_0.index t (0 : Fin 2) * 1024 + 1 * r.val = R.val; omega
  | ⟨1, _⟩ => show win0_0.index t (1 : Fin 2) * 128 + 1 * k.val = k.val; omega

theorem iblk0_1_apply (t : Fin cfg0.N) (q : Fin 512) (k : Fin 128) (C : Fin 8192) (hC : C.val = 512 * (t.val % 16) + q.val) :
    iblk0 (F := Ideal) V c 1 t (ix2 q k) = V c main_arg0 (ix2 C k) := by
  unfold iblk0
  show V c main_arg0 (((cfg0.win 1).blk t).view.emb (ix2 q k)) = _
  refine congrArg (V c main_arg0) ?_
  obtain ⟨-, -, e0, e1, -⟩ := idx0 t
  funext a; apply Fin.ext
  match a with
  | ⟨0, _⟩ => show win0_1.index t (0 : Fin 2) * 512 + 1 * q.val = C.val; omega
  | ⟨1, _⟩ => show win0_1.index t (1 : Fin 2) * 128 + 1 * k.val = k.val; omega

theorem iblk0_2_apply (t : Fin cfg0.N) (r : Fin 1024) (u : Fin 1) (R : Fin 8192) (hR : R.val = 1024 * (t.val / 16) + r.val) :
    iblk0 (F := Ideal) V c 2 t (ix2 r u) = V c main_v0 (ix2 R (0 : Fin 1)) := by
  unfold iblk0
  show V c main_v0 (((cfg0.win 2).blk t).view.emb (ix2 r u)) = _
  refine congrArg (V c main_v0) ?_
  obtain ⟨-, -, -, -, e0, e1, -⟩ := idx0 t
  have hu : u.val = 0 := by omega
  funext a; apply Fin.ext
  match a with
  | ⟨0, _⟩ => show win0_2.index t (0 : Fin 2) * 1024 + 1 * r.val = R.val; omega
  | ⟨1, _⟩ => show win0_2.index t (1 : Fin 2) * 1 + 1 * u.val = 0; omega

theorem iblk0_3_apply (t : Fin cfg0.N) (u : Fin 1) (q : Fin 512) (C : Fin 8192) (hC : C.val = 512 * (t.val % 16) + q.val) :
    iblk0 (F := Ideal) V c 3 t (ix2 u q) = V c main_v1 (ix2 (0 : Fin 1) C) := by
  unfold iblk0
  show V c main_v1 (((cfg0.win 3).blk t).view.emb (ix2 u q)) = _
  refine congrArg (V c main_v1) ?_
  obtain ⟨-, -, -, -, -, -, e0, e1, -⟩ := idx0 t
  have hu : u.val = 0 := by omega
  funext a; apply Fin.ext
  match a with
  | ⟨0, _⟩ => show win0_3.index t (0 : Fin 2) * 1 + 1 * u.val = 0; omega
  | ⟨1, _⟩ => show win0_3.index t (1 : Fin 2) * 512 + 1 * q.val = C.val; omega

theorem acc0_congr {n n' : ℕ} (h : n = n') (hn : n < cfg0.N) (hn' : n' < cfg0.N) :
    acc0 (F := Ideal) V c n hn = acc0 V c n' hn' := by
  subst h; rfl

/-! ## The sixteen column tiles of a row tile -/

variable (e : Fin 8192 → Fin 128 → EReal) (l : Fin 8192 → BitVec 32)
  (hE : ∀ R k, V c main_arg0 (ix2 R k) = e R k) (hLR : ∀ R, V c main_v0 (ix2 R (0 : Fin 1)) = l R)
  (hLC : ∀ C, V c main_v1 (ix2 (0 : Fin 1) C) = l C)

include hE hLR hLC in
/-- After the last column tile of a row tile the scratch pair holds, at each row of the tile, the row's least positive
    and greatest negative similarity. -/
theorem acc0_row (t : Fin cfg0.N) (ht : t.val % 16 = 15) (r : Fin 1024) (R : Fin 8192) (hR : R.val = 1024 * (t.val / 16) + r.val) :
    (acc0 (F := Ideal) V c t.val t.isLt).1 (ix2 r (0 : Fin 1)) = MSL.posMin e l R
    ∧ (acc0 (F := Ideal) V c t.val t.isLt).2 (ix2 r (0 : Fin 1)) = MSL.negMax e l R := by
  have hN : cfg0.N = 128 := N_0
  have htlt := t.isLt
  let I : Fin 8 := ⟨t.val / 16, by omega⟩
  have hI : I.val = t.val / 16 := rfl
  let P : Fin 16 → Fin cfg0.N := fun J => ⟨16 * I.val + J.val, by have := J.isLt; omega⟩
  have hP : ∀ J, (P J).val = 16 * I.val + J.val := fun _ => rfl
  have hdiv : ∀ J : Fin 16, (P J).val / 16 = I.val := fun J => by rw [hP]; have := J.isLt; omega
  have hmod : ∀ J : Fin 16, (P J).val % 16 = J.val := fun J => by rw [hP]; have := J.isLt; omega
  have hRow : R = row I r := Fin.ext (by rw [hR]; rfl)
  have h15 : ((15 : Fin 16)).val = 15 := rfl
  have h00 : ((0 : Fin 16)).val = 0 := rfl
  have key := pass1_sixteen_gen e l I (fun J => grid0.coords (P J))
    (fun J => by obtain ⟨-, -, -, -, -, -, -, -, -, -, -, -, g0, -⟩ := idx0 (P J); rw [g0, hdiv])
    (fun J => by obtain ⟨-, -, -, -, -, -, -, -, -, -, -, -, -, g1⟩ := idx0 (P J); rw [g1, hmod])
    (fun J => iblk0 V c 0 (P J)) (fun J => iblk0 V c 1 (P J)) (fun J => iblk0 V c 2 (P J)) (fun J => iblk0 V c 3 (P J))
    (fun J r k => (iblk0_0_apply V c (P J) r k (row I r) (by rw [hdiv]; rfl)).trans (hE _ _))
    (fun J q k => (iblk0_1_apply V c (P J) q k (col J q) (by rw [hmod]; rfl)).trans (hE _ _))
    (fun J r => (iblk0_2_apply V c (P J) r 0 (row I r) (by rw [hdiv]; rfl)).trans (hLR _))
    (fun J q => (iblk0_3_apply V c (P J) 0 q (col J q) (by rw [hmod]; rfl)).trans (hLC _))
    (fun J => acc0 V c (P J).val (P J).isLt)
    (acc0_first V c (P 0) (by rw [hmod]; rfl))
    (fun J hJ => (acc0_next V c (P ⟨J.val + 1, hJ⟩) (by rw [hmod]; exact Nat.succ_ne_zero _)).trans
      (congrArg (step0 _ _ _ _ _) (acc0_congr V c (by show 16 * I.val + (J.val + 1) - 1 = 16 * I.val + J.val; omega) _ _)))
    r
  have hlast : acc0 (F := Ideal) V c (P 15).val (P 15).isLt = acc0 V c t.val t.isLt :=
    acc0_congr V c (by rw [hP, h15, hI]; omega) _ _
  rw [← hlast, hRow]
  exact key

end

/-! ## The write-back and the arrays after the grid -/

section Final
variable (V : (c : Dev nD) → (b : Ref sig .tc) → Buf (Elt Ideal) ((c : Thread nD τ).loc b)) (c : Dev nD)
  (q : Fin cfg0.W → PosShare TreeShare)
  (e : Fin 8192 → Fin 128 → EReal) (l : Fin 8192 → BitVec 32)
  (hE : ∀ R k, V c main_arg0 (ix2 R k) = e R k) (hLR : ∀ R, V c main_v0 (ix2 R (0 : Fin 1)) = l R)
  (hLC : ∀ C, V c main_v1 (ix2 (0 : Fin 1) C) = l C)

/-- Where an element of a result block sits in its array. -/
theorem emb0_4 (t : Fin cfg0.N) (r : Fin 1024) (u : Fin 1) (R : Fin 8192) (hR : R.val = 1024 * (t.val / 16) + r.val) :
    ((cfg0.win 4).blk t).view.emb (ix2 r u) = ix2 R (0 : Fin 1) := by
  obtain ⟨-, -, -, -, -, -, -, -, e0, e1, -⟩ := idx0 t
  have hu : u.val = 0 := by omega
  funext a; apply Fin.ext
  match a with
  | ⟨0, _⟩ => show win0_4.index t (0 : Fin 2) * 1024 + 1 * r.val = R.val; omega
  | ⟨1, _⟩ => show win0_4.index t (1 : Fin 2) * 1 + 1 * u.val = 0; omega

theorem emb0_5 (t : Fin cfg0.N) (r : Fin 1024) (u : Fin 1) (R : Fin 8192) (hR : R.val = 1024 * (t.val / 16) + r.val) :
    ((cfg0.win 5).blk t).view.emb (ix2 r u) = ix2 R (0 : Fin 1) := by
  obtain ⟨-, -, -, -, -, -, -, -, -, -, e0, e1, -⟩ := idx0 t
  have hu : u.val = 0 := by omega
  funext a; apply Fin.ext
  match a with
  | ⟨0, _⟩ => show win0_5.index t (0 : Fin 2) * 1024 + 1 * r.val = R.val; omega
  | ⟨1, _⟩ => show win0_5.index t (1 : Fin 2) * 1 + 1 * u.val = 0; omega

include hE hLR hLC in
/-- What a flushing point writes back to the first result column is its block of the least positive similarities. -/
theorem flushed0_4_eq (t : Fin cfg0.N) (hf : (cfg0.win 4).flush t = true) :
    (dat0 (F := Ideal) V q c).flushed 4 t = ((cfg0.win 4).blk t).view.read (Elt Ideal) (G4 e l) := by
  have ht : t.val % 16 = 15 := (flush0_4 t).mp hf
  have hN : cfg0.N = 128 := N_0
  have htlt := t.isLt
  show (cfg0.win 4).cut (grid0.coords t) ((dat0 (F := Ideal) V q c).after 4 t) = _
  rw [after0_4]
  funext y
  obtain ⟨r, u, rfl⟩ : ∃ (r : Fin 1024) (u : Fin 1), y = ix2 r u := ⟨y 0, y 1, eq_ix2 y⟩
  obtain rfl : u = 0 := Subsingleton.elim _ _
  show (acc0 (F := Ideal) V c t.val t.isLt).1 (ix2 r (0 : Fin 1)) = G4 e l (((cfg0.win 4).blk t).view.emb (ix2 r (0 : Fin 1)))
  have hr := r.isLt
  rw [emb0_4 t r 0 ⟨1024 * (t.val / 16) + r.val, by omega⟩ rfl]
  exact (acc0_row V c e l hE hLR hLC t ht r ⟨1024 * (t.val / 16) + r.val, by omega⟩ rfl).1

include hE hLR hLC in
/-- What a flushing point writes back to the second result column is its block of the greatest negative similarities. -/
theorem flushed0_5_eq (t : Fin cfg0.N) (hf : (cfg0.win 5).flush t = true) :
    (dat0 (F := Ideal) V q c).flushed 5 t = ((cfg0.win 5).blk t).view.read (Elt Ideal) (G5 e l) := by
  have ht : t.val % 16 = 15 := (flush0_5 t).mp hf
  have hN : cfg0.N = 128 := N_0
  have htlt := t.isLt
  show (cfg0.win 5).cut (grid0.coords t) ((dat0 (F := Ideal) V q c).after 5 t) = _
  rw [after0_5]
  funext y
  obtain ⟨r, u, rfl⟩ : ∃ (r : Fin 1024) (u : Fin 1), y = ix2 r u := ⟨y 0, y 1, eq_ix2 y⟩
  obtain rfl : u = 0 := Subsingleton.elim _ _
  show (acc0 (F := Ideal) V c t.val t.isLt).2 (ix2 r (0 : Fin 1)) = G5 e l (((cfg0.win 5).blk t).view.emb (ix2 r (0 : Fin 1)))
  have hr := r.isLt
  rw [emb0_5 t r 0 ⟨1024 * (t.val / 16) + r.val, by omega⟩ rfl]
  exact (acc0_row V c e l hE hLR hLC t ht r ⟨1024 * (t.val / 16) + r.val, by omega⟩ rfl).2

/-- An index of a result column is in point t's block iff each coordinate is in the block's range on its axis. -/
theorem mem_blk0_4 (t : Fin cfg0.N) (i : S8192x1.Idx) :
    i ∈ ((cfg0.win 4).blk t).view.set
      ↔ ∀ a : Fin 2, win0_4.index t a * S1024x1.size a ≤ (i a).val ∧ (i a).val < win0_4.index t a * S1024x1.size a + S1024x1.size a := by
  show i ∈ ((View.whole main_v2_0).slice (win0_4.rect t)).set ↔ _
  rw [View.set_slice_whole, Rect.mem_set_unit]
  exact Iff.rfl

theorem mem_blk0_5 (t : Fin cfg0.N) (i : S8192x1.Idx) :
    i ∈ ((cfg0.win 5).blk t).view.set
      ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

include hE hLR hLC in
/-- THE FIRST RESULT COLUMN after the grid: every row's least positive similarity. -/
theorem final0_4 (R : Fin 8192) : (dat0 (F := Ideal) V q c).arrAt 4 cfg0.N (ix2 R (0 : Fin 1)) = MSL.posMin e l R := by
  have hN : cfg0.N = 128 := N_0
  have hRlt := R.isLt
  have hlt : 16 * (R.val / 1024) + 15 < cfg0.N := by omega
  have hf : (cfg0.win 4).flush ⟨16 * (R.val / 1024) + 15, hlt⟩ = true :=
    (flush0_4 _).mpr (by show (16 * (R.val / 1024) + 15) % 16 = 15; omega)
  refine ((dat0 (F := Ideal) V q c).arrAt_apply_of_mem 4 (G4 e l) (fun t hf => flushed0_4_eq V c q e l hE hLR hLC t hf)
    cfg0.N ⟨16 * (R.val / 1024) + 15, hlt⟩ (ix2 R (0 : Fin 1)) hlt hf ?_).trans rfl
  rw [mem_blk0_4]
  obtain ⟨-, -, -, -, -, -, -, -, e0, e1, -⟩ := idx0 ⟨16 * (R.val / 1024) + 15, hlt⟩
  have e0' : win0_4.index ⟨16 * (R.val / 1024) + 15, hlt⟩ (0 : Fin 2) = (16 * (R.val / 1024) + 15) / 16 := e0
  intro a
  match a with
  | ⟨0, _⟩ =>
    show win0_4.index ⟨16 * (R.val / 1024) + 15, hlt⟩ (0 : Fin 2) * 1024 ≤ R.val
      ∧ R.val < win0_4.index ⟨16 * (R.val / 1024) + 15, hlt⟩ (0 : Fin 2) * 1024 + 1024
    omega
  | ⟨1, _⟩ =>
    show win0_4.index ⟨16 * (R.val / 1024) + 15, hlt⟩ (1 : Fin 2) * 1 ≤ 0
      ∧ 0 < win0_4.index ⟨16 * (R.val / 1024) + 15, hlt⟩ (1 : Fin 2) * 1 + 1
    omega

include hE hLR hLC in
/-- THE SECOND RESULT COLUMN after the grid: every row's greatest negative similarity. -/
theorem final0_5 (R : Fin 8192) : (dat0 (F := Ideal) V q c).arrAt 5 cfg0.N (ix2 R (0 : Fin 1)) = MSL.negMax e l R := by
  have hN : cfg0.N = 128 := N_0
  have hRlt := R.isLt
  have hlt : 16 * (R.val / 1024) + 15 < cfg0.N := by omega
  have hf : (cfg0.win 5).flush ⟨16 * (R.val / 1024) + 15, hlt⟩ = true :=
    (flush0_5 _).mpr (by show (16 * (R.val / 1024) + 15) % 16 = 15; omega)
  refine ((dat0 (F := Ideal) V q c).arrAt_apply_of_mem 5 (G5 e l) (fun t hf => flushed0_5_eq V c q e l hE hLR hLC t hf)
    cfg0.N ⟨16 * (R.val / 1024) + 15, hlt⟩ (ix2 R (0 : Fin 1)) hlt hf ?_).trans rfl
  rw [mem_blk0_5]
  obtain ⟨-, -, -, -, -, -, -, -, -, -, e0, e1, -⟩ := idx0 ⟨16 * (R.val / 1024) + 15, hlt⟩
  have e0' : win0_5.index ⟨16 * (R.val / 1024) + 15, hlt⟩ (0 : Fin 2) = (16 * (R.val / 1024) + 15) / 16 := e0
  intro a
  match a with
  | ⟨0, _⟩ =>
    show win0_5.index ⟨16 * (R.val / 1024) + 15, hlt⟩ (0 : Fin 2) * 1024 ≤ R.val
      ∧ R.val < win0_5.index ⟨16 * (R.val / 1024) + 15, hlt⟩ (0 : Fin 2) * 1024 + 1024
    omega
  | ⟨1, _⟩ =>
    show win0_5.index ⟨16 * (R.val / 1024) + 15, hlt⟩ (1 : Fin 2) * 1 ≤ 0
      ∧ 0 < win0_5.index ⟨16 * (R.val / 1024) + 15, hlt⟩ (1 : Fin 2) * 1 + 1
    omega

end Final

end Cert.KernelIdeal.KVal

end
-- ==== Proof.KI.Val1.lean ====
/-
  Pass 2 at the extended reals. Given the per-row least positive and greatest negative similarities of pass 1, one
  grid point folds one 1024 x 512 tile of the similarity matrix into six per-row accumulators: the sums of
  exp(-2(s-1/2)) over the tile's hard positive pairs and over all its positive pairs, the sums of exp(50(s-1/2)) over
  its hard negative pairs and over all its negative pairs, and two 0/1 flags "a hard positive (negative) pair was
  met". After the sixteen column tiles of a row tile the accumulators hold the row's four sums and two flags.
-/
import proofs.«144686_j9225589752058_2_alg».proof.Proof.KI.ValBase
import proofs.«144686_j9225589752058_2_alg».proof.Proof.KI.Tiles

noncomputable section

namespace Cert.KernelIdeal.KVal

open Idealize.ShloMosaic Idealize.ShloMosaic.ValueIdx
open Cert.KernelIdeal Cert.KernelIdeal.Hand
open scoped Classical

/-! ## Two shapes of accumulator update -/

/-- A one-bit word zero-extended and converted: 1 on the set bit, 0 on the clear one. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with rfl | rfl
  · have h : (BitVec.setWidth 32 0#1).toInt = 0 := by decide
    rw [h, if_neg (by decide)]
    simp
  · have h : (BitVec.setWidth 32 1#1).toInt = 1 := by decide
    rw [h, if_pos rfl]
    simp

/-- An accumulator plus the lane sum of a masked tile: at row r, the accumulator plus the sum over the tile's columns
    of the tile's value where the mask's bit is set. -/
theorem maskedSum_apply (m : IVec S1024x512 1) (v : FVec Ideal S1024x512 .f32) (acc : FVec Ideal S1024x1 .f32)
    (p : Fin 512 → Prop) (t : Fin 512 → EReal) (r : Fin 1024)
    (hm : ∀ q, m (ix2 r q) = 1#1 ↔ p q) (hv : ∀ q, v (ix2 r q) = t q)
    (h1 : S1024x512.Reduces [1] S1024) (hφ : FKind.Formats .f32) (hacc : (0x00000000#32 : BitVec 32) = 0x00000000#32)
    (h2 : S1024.ShapeCasts S1024x1) (h3 : S1024x1.ShapeCasts S1024x1) :
    shapeCast S1024x1 (addf acc (shapeCast S1024x1 (multiReduction .add [1] S1024
        (select m v (broadcast S1024x512 (Scalar.ofBits (F := Ideal) .f32 0x00000000#32))) 0x00000000#32 h1 hφ hacc) h2)) h3
        (ix2 r (0 : Fin 1))
      = acc (ix2 r (0 : Fin 1)) + ∑ q : Fin 512, if p q then t q else 0 := by
  refine (castColId _ _ _).trans ?_
  refine (addf_apply _ _ _).trans ?_
  refine congrArg (acc (ix2 r (0 : Fin 1)) + ·) ?_
  refine (castLaneCol _ _ r 0).trans ?_
  refine (redAdd_apply _ _ _ _ r).trans ?_
  refine Finset.sum_congr rfl fun q _ => ?_
  refine (select_apply _ _ _ _).trans ?_
  refine (select_of_iff _ _ (hm q) _ _).trans ?_
  rw [hv q]
  exact congrArg (fun z => if p q then t q else z) Ideal.ofBits_zero_f32

/-- An accumulator against the lane maximum of a mask read as 0/1: at row r, the accumulator against the supremum
    over the tile's columns of the indicator of the mask's bit. -/
theorem maskedFlag_apply (m : IVec S1024x512 1) (acc : FVec Ideal S1024x1 .f32) (p : Fin 512 → Prop) (r : Fin 1024)
    (hm : ∀ q, m (ix2 r q) = 1#1 ↔ p q)
    (hlt : 1 < 32) (h1 : S1024x512.Reduces [1] S1024) (hφ : FKind.Formats .f32)
    (hacc : (0xFF800000#32 : BitVec 32) = 0xFF800000#32)
    (h2 : S1024.ShapeCasts S1024x1) (h3 : S1024x1.ShapeCasts S1024x1) :
    shapeCast S1024x1 (maximumf acc (shapeCast S1024x1 (multiReduction .maximumf [1] S1024
        (sitofp (F := Ideal) .f32 (extui 32 m hlt)) 0xFF800000#32 h1 hφ hacc) h2)) h3 (ix2 r (0 : Fin 1))
      = max (acc (ix2 r (0 : Fin 1))) (Finset.univ.sup fun q : Fin 512 => if p q then (1 : EReal) else 0) := by
  refine (castColId _ _ _).trans ?_
  refine (maximumf_apply _ _ _).trans ?_
  refine congrArg (max (acc (ix2 r (0 : Fin 1))) ·) ?_
  refine (castLaneCol _ _ r 0).trans ?_
  refine (redMax_apply _ _ _ _ r).trans ?_
  refine Finset.sup_congr rfl fun q _ => ?_
  show FloatOps.sitofp (F := Ideal) .f32 ((m (ix2 r q)).setWidth 32) = _
  rw [sitofp_bit]
  by_cases hp : p q
  · rw [if_pos hp, if_pos ((hm q).mpr hp)]
  · rw [if_neg hp, if_neg (fun h => hp ((hm q).mp h))]

theorem pay11_apply (x4 : FVec Ideal S1024x1 .f32) (j : S1024x1.Idx) : Gen.k1_pay11 (F := Ideal) x4 j = x4 j := by
  unfold Gen.k1_pay11
  exact castColId _ _ j

theorem pay12_apply (x5 : FVec Ideal S1024x1 .f32) (j : S1024x1.Idx) : Gen.k1_pay12 (F := Ideal) x5 j = x5 j := by
  unfold Gen.k1_pay12
  exact castColId _ _ j

/-! ## The terms of the six accumulators -/

variable (e : Fin 8192 → Fin 128 → EReal) (l : Fin 8192 → BitVec 32)

def posHardTerm (R C : Fin 8192) : EReal := if MSL.posHard e l R C then MSL.expPos e R C else 0
def posAllTerm (R C : Fin 8192) : EReal := if MSL.pos l R C then MSL.expPos e R C else 0
def posFlag (R C : Fin 8192) : EReal := if MSL.posHard e l R C then 1 else 0
def negHardTerm (R C : Fin 8192) : EReal := if MSL.negHard e l R C then MSL.expNeg e R C else 0
def negAllTerm (R C : Fin 8192) : EReal := if MSL.neg l R C then MSL.expNeg e R C else 0
def negFlag (R C : Fin 8192) : EReal := if MSL.negHard e l R C then 1 else 0

theorem posHardSum_eq (R : Fin 8192) : MSL.posHardSum e l R = ∑ C, posHardTerm e l R C := rfl
theorem posAllSum_eq (R : Fin 8192) : MSL.posAllSum e l R = ∑ C, posAllTerm e l R C := rfl
theorem negHardSum_eq (R : Fin 8192) : MSL.negHardSum e l R = ∑ C, negHardTerm e l R C := rfl
theorem negAllSum_eq (R : Fin 8192) : MSL.negAllSum e l R = ∑ C, negAllTerm e l R C := rfl

/-! ## The start values -/

theorem zeroCol_apply (h : S1024x1.ShapeCasts S1024x1) (j : S1024x1.Idx) :
    shapeCast S1024x1 (broadcast S1024x1 (Scalar.ofBits (F := Ideal) .f32 0x00000000#32)) h j = (0 : EReal) :=
  (castColId _ _ j).trans Ideal.ofBits_zero_f32

theorem init1_ph (j : S1024x1.Idx) : (init1 (F := Ideal)).ph j = 0 := by
  show Gen.k1_pay1 (F := Ideal) j = 0
  unfold Gen.k1_pay1; exact zeroCol_apply _ j
theorem init1_pa (j : S1024x1.Idx) : (init1 (F := Ideal)).pa j = 0 := by
  show Gen.k1_pay2 (F := Ideal) j = 0
  unfold Gen.k1_pay2; exact zeroCol_apply _ j
theorem init1_ap (j : S1024x1.Idx) : (init1 (F := Ideal)).ap j = 0 := by
  show Gen.k1_pay3 (F := Ideal) j = 0
  unfold Gen.k1_pay3; exact zeroCol_apply _ j
theorem init1_nh (j : S1024x1.Idx) : (init1 (F := Ideal)).nh j = 0 := by
  show Gen.k1_pay4 (F := Ideal) j = 0
  unfold Gen.k1_pay4; exact zeroCol_apply _ j
theorem init1_na (j : S1024x1.Idx) : (init1 (F := Ideal)).na j = 0 := by
  show Gen.k1_pay5 (F := Ideal) j = 0
  unfold Gen.k1_pay5; exact zeroCol_apply _ j
theorem init1_an (j : S1024x1.Idx) : (init1 (F := Ideal)).an j = 0 := by
  show Gen.k1_pay6 (F := Ideal) j = 0
  unfold Gen.k1_pay6; exact zeroCol_apply _ j

/-! ## One tile -/

section Tile
variable (i : grid1.Coords) (I : Fin 8) (J : Fin 16) (hi0 : (i 0).val = I.val) (hi1 : (i 1).val = J.val)
  (x0 : Vec Ideal S1024x128 .f32) (x1 : Vec Ideal S512x128 .f32) (x2 : Vec Ideal S1024x1 .i32) (x3 : Vec Ideal S1x512 .i32)
  (x4 x5 : Vec Ideal S1024x1 .f32)
  (hx0 : ∀ r k, x0 (ix2 r k) = e (row I r) k) (hx1 : ∀ q k, x1 (ix2 q k) = e (col J q) k)
  (hx2 : ∀ r, x2 (ix2 r (0 : Fin 1)) = l (row I r)) (hx3 : ∀ q, x3 (ix2 (0 : Fin 1) q) = l (col J q))
  (hx4 : ∀ r, x4 (ix2 r (0 : Fin 1)) = MSL.posMin e l (row I r)) (hx5 : ∀ r, x5 (ix2 r (0 : Fin 1)) = MSL.negMax e l (row I r))

include hx0 hx1 in
theorem simTile1 (r : Fin 1024) (q : Fin 512) :
    Gen.k1_pay7 (F := Ideal) x0 x1 (ix2 r q) = MSL.sim e (row I r) (col J q) :=
  (pay7'_apply x0 x1 r q).trans (simTile_eq e I J x0 x1 hx0 hx1 r q)

include hi0 hi1 hx2 hx3 in
theorem posMask1_iff (r : Fin 1024) (q : Fin 512) :
    Gen.k1_pay9 (F := Ideal) i x2 x3 (ix2 r q) = 1#1 ↔ MSL.pos l (row I r) (col J q) := by
  unfold Gen.k1_pay9
  exact posMask_iff l I J (Gen.k1_pay8 (F := Ideal) x2 x3) (i 0).val (i 1).val hi0 hi1
    Gen.iota_S1024x1_d0_w32 Gen.broadcasts_S1024x1_S1024x512 Gen.iota_S1x512_d1_w32 Gen.broadcasts_S1x512_S1024x512 r q
    (labelMask1_iff l I J x2 x3 hx2 hx3 r q)

include hx2 hx3 in
theorem negMask1_iff (r : Fin 1024) (q : Fin 512) :
    Gen.k1_pay10 (F := Ideal) x2 x3 (ix2 r q) = 1#1 ↔ MSL.neg l (row I r) (col J q) := by
  unfold Gen.k1_pay10
  exact negMask_iff l I J (Gen.k1_pay8 (F := Ideal) x2 x3) r q (labelMask1_iff l I J x2 x3 hx2 hx3 r q)

include hx0 hx1 hx2 hx3 hx4 in
/-- The hard-negative mask's bit. -/
theorem negHardMask_iff (r : Fin 1024) (q : Fin 512) :
    Gen.k1_pay13 (F := Ideal) x0 x1 x2 x3 x4 (ix2 r q) = 1#1 ↔ MSL.negHard e l (row I r) (col J q) := by
  unfold Gen.k1_pay13
  refine (bit_and_eq_one _ _).trans ?_
  unfold MSL.negHard
  refine and_congr (negMask1_iff l I J x2 x3 hx2 hx3 r q) ?_
  show Ideal.cmp .ogt (Gen.k1_pay7 (F := Ideal) x0 x1 (ix2 r q) + Ideal.ofBits .f32 0x3DCCCCCD#32)
      (broadcastTo S1024x512 (Gen.k1_pay11 (F := Ideal) x4) Gen.broadcasts_S1024x1_S1024x512 (ix2 r q)) = 1#1 ↔ _
  rw [bcastCol, pay11_apply, hx4, simTile1 e I J x0 x1 hx0 hx1 r q]

include hi0 hi1 hx0 hx1 hx2 hx3 hx5 in
/-- The hard-positive mask's bit. -/
theorem posHardMask_iff (r : Fin 1024) (q : Fin 512) :
    Gen.k1_pay14 (F := Ideal) (Gen.k1_pay7 x0 x1) (Gen.k1_pay9 i x2 x3) (Gen.k1_pay12 x5) (ix2 r q) = 1#1
      ↔ MSL.posHard e l (row I r) (col J q) := by
  unfold Gen.k1_pay14
  refine (bit_and_eq_one _ _).trans ?_
  unfold MSL.posHard
  refine and_congr (posMask1_iff l i I J hi0 hi1 x2 x3 hx2 hx3 r q) ?_
  show Ideal.cmp .olt (Gen.k1_pay7 (F := Ideal) x0 x1 (ix2 r q) - Ideal.ofBits .f32 0x3DCCCCCD#32)
      (broadcastTo S1024x512 (Gen.k1_pay12 (F := Ideal) x5) Gen.broadcasts_S1024x1_S1024x512 (ix2 r q)) = 1#1 ↔ _
  rw [bcastCol, pay12_apply, hx5, simTile1 e I J x0 x1 hx0 hx1 r q]

include hx0 hx1 in
theorem expPos_apply (r : Fin 1024) (q : Fin 512) :
    Gen.k1_pay15 (F := Ideal) (Gen.k1_pay7 x0 x1) (ix2 r q) = MSL.expPos e (row I r) (col J q) := by
  unfold Gen.k1_pay15
  show Ideal.exp (Ideal.ofBits .f32 0xC0000000#32 * (Gen.k1_pay7 (F := Ideal) x0 x1 (ix2 r q) - Ideal.ofBits .f32 0x3F000000#32)) = _
  rw [simTile1 e I J x0 x1 hx0 hx1 r q]
  rfl

include hx0 hx1 in
theorem expNeg_apply (r : Fin 1024) (q : Fin 512) :
    Gen.k1_pay16 (F := Ideal) (Gen.k1_pay7 x0 x1) (ix2 r q) = MSL.expNeg e (row I r) (col J q) := by
  unfold Gen.k1_pay16
  show Ideal.exp (Ideal.ofBits .f32 0x42480000#32 * (Gen.k1_pay7 (F := Ideal) x0 x1 (ix2 r q) - Ideal.ofBits .f32 0x3F000000#32)) = _
  rw [simTile1 e I J x0 x1 hx0 hx1 r q]
  rfl

variable (s : Acc1 Ideal)

include hi0 hi1 hx0 hx1 hx2 hx3 hx5 in
/-- ONE TILE, the hard-positive sum. -/
theorem step1_ph (r : Fin 1024) :
    (step1 i x0 x1 x2 x3 x4 x5 s).ph (ix2 r (0 : Fin 1))
      = s.ph (ix2 r (0 : Fin 1)) + ∑ q : Fin 512, posHardTerm e l (row I r) (col J q) := by
  show Gen.k1_pay17 (F := Ideal) (Gen.k1_pay7 x0 x1) (Gen.k1_pay9 i x2 x3) (Gen.k1_pay12 x5) s.ph (ix2 r (0 : Fin 1)) = _
  unfold Gen.k1_pay17
  exact maskedSum_apply _ _ s.ph (fun q => MSL.posHard e l (row I r) (col J q)) (fun q => MSL.expPos e (row I r) (col J q)) r
    (fun q => posHardMask_iff e l i I J hi0 hi1 x0 x1 x2 x3 x5 hx0 hx1 hx2 hx3 hx5 r q)
    (fun q => expPos_apply e I J x0 x1 hx0 hx1 r q) _ _ _ _ _

include hi0 hi1 hx0 hx1 hx2 hx3 in
/-- ONE TILE, the all-positive sum. -/
theorem step1_pa (r : Fin 1024) :
    (step1 i x0 x1 x2 x3 x4 x5 s).pa (ix2 r (0 : Fin 1))
      = s.pa (ix2 r (0 : Fin 1)) + ∑ q : Fin 512, posAllTerm e l (row I r) (col J q) := by
  show Gen.k1_pay18 (F := Ideal) (Gen.k1_pay7 x0 x1) (Gen.k1_pay9 i x2 x3) s.pa (ix2 r (0 : Fin 1)) = _
  unfold Gen.k1_pay18
  exact maskedSum_apply _ _ s.pa (fun q => MSL.pos l (row I r) (col J q)) (fun q => MSL.expPos e (row I r) (col J q)) r
    (fun q => posMask1_iff l i I J hi0 hi1 x2 x3 hx2 hx3 r q)
    (fun q => expPos_apply e I J x0 x1 hx0 hx1 r q) _ _ _ _ _

include hi0 hi1 hx0 hx1 hx2 hx3 hx5 in
/-- ONE TILE, the hard-positive flag. -/
theorem step1_ap (r : Fin 1024) :
    (step1 i x0 x1 x2 x3 x4 x5 s).ap (ix2 r (0 : Fin 1))
      = max (s.ap (ix2 r (0 : Fin 1))) (Finset.univ.sup fun q : Fin 512 => posFlag e l (row I r) (col J q)) := by
  show Gen.k1_pay22 (F := Ideal) (Gen.k1_pay14 (Gen.k1_pay7 x0 x1) (Gen.k1_pay9 i x2 x3) (Gen.k1_pay12 x5)) s.ap (ix2 r (0 : Fin 1)) = _
  unfold Gen.k1_pay22
  exact maskedFlag_apply _ s.ap (fun q => MSL.posHard e l (row I r) (col J q)) r
    (fun q => posHardMask_iff e l i I J hi0 hi1 x0 x1 x2 x3 x5 hx0 hx1 hx2 hx3 hx5 r q) _ _ _ _ _ _

include hx0 hx1 hx2 hx3 hx4 in
/-- ONE TILE, the hard-negative sum. -/
theorem step1_nh (r : Fin 1024) :
    (step1 i x0 x1 x2 x3 x4 x5 s).nh (ix2 r (0 : Fin 1))
      = s.nh (ix2 r (0 : Fin 1)) + ∑ q : Fin 512, negHardTerm e l (row I r) (col J q) := by
  show Gen.k1_pay20 (F := Ideal) s.nh (Gen.k1_pay19 (Gen.k1_pay7 x0 x1) (Gen.k1_pay13 x0 x1 x2 x3 x4)) (ix2 r (0 : Fin 1)) = _
  unfold Gen.k1_pay20 Gen.k1_pay19
  exact maskedSum_apply _ _ s.nh (fun q => MSL.negHard e l (row I r) (col J q)) (fun q => MSL.expNeg e (row I r) (col J q)) r
    (fun q => negHardMask_iff e l I J x0 x1 x2 x3 x4 hx0 hx1 hx2 hx3 hx4 r q)
    (fun q => expNeg_apply e I J x0 x1 hx0 hx1 r q) _ _ _ _ _

include hx0 hx1 hx2 hx3 in
/-- ONE TILE, the all-negative sum. -/
theorem step1_na (r : Fin 1024) :
    (step1 i x0 x1 x2 x3 x4 x5 s).na (ix2 r (0 : Fin 1))
      = s.na (ix2 r (0 : Fin 1)) + ∑ q : Fin 512, negAllTerm e l (row I r) (col J q) := by
  show Gen.k1_pay21 (F := Ideal) (Gen.k1_pay10 x2 x3) (Gen.k1_pay16 (Gen.k1_pay7 x0 x1)) s.na (ix2 r (0 : Fin 1)) = _
  unfold Gen.k1_pay21
  exact maskedSum_apply _ _ s.na (fun q => MSL.neg l (row I r) (col J q)) (fun q => MSL.expNeg e (row I r) (col J q)) r
    (fun q => negMask1_iff l I J x2 x3 hx2 hx3 r q)
    (fun q => expNeg_apply e I J x0 x1 hx0 hx1 r q) _ _ _ _ _

include hx0 hx1 hx2 hx3 hx4 in
/-- ONE TILE, the hard-negative flag. -/
theorem step1_an (r : Fin 1024) :
    (step1 i x0 x1 x2 x3 x4 x5 s).an (ix2 r (0 : Fin 1))
      = max (s.an (ix2 r (0 : Fin 1))) (Finset.univ.sup fun q : Fin 512 => negFlag e l (row I r) (col J q)) := by
  show Gen.k1_pay23 (F := Ideal) (Gen.k1_pay13 x0 x1 x2 x3 x4) s.an (ix2 r (0 : Fin 1)) = _
  unfold Gen.k1_pay23
  exact maskedFlag_apply _ s.an (fun q => MSL.negHard e l (row I r) (col J q)) r
    (fun q => negHardMask_iff e l I J x0 x1 x2 x3 x4 hx0 hx1 hx2 hx3 hx4 r q) _ _ _ _ _ _

end Tile

/-! ## Sixteen tiles -/

/-- SIXTEEN TILES: a sequence of accumulators that starts with the first tile folded into the zero accumulators and
    folds tile J + 1 into the accumulators after tile J ends, at each row, with the row's four sums and two flags. -/
theorem pass2_sixteen (I : Fin 8) (i : Fin 16 → grid1.Coords)
    (hi0 : ∀ J, ((i J) 0).val = I.val) (hi1 : ∀ J, ((i J) 1).val = J.val)
    (x0 : Vec Ideal S1024x128 .f32) (x1 : Fin 16 → Vec Ideal S512x128 .f32) (x2 : Vec Ideal S1024x1 .i32)
    (x3 : Fin 16 → Vec Ideal S1x512 .i32) (x4 x5 : Vec Ideal S1024x1 .f32)
    (hx0 : ∀ r k, x0 (ix2 r k) = e (row I r) k) (hx1 : ∀ J q k, x1 J (ix2 q k) = e (col J q) k)
    (hx2 : ∀ r, x2 (ix2 r (0 : Fin 1)) = l (row I r)) (hx3 : ∀ J q, x3 J (ix2 (0 : Fin 1) q) = l (col J q))
    (hx4 : ∀ r, x4 (ix2 r (0 : Fin 1)) = MSL.posMin e l (row I r)) (hx5 : ∀ r, x5 (ix2 r (0 : Fin 1)) = MSL.negMax e l (row I r))
    (a : Fin 16 → Acc1 Ideal)
    (h0 : a 0 = step1 (i 0) x0 (x1 0) x2 (x3 0) x4 x5 init1)
    (hS : ∀ (J : Fin 16) (hJ : J.val + 1 < 16),
      a ⟨J.val + 1, hJ⟩ = step1 (i ⟨J.val + 1, hJ⟩) x0 (x1 ⟨J.val + 1, hJ⟩) x2 (x3 ⟨J.val + 1, hJ⟩) x4 x5 (a J))
    (r : Fin 1024) :
    (a 15).ph (ix2 r (0 : Fin 1)) = MSL.posHardSum e l (row I r)
    ∧ (a 15).pa (ix2 r (0 : Fin 1)) = MSL.posAllSum e l (row I r)
    ∧ (a 15).ap (ix2 r (0 : Fin 1)) = (if ∃ C, MSL.posHard e l (row I r) C then 1 else 0)
    ∧ (a 15).nh (ix2 r (0 : Fin 1)) = MSL.negHardSum e l (row I r)
    ∧ (a 15).na (ix2 r (0 : Fin 1)) = MSL.negAllSum e l (row I r)
    ∧ (a 15).an (ix2 r (0 : Fin 1)) = (if ∃ C, MSL.negHard e l (row I r) C then 1 else 0) := by
  refine ⟨?_, ?_, ?_, ?_, ?_, ?_⟩
  · refine (sum_chain (posHardTerm e l (row I r)) (fun J => (a J).ph (ix2 r (0 : Fin 1))) ?_ ?_).trans (posHardSum_eq e l (row I r)).symm
    · show (a 0).ph (ix2 r (0 : Fin 1)) = _
      rw [h0, step1_ph e l (i 0) I 0 (hi0 0) (hi1 0) x0 (x1 0) x2 (x3 0) x4 x5 hx0 (hx1 0) hx2 (hx3 0) hx5, init1_ph]
    · intro J hJ
      show (a ⟨J.val + 1, hJ⟩).ph (ix2 r (0 : Fin 1)) = (a J).ph (ix2 r (0 : Fin 1)) + _
      rw [hS J hJ, step1_ph e l (i ⟨J.val + 1, hJ⟩) I ⟨J.val + 1, hJ⟩ (hi0 _) (hi1 _) x0 (x1 ⟨J.val + 1, hJ⟩) x2
        (x3 ⟨J.val + 1, hJ⟩) x4 x5 hx0 (hx1 _) hx2 (hx3 _) hx5]
  · refine (sum_chain (posAllTerm e l (row I r)) (fun J => (a J).pa (ix2 r (0 : Fin 1))) ?_ ?_).trans (posAllSum_eq e l (row I r)).symm
    · show (a 0).pa (ix2 r (0 : Fin 1)) = _
      rw [h0, step1_pa e l (i 0) I 0 (hi0 0) (hi1 0) x0 (x1 0) x2 (x3 0) x4 x5 hx0 (hx1 0) hx2 (hx3 0), init1_pa]
    · intro J hJ
      show (a ⟨J.val + 1, hJ⟩).pa (ix2 r (0 : Fin 1)) = (a J).pa (ix2 r (0 : Fin 1)) + _
      rw [hS J hJ, step1_pa e l (i ⟨J.val + 1, hJ⟩) I ⟨J.val + 1, hJ⟩ (hi0 _) (hi1 _) x0 (x1 ⟨J.val + 1, hJ⟩) x2
        (x3 ⟨J.val + 1, hJ⟩) x4 x5 hx0 (hx1 _) hx2 (hx3 _)]
  · refine (flag_chain (posFlag e l (row I r)) (fun J => (a J).ap (ix2 r (0 : Fin 1))) ?_ ?_).trans
      (max_zero_sup_flag fun C => MSL.posHard e l (row I r) C)
    · show (a 0).ap (ix2 r (0 : Fin 1)) = _
      rw [h0, step1_ap e l (i 0) I 0 (hi0 0) (hi1 0) x0 (x1 0) x2 (x3 0) x4 x5 hx0 (hx1 0) hx2 (hx3 0) hx5, init1_ap]
    · intro J hJ
      show (a ⟨J.val + 1, hJ⟩).ap (ix2 r (0 : Fin 1)) = max ((a J).ap (ix2 r (0 : Fin 1))) _
      rw [hS J hJ, step1_ap e l (i ⟨J.val + 1, hJ⟩) I ⟨J.val + 1, hJ⟩ (hi0 _) (hi1 _) x0 (x1 ⟨J.val + 1, hJ⟩) x2
        (x3 ⟨J.val + 1, hJ⟩) x4 x5 hx0 (hx1 _) hx2 (hx3 _) hx5]
  · refine (sum_chain (negHardTerm e l (row I r)) (fun J => (a J).nh (ix2 r (0 : Fin 1))) ?_ ?_).trans (negHardSum_eq e l (row I r)).symm
    · show (a 0).nh (ix2 r (0 : Fin 1)) = _
      rw [h0, step1_nh e l (i 0) I 0 x0 (x1 0) x2 (x3 0) x4 x5 hx0 (hx1 0) hx2 (hx3 0) hx4, init1_nh]
    · intro J hJ
      show (a ⟨J.val + 1, hJ⟩).nh (ix2 r (0 : Fin 1)) = (a J).nh (ix2 r (0 : Fin 1)) + _
      rw [hS J hJ, step1_nh e l (i ⟨J.val + 1, hJ⟩) I ⟨J.val + 1, hJ⟩ x0 (x1 ⟨J.val + 1, hJ⟩) x2
        (x3 ⟨J.val + 1, hJ⟩) x4 x5 hx0 (hx1 _) hx2 (hx3 _) hx4]
  · refine (sum_chain (negAllTerm e l (row I r)) (fun J => (a J).na (ix2 r (0 : Fin 1))) ?_ ?_).trans (negAllSum_eq e l (row I r)).symm
    · show (a 0).na (ix2 r (0 : Fin 1)) = _
      rw [h0, step1_na e l (i 0) I 0 x0 (x1 0) x2 (x3 0) x4 x5 hx0 (hx1 0) hx2 (hx3 0), init1_na]
    · intro J hJ
      show (a ⟨J.val + 1, hJ⟩).na (ix2 r (0 : Fin 1)) = (a J).na (ix2 r (0 : Fin 1)) + _
      rw [hS J hJ, step1_na e l (i ⟨J.val + 1, hJ⟩) I ⟨J.val + 1, hJ⟩ x0 (x1 ⟨J.val + 1, hJ⟩) x2
        (x3 ⟨J.val + 1, hJ⟩) x4 x5 hx0 (hx1 _) hx2 (hx3 _)]
  · refine (flag_chain (negFlag e l (row I r)) (fun J => (a J).an (ix2 r (0 : Fin 1))) ?_ ?_).trans
      (max_zero_sup_flag fun C => MSL.negHard e l (row I r) C)
    · show (a 0).an (ix2 r (0 : Fin 1)) = _
      rw [h0, step1_an e l (i 0) I 0 x0 (x1 0) x2 (x3 0) x4 x5 hx0 (hx1 0) hx2 (hx3 0) hx4, init1_an]
    · intro J hJ
      show (a ⟨J.val + 1, hJ⟩).an (ix2 r (0 : Fin 1)) = max ((a J).an (ix2 r (0 : Fin 1))) _
      rw [hS J hJ, step1_an e l (i ⟨J.val + 1, hJ⟩) I ⟨J.val + 1, hJ⟩ x0 (x1 ⟨J.val + 1, hJ⟩) x2
        (x3 ⟨J.val + 1, hJ⟩) x4 x5 hx0 (hx1 _) hx2 (hx3 _) hx4]

/-- SIXTEEN TILES with the row blocks given per column tile (equal as functions, not as terms). -/
theorem pass2_sixteen_gen (I : Fin 8) (i : Fin 16 → grid1.Coords)
    (hi0 : ∀ J, ((i J) 0).val = I.val) (hi1 : ∀ J, ((i J) 1).val = J.val)
    (x0 : Fin 16 → Vec Ideal S1024x128 .f32) (x1 : Fin 16 → Vec Ideal S512x128 .f32) (x2 : Fin 16 → Vec Ideal S1024x1 .i32)
    (x3 : Fin 16 → Vec Ideal S1x512 .i32) (x4 x5 : Fin 16 → Vec Ideal S1024x1 .f32)
    (hx0 : ∀ J r k, x0 J (ix2 r k) = e (row I r) k) (hx1 : ∀ J q k, x1 J (ix2 q k) = e (col J q) k)
    (hx2 : ∀ J r, x2 J (ix2 r (0 : Fin 1)) = l (row I r)) (hx3 : ∀ J q, x3 J (ix2 (0 : Fin 1) q) = l (col J q))
    (hx4 : ∀ J r, x4 J (ix2 r (0 : Fin 1)) = MSL.posMin e l (row I r)) (hx5 : ∀ J r, x5 J (ix2 r (0 : Fin 1)) = MSL.negMax e l (row I r))
    (a : Fin 16 → Acc1 Ideal)
    (h0 : a 0 = step1 (i 0) (x0 0) (x1 0) (x2 0) (x3 0) (x4 0) (x5 0) init1)
    (hS : ∀ (J : Fin 16) (hJ : J.val + 1 < 16),
      a ⟨J.val + 1, hJ⟩ = step1 (i ⟨J.val + 1, hJ⟩) (x0 ⟨J.val + 1, hJ⟩) (x1 ⟨J.val + 1, hJ⟩) (x2 ⟨J.val + 1, hJ⟩) (x3 ⟨J.val + 1, hJ⟩)
        (x4 ⟨J.val + 1, hJ⟩) (x5 ⟨J.val + 1, hJ⟩) (a J))
    (r : Fin 1024) :
    (a 15).ph (ix2 r (0 : Fin 1)) = MSL.posHardSum e l (row I r)
    ∧ (a 15).pa (ix2 r (0 : Fin 1)) = MSL.posAllSum e l (row I r)
    ∧ (a 15).ap (ix2 r (0 : Fin 1)) = (if ∃ C, MSL.posHard e l (row I r) C then 1 else 0)
    ∧ (a 15).nh (ix2 r (0 : Fin 1)) = MSL.negHardSum e l (row I r)
    ∧ (a 15).na (ix2 r (0 : Fin 1)) = MSL.negAllSum e l (row I r)
    ∧ (a 15).an (ix2 r (0 : Fin 1)) = (if ∃ C, MSL.negHard e l (row I r) C then 1 else 0) := by
  refine ⟨?_, ?_, ?_, ?_, ?_, ?_⟩
  · refine (sum_chain (posHardTerm e l (row I r)) (fun J => (a J).ph (ix2 r (0 : Fin 1))) ?_ ?_).trans (posHardSum_eq e l (row I r)).symm
    · show (a 0).ph (ix2 r (0 : Fin 1)) = _
      rw [h0, step1_ph e l (i 0) I 0 (hi0 0) (hi1 0) (x0 0) (x1 0) (x2 0) (x3 0) (x4 0) (x5 0) (hx0 0) (hx1 0) (hx2 0) (hx3 0) (hx5 0), init1_ph]
    · intro J hJ
      show (a ⟨J.val + 1, hJ⟩).ph (ix2 r (0 : Fin 1)) = (a J).ph (ix2 r (0 : Fin 1)) + _
      rw [hS J hJ, step1_ph e l (i ⟨J.val + 1, hJ⟩) I ⟨J.val + 1, hJ⟩ (hi0 _) (hi1 _) (x0 ⟨J.val + 1, hJ⟩) (x1 ⟨J.val + 1, hJ⟩) (x2 ⟨J.val + 1, hJ⟩)
        (x3 ⟨J.val + 1, hJ⟩) (x4 ⟨J.val + 1, hJ⟩) (x5 ⟨J.val + 1, hJ⟩) (hx0 _) (hx1 _) (hx2 _) (hx3 _) (hx5 _)]
  · refine (sum_chain (posAllTerm e l (row I r)) (fun J => (a J).pa (ix2 r (0 : Fin 1))) ?_ ?_).trans (posAllSum_eq e l (row I r)).symm
    · show (a 0).pa (ix2 r (0 : Fin 1)) = _
      rw [h0, step1_pa e l (i 0) I 0 (hi0 0) (hi1 0) (x0 0) (x1 0) (x2 0) (x3 0) (x4 0) (x5 0) (hx0 0) (hx1 0) (hx2 0) (hx3 0), init1_pa]
    · intro J hJ
      show (a ⟨J.val + 1, hJ⟩).pa (ix2 r (0 : Fin 1)) = (a J).pa (ix2 r (0 : Fin 1)) + _
      rw [hS J hJ, step1_pa e l (i ⟨J.val + 1, hJ⟩) I ⟨J.val + 1, hJ⟩ (hi0 _) (hi1 _) (x0 ⟨J.val + 1, hJ⟩) (x1 ⟨J.val + 1, hJ⟩) (x2 ⟨J.val + 1, hJ⟩)
        (x3 ⟨J.val + 1, hJ⟩) (x4 ⟨J.val + 1, hJ⟩) (x5 ⟨J.val + 1, hJ⟩) (hx0 _) (hx1 _) (hx2 _) (hx3 _)]
  · refine (flag_chain (posFlag e l (row I r)) (fun J => (a J).ap (ix2 r (0 : Fin 1))) ?_ ?_).trans
      (max_zero_sup_flag fun C => MSL.posHard e l (row I r) C)
    · show (a 0).ap (ix2 r (0 : Fin 1)) = _
      rw [h0, step1_ap e l (i 0) I 0 (hi0 0) (hi1 0) (x0 0) (x1 0) (x2 0) (x3 0) (x4 0) (x5 0) (hx0 0) (hx1 0) (hx2 0) (hx3 0) (hx5 0), init1_ap]
    · intro J hJ
      show (a ⟨J.val + 1, hJ⟩).ap (ix2 r (0 : Fin 1)) = max ((a J).ap (ix2 r (0 : Fin 1))) _
      rw [hS J hJ, step1_ap e l (i ⟨J.val + 1, hJ⟩) I ⟨J.val + 1, hJ⟩ (hi0 _) (hi1 _) (x0 ⟨J.val + 1, hJ⟩) (x1 ⟨J.val + 1, hJ⟩) (x2 ⟨J.val + 1, hJ⟩)
        (x3 ⟨J.val + 1, hJ⟩) (x4 ⟨J.val + 1, hJ⟩) (x5 ⟨J.val + 1, hJ⟩) (hx0 _) (hx1 _) (hx2 _) (hx3 _) (hx5 _)]
  · refine (sum_chain (negHardTerm e l (row I r)) (fun J => (a J).nh (ix2 r (0 : Fin 1))) ?_ ?_).trans (negHardSum_eq e l (row I r)).symm
    · show (a 0).nh (ix2 r (0 : Fin 1)) = _
      rw [h0, step1_nh e l (i 0) I 0 (x0 0) (x1 0) (x2 0) (x3 0) (x4 0) (x5 0) (hx0 0) (hx1 0) (hx2 0) (hx3 0) (hx4 0), init1_nh]
    · intro J hJ
      show (a ⟨J.val + 1, hJ⟩).nh (ix2 r (0 : Fin 1)) = (a J).nh (ix2 r (0 : Fin 1)) + _
      rw [hS J hJ, step1_nh e l (i ⟨J.val + 1, hJ⟩) I ⟨J.val + 1, hJ⟩ (x0 ⟨J.val + 1, hJ⟩) (x1 ⟨J.val + 1, hJ⟩) (x2 ⟨J.val + 1, hJ⟩)
        (x3 ⟨J.val + 1, hJ⟩) (x4 ⟨J.val + 1, hJ⟩) (x5 ⟨J.val + 1, hJ⟩) (hx0 _) (hx1 _) (hx2 _) (hx3 _) (hx4 _)]
  · refine (sum_chain (negAllTerm e l (row I r)) (fun J => (a J).na (ix2 r (0 : Fin 1))) ?_ ?_).trans (negAllSum_eq e l (row I r)).symm
    · show (a 0).na (ix2 r (0 : Fin 1)) = _
      rw [h0, step1_na e l (i 0) I 0 (x0 0) (x1 0) (x2 0) (x3 0) (x4 0) (x5 0) (hx0 0) (hx1 0) (hx2 0) (hx3 0), init1_na]
    · intro J hJ
      show (a ⟨J.val + 1, hJ⟩).na (ix2 r (0 : Fin 1)) = (a J).na (ix2 r (0 : Fin 1)) + _
      rw [hS J hJ, step1_na e l (i ⟨J.val + 1, hJ⟩) I ⟨J.val + 1, hJ⟩ (x0 ⟨J.val + 1, hJ⟩) (x1 ⟨J.val + 1, hJ⟩) (x2 ⟨J.val + 1, hJ⟩)
        (x3 ⟨J.val + 1, hJ⟩) (x4 ⟨J.val + 1, hJ⟩) (x5 ⟨J.val + 1, hJ⟩) (hx0 _) (hx1 _) (hx2 _) (hx3 _)]
  · refine (flag_chain (negFlag e l (row I r)) (fun J => (a J).an (ix2 r (0 : Fin 1))) ?_ ?_).trans
      (max_zero_sup_flag fun C => MSL.negHard e l (row I r) C)
    · show (a 0).an (ix2 r (0 : Fin 1)) = _
      rw [h0, step1_an e l (i 0) I 0 (x0 0) (x1 0) (x2 0) (x3 0) (x4 0) (x5 0) (hx0 0) (hx1 0) (hx2 0) (hx3 0) (hx4 0), init1_an]
    · intro J hJ
      show (a ⟨J.val + 1, hJ⟩).an (ix2 r (0 : Fin 1)) = max ((a J).an (ix2 r (0 : Fin 1))) _
      rw [hS J hJ, step1_an e l (i ⟨J.val + 1, hJ⟩) I ⟨J.val + 1, hJ⟩ (x0 ⟨J.val + 1, hJ⟩) (x1 ⟨J.val + 1, hJ⟩) (x2 ⟨J.val + 1, hJ⟩)
        (x3 ⟨J.val + 1, hJ⟩) (x4 ⟨J.val + 1, hJ⟩) (x5 ⟨J.val + 1, hJ⟩) (hx0 _) (hx1 _) (hx2 _) (hx3 _) (hx4 _)]

end Cert.KernelIdeal.KVal

end
-- ==== Proof.SpecFacts.lean ====
/-
  Facts about the loss's specification that need only the extended reals: with finite entries every similarity is a
  real number, so a row's least positive similarity is +inf exactly when the row has no positive pair, and its greatest
  negative similarity is -inf exactly when it has no negative pair.
-/
import proofs.«144686_j9225589752058_2_alg».proof.Proof.Spec
import Mathlib.Data.EReal.Basic
import Mathlib.Order.CompleteLattice.Finset
import Mathlib.Algebra.BigOperators.Group.Finset.Basic

noncomputable section

namespace Cert.MSL

open scoped Classical

variable {e : Fin 8192 → Fin 128 → EReal} {l : Fin 8192 → BitVec 32}

/-- A finite sum of real numbers, summed in the extended reals, is the real sum. -/
theorem sum_coe_real {ι : Type*} (s : Finset ι) (f : ι → ℝ) :
    (∑ i ∈ s, (f i : EReal)) = ((∑ i ∈ s, f i : ℝ) : EReal) := by
  induction s using Finset.induction_on with
  | empty => simp
  | insert a s ha ih => rw [Finset.sum_insert ha, Finset.sum_insert ha, ih, EReal.coe_add]

/-- With finite entries every similarity is a real number. -/
theorem sim_real (hfin : ∀ R k, ∃ x : ℝ, e R k = (x : EReal)) (R C : Fin 8192) :
    ∃ x : ℝ, sim e R C = (x : EReal) := by
  choose f hf using hfin
  refine ⟨∑ k, f R k * f C k, ?_⟩
  unfold sim
  rw [← sum_coe_real]
  refine Finset.sum_congr rfl fun k _ => ?_
  rw [hf R k, hf C k, EReal.coe_mul]

/-- The least similarity over a row's positive pairs is not +inf exactly when the row has a positive pair. -/
theorem posMin_ne_top_iff (hfin : ∀ R k, ∃ x : ℝ, e R k = (x : EReal)) (R : Fin 8192) :
    posMin e l R ≠ ⊤ ↔ ∃ C, pos l R C := by
  unfold posMin
  rw [Ne, Finset.inf_eq_top_iff]
  constructor
  · intro h
    by_contra hne
    exact h fun C _ => if_neg fun hC => hne ⟨C, hC⟩
  · rintro ⟨C, hC⟩ h
    have h1 := h C (Finset.mem_univ C)
    rw [if_pos hC] at h1
    obtain ⟨x, hx⟩ := sim_real hfin R C
    rw [hx] at h1
    exact EReal.coe_ne_top x h1

/-- The greatest similarity over a row's negative pairs is not -inf exactly when the row has a negative pair. -/
theorem negMax_ne_bot_iff (hfin : ∀ R k, ∃ x : ℝ, e R k = (x : EReal)) (R : Fin 8192) :
    negMax e l R ≠ ⊥ ↔ ∃ C, neg l R C := by
  unfold negMax
  rw [Ne, Finset.sup_eq_bot_iff]
  constructor
  · intro h
    by_contra hne
    exact h fun C _ => if_neg fun hC => hne ⟨C, hC⟩
  · rintro ⟨C, hC⟩ h
    have h1 := h C (Finset.mem_univ C)
    rw [if_pos hC] at h1
    obtain ⟨x, hx⟩ := sim_real hfin R C
    rw [hx] at h1
    exact EReal.coe_ne_bot x h1

end Cert.MSL

end
-- ==== Proof.KI.ValFin.lean ====
/-
  What pass 2's last column tile stores, read at one row, on the extended reals.

  The six accumulators hold the row's four masked sums and its two 0/1 flags "the row has a hard positive / negative
  pair"; the two carried columns hold the row's least positive and greatest negative similarity. The stored loss
  entry selects each sum by its flag, takes log(1 + .) / 2 and log(1 + .) / 50, adds them, and keeps the result only
  where the least positive similarity is not +inf and the greatest negative one is not -inf — with finite entries,
  exactly where the row has a positive and a negative pair. The stored validity entry is that condition as 1 or 0.
-/
import proofs.«144686_j9225589752058_2_alg».proof.Proof.KI.Step
import proofs.«144686_j9225589752058_2_alg».proof.Proof.SpecFacts
import Idealize.ShloMosaic.Lib.ValueIdx
import Idealize.ShloMosaic.PureOps.Ideal.Laws
import Idealize.ShloMosaic.Lib.Pipeline.Value

noncomputable section

namespace Cert.KernelIdeal.KVal

open Idealize.ShloMosaic Idealize.SL.Sem Idealize.ShloMosaic.ValueIdx
open Cert.KernelIdeal Cert.KernelIdeal.Hand
open scoped Classical

/-! ## Words and bits -/

/-- The word 0x7F800000 denotes +inf. -/
theorem ofBits_pinf : Ideal.ofBits .f32 0x7F800000#32 = (⊤ : EReal) := by simp [Ideal.ofBits, Ideal.ieee]

/-- The word 0xFF800000 denotes -inf. -/
theorem ofBits_ninf : Ideal.ofBits .f32 0xFF800000#32 = (⊥ : EReal) := by simp [Ideal.ofBits, Ideal.ieee]

/-- "Not equal" as a bit. -/
theorem cmp_one (x y : EReal) : Ideal.cmp .one x y = if x ≠ y then 1#1 else 0#1 := by
  unfold Ideal.cmp
  by_cases h : x = y <;> simp [h]

/-- "Greater than" as a bit. -/
theorem cmp_ogt (x y : EReal) : Ideal.cmp .ogt x y = if y < x then 1#1 else 0#1 := by
  unfold Ideal.cmp
  by_cases h : y < x <;> simp [h]

/-- The conjunction of two decided bits. -/
theorem andi_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- A select on a decided bit is the `if`. -/
theorem select_ite {α : Type} (p : Prop) [Decidable p] (a b : α) : Scalar.select (if p then 1#1 else 0#1) a b = if p then a else b := by
  by_cases hp : p
  · rw [if_pos hp, if_pos hp]; exact select_one a b
  · rw [if_neg hp, if_neg hp]; exact select_zero a b

/-- Choosing by "the 0/1 flag is positive" is choosing by the flag's condition. -/
theorem ite_flag_pos {α : Type} (p : Prop) [Decidable p] (a b : α) :
    (if (0 : EReal) < (if p then 1 else 0) then a else b) = if p then a else b := by
  by_cases hp : p <;> simp [hp]

/-- A decided bit widened to 32 bits and read as a signed integer is 1 or 0. -/
theorem bit_to_real (p : Prop) [Decidable p] :
    (((((if p then 1#1 else 0#1 : BitVec 1).setWidth 32).toInt : ℤ) : ℝ) : EReal) = if p then 1 else 0 := by
  by_cases hp : p <;> simp [hp]

/-! ## The two stored columns at one row -/

section

variable (e : Fin 8192 → Fin 128 → EReal) (l : Fin 8192 → BitVec 32)

/-- The validity bit the last point computes from the two carried columns is "the row has a positive and a negative
    pair". -/
theorem pay24_apply (hfin : ∀ R k, ∃ x : ℝ, e R k = (x : EReal)) (R : Fin 8192) (r : Fin 1024)
    (x4 x5 : Vec Ideal S1024x1 .f32)
    (hx4 : x4 (ix2 r 0) = MSL.posMin e l R) (hx5 : x5 (ix2 r 0) = MSL.negMax e l R) :
    Gen.k1_pay24 (Gen.k1_pay11 x4) (Gen.k1_pay12 x5) (ix2 r 0) = if MSL.valid l R then 1#1 else 0#1 := by
  have h11 : Gen.k1_pay11 x4 = x4 := shapeCast_self _ _
  have h12 : Gen.k1_pay12 x5 = x5 := shapeCast_self _ _
  rw [h11, h12]
  show IntOp.andi (Ideal.cmp .one (x4 (ix2 r 0)) (Ideal.ofBits .f32 0x7F800000#32))
      (Ideal.cmp .one (x5 (ix2 r 0)) (Ideal.ofBits .f32 0xFF800000#32)) = _
  rw [hx4, hx5, ofBits_pinf, ofBits_ninf, cmp_one, cmp_one, andi_ite]
  have hv : (MSL.posMin e l R ≠ ⊤ ∧ MSL.negMax e l R ≠ ⊥) ↔ MSL.valid l R := by
    unfold MSL.valid
    rw [MSL.posMin_ne_top_iff hfin, MSL.negMax_ne_bot_iff hfin]
  by_cases hval : MSL.valid l R
  · rw [if_pos hval, if_pos (hv.mpr hval)]
  · rw [if_neg hval, if_neg (fun h => hval (hv.mp h))]

/-- The loss column the last point stores, at row `r` of the tile, is the row's counted loss term. It holds for
    any decision procedures `dp`, `dn` of the two flags' conditions. -/
theorem fin1_loss (hfin : ∀ R k, ∃ x : ℝ, e R k = (x : EReal)) (R : Fin 8192) (r : Fin 1024) (acc : Acc1 Ideal)
    (x4 x5 : Vec Ideal S1024x1 .f32)
    {dp : Decidable (∃ C, MSL.posHard e l R C)} {dn : Decidable (∃ C, MSL.negHard e l R C)}
    (hph : acc.ph (ix2 r 0) = MSL.posHardSum e l R) (hpa : acc.pa (ix2 r 0) = MSL.posAllSum e l R)
    (hap : acc.ap (ix2 r 0) = @ite EReal (∃ C, MSL.posHard e l R C) dp 1 0)
    (hnh : acc.nh (ix2 r 0) = MSL.negHardSum e l R) (hna : acc.na (ix2 r 0) = MSL.negAllSum e l R)
    (han : acc.an (ix2 r 0) = @ite EReal (∃ C, MSL.negHard e l R C) dn 1 0)
    (hx4 : x4 (ix2 r 0) = MSL.posMin e l R) (hx5 : x5 (ix2 r 0) = MSL.negMax e l R) :
    (fin1 x4 x5 acc).1 (ix2 r 0) = MSL.lossRow e l R := by
  show Scalar.select (Gen.k1_pay24 (Gen.k1_pay11 x4) (Gen.k1_pay12 x5) (ix2 r 0))
      (Ideal.div (Ideal.log1p (Scalar.select (Ideal.cmp .ogt (acc.ap (ix2 r 0)) (Ideal.ofBits .f32 0x00000000#32))
          (acc.ph (ix2 r 0)) (acc.pa (ix2 r 0)))) (Ideal.ofBits .f32 0x40000000#32)
        + Ideal.div (Ideal.log1p (Scalar.select (Ideal.cmp .ogt (acc.an (ix2 r 0)) (Ideal.ofBits .f32 0x00000000#32))
          (acc.nh (ix2 r 0)) (acc.na (ix2 r 0)))) (Ideal.ofBits .f32 0x42480000#32))
      (Ideal.ofBits .f32 0x00000000#32) = _
  rw [pay24_apply e l hfin R r x4 x5 hx4 hx5, hph, hpa, hap, hnh, hna, han, Ideal.ofBits_zero_f32, cmp_ogt, cmp_ogt,
    select_ite, select_ite, select_ite, ite_flag_pos, ite_flag_pos]
  unfold MSL.lossRow MSL.rowLoss MSL.posSel MSL.negSel
  by_cases hval : MSL.valid l R
  · rw [if_pos hval, if_pos hval]
    by_cases hp : ∃ C, MSL.posHard e l R C
    · by_cases hn : ∃ C, MSL.negHard e l R C
      · rw [if_pos hp, if_pos hp, if_pos hn, if_pos hn]
      · rw [if_pos hp, if_pos hp, if_neg hn, if_neg hn]
    · by_cases hn : ∃ C, MSL.negHard e l R C
      · rw [if_neg hp, if_neg hp, if_pos hn, if_pos hn]
      · rw [if_neg hp, if_neg hp, if_neg hn, if_neg hn]
  · rw [if_neg hval, if_neg hval]

/-- The validity column the last point stores, at row `r` of the tile, is 1 on a counted row and 0 elsewhere. -/
theorem fin1_valid (hfin : ∀ R k, ∃ x : ℝ, e R k = (x : EReal)) (R : Fin 8192) (r : Fin 1024) (acc : Acc1 Ideal)
    (x4 x5 : Vec Ideal S1024x1 .f32)
    (hx4 : x4 (ix2 r 0) = MSL.posMin e l R) (hx5 : x5 (ix2 r 0) = MSL.negMax e l R) :
    (fin1 x4 x5 acc).2 (ix2 r 0) = MSL.validRow l R := by
  show ((((Gen.k1_pay24 (Gen.k1_pay11 x4) (Gen.k1_pay12 x5) (ix2 r 0)).setWidth 32).toInt : ℝ) : EReal) = _
  rw [pay24_apply e l hfin R r x4 x5 hx4 hx5, bit_to_real]
  rfl

end

end Cert.KernelIdeal.KVal

end
-- ==== Proof.KI.Blocks1.lean ====
/-
  Pass 2, from blocks to arrays. Grid point t is row tile t / 16 and column tile t % 16; its input blocks are the rows
  of row tile t / 16 and the columns of column tile t % 16 of the embedding matrix and the labels, and the row tile's
  block of pass 1's two result columns. So the fold of the sixteen column tiles of a row tile leaves the row tile's four
  sums and two flags in the six accumulators, and the last column tile's point writes the rows' counted loss terms and
  0/1 validity back to the row tile's block of the two output columns: after the grid the first output column holds
  every row's counted loss term and the second every row's validity.
-/
import proofs.«144686_j9225589752058_2_alg».proof.Proof.KI.R1Dat
import proofs.«144686_j9225589752058_2_alg».proof.Proof.KI.Val1
import proofs.«144686_j9225589752058_2_alg».proof.Proof.KI.ValFin

noncomputable section

namespace Cert.KernelIdeal.KVal

open Idealize.ShloMosaic Idealize.ShloMosaic.TcCoe Idealize.ShloMosaic.ValueIdx Idealize.SL.Sem
open Idealize.SL Idealize.SL.RA
open Idealize.ShloMosaic.Pipeline (Dat)
open Cert.KernelIdeal Cert.KernelIdeal.Gen Cert.KernelIdeal.Hand
open scoped Classical

/-- The printed index maps and the grid coordinates, decided over the 128 points. -/
theorem idx1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0
    ∧ win1_5.index t (0 : Fin 2) = t.val / 16 ∧ win1_5.index t (1 : Fin 2) = 0
    ∧ win1_6.index t (0 : Fin 2) = t.val / 16 ∧ win1_6.index t (1 : Fin 2) = 0
    ∧ win1_7.index t (0 : Fin 2) = t.val / 16 ∧ win1_7.index t (1 : Fin 2) = 0
    ∧ ((grid1.coords t) 0).val = t.val / 16 ∧ ((grid1.coords t) 1).val = t.val % 16 :=
  (by decide +kernel : ∀ t : Fin grid1.N, _)

/-- The first output column as one function of the row: the row's counted loss term. -/
def G6 (e : Fin 8192 → Fin 128 → EReal) (l : Fin 8192 → BitVec 32) : S8192x1.Idx → Elt Ideal .f32 :=
  fun idx => MSL.lossRow e l ⟨(idx 0).val, idx2_lt0 idx⟩
/-- The second output column: 1 on a counted row, 0 elsewhere. -/
def G7 (l : Fin 8192 → BitVec 32) : S8192x1.Idx → Elt Ideal .f32 :=
  fun idx => MSL.validRow l ⟨(idx 0).val, idx2_lt0 idx⟩

section
variable (V : (c : Dev nD) → (b : Ref sig .tc) → Buf (Elt Ideal) ((c : Thread nD τ).loc b)) (c : Dev nD)

/-! ## The blocks read where the arrays say -/

theorem iblk1_0_apply (t : Fin cfg1.N) (r : Fin 1024) (k : Fin 128) (R : Fin 8192) (hR : R.val = 1024 * (t.val / 16) + r.val) :
    iblk1 (F := Ideal) V c 0 t (ix2 r k) = V c main_arg0 (ix2 R k) := by
  unfold iblk1
  show V c main_arg0 (((cfg1.win 0).blk t).view.emb (ix2 r k)) = _
  refine congrArg (V c main_arg0) ?_
  obtain ⟨e0, e1, -⟩ := idx1 t
  funext a; apply Fin.ext
  match a with
  | ⟨0, _⟩ => show win1_0.index t (0 : Fin 2) * 1024 + 1 * r.val = R.val; omega
  | ⟨1, _⟩ => show win1_0.index t (1 : Fin 2) * 128 + 1 * k.val = k.val; omega

theorem iblk1_1_apply (t : Fin cfg1.N) (q : Fin 512) (k : Fin 128) (C : Fin 8192) (hC : C.val = 512 * (t.val % 16) + q.val) :
    iblk1 (F := Ideal) V c 1 t (ix2 q k) = V c main_arg0 (ix2 C k) := by
  unfold iblk1
  show V c main_arg0 (((cfg1.win 1).blk t).view.emb (ix2 q k)) = _
  refine congrArg (V c main_arg0) ?_
  obtain ⟨-, -, e0, e1, -⟩ := idx1 t
  funext a; apply Fin.ext
  match a with
  | ⟨0, _⟩ => show win1_1.index t (0 : Fin 2) * 512 + 1 * q.val = C.val; omega
  | ⟨1, _⟩ => show win1_1.index t (1 : Fin 2) * 128 + 1 * k.val = k.val; omega

theorem iblk1_2_apply (t : Fin cfg1.N) (r : Fin 1024) (u : Fin 1) (R : Fin 8192) (hR : R.val = 1024 * (t.val / 16) + r.val) :
    iblk1 (F := Ideal) V c 2 t (ix2 r u) = V c main_v0 (ix2 R (0 : Fin 1)) := by
  unfold iblk1
  show V c main_v0 (((cfg1.win 2).blk t).view.emb (ix2 r u)) = _
  refine congrArg (V c main_v0) ?_
  obtain ⟨-, -, -, -, e0, e1, -⟩ := idx1 t
  have hu : u.val = 0 := by omega
  funext a; apply Fin.ext
  match a with
  | ⟨0, _⟩ => show win1_2.index t (0 : Fin 2) * 1024 + 1 * r.val = R.val; omega
  | ⟨1, _⟩ => show win1_2.index t (1 : Fin 2) * 1 + 1 * u.val = 0; omega

theorem iblk1_3_apply (t : Fin cfg1.N) (u : Fin 1) (q : Fin 512) (C : Fin 8192) (hC : C.val = 512 * (t.val % 16) + q.val) :
    iblk1 (F := Ideal) V c 3 t (ix2 u q) = V c main_v1 (ix2 (0 : Fin 1) C) := by
  unfold iblk1
  show V c main_v1 (((cfg1.win 3).blk t).view.emb (ix2 u q)) = _
  refine congrArg (V c main_v1) ?_
  obtain ⟨-, -, -, -, -, -, e0, e1, -⟩ := idx1 t
  have hu : u.val = 0 := by omega
  funext a; apply Fin.ext
  match a with
  | ⟨0, _⟩ => show win1_3.index t (0 : Fin 2) * 1 + 1 * u.val = 0; omega
  | ⟨1, _⟩ => show win1_3.index t (1 : Fin 2) * 512 + 1 * q.val = C.val; omega

theorem iblk1_4_apply (t : Fin cfg1.N) (r : Fin 1024) (u : Fin 1) (R : Fin 8192) (hR : R.val = 1024 * (t.val / 16) + r.val) :
    iblk1 (F := Ideal) V c 4 t (ix2 r u) = V c main_v2_0 (ix2 R (0 : Fin 1)) := by
  unfold iblk1
  show V c main_v2_0 (((cfg1.win 4).blk t).view.emb (ix2 r u)) = _
  refine congrArg (V c main_v2_0) ?_
  obtain ⟨-, -, -, -, -, -, -, -, e0, e1, -⟩ := idx1 t
  have hu : u.val = 0 := by omega
  funext a; apply Fin.ext
  match a with
  | ⟨0, _⟩ => show win1_4.index t (0 : Fin 2) * 1024 + 1 * r.val = R.val; omega
  | ⟨1, _⟩ => show win1_4.index t (1 : Fin 2) * 1 + 1 * u.val = 0; omega

theorem iblk1_5_apply (t : Fin cfg1.N) (r : Fin 1024) (u : Fin 1) (R : Fin 8192) (hR : R.val = 1024 * (t.val / 16) + r.val) :
    iblk1 (F := Ideal) V c 5 t (ix2 r u) = V c main_v2_1 (ix2 R (0 : Fin 1)) := by
  unfold iblk1
  show V c main_v2_1 (((cfg1.win 5).blk t).view.emb (ix2 r u)) = _
  refine congrArg (V c main_v2_1) ?_
  obtain ⟨-, -, -, -, -, -, -, -, -, -, e0, e1, -⟩ := idx1 t
  have hu : u.val = 0 := by omega
  funext a; apply Fin.ext
  match a with
  | ⟨0, _⟩ => show win1_5.index t (0 : Fin 2) * 1024 + 1 * r.val = R.val; omega
  | ⟨1, _⟩ => show win1_5.index t (1 : Fin 2) * 1 + 1 * u.val = 0; omega

theorem acc1_congr {n n' : ℕ} (h : n = n') (hn : n < cfg1.N) (hn' : n' < cfg1.N) :
    acc1 (F := Ideal) V c n hn = acc1 V c n' hn' := by
  subst h; rfl

/-! ## The sixteen column tiles of a row tile -/

variable (e : Fin 8192 → Fin 128 → EReal) (l : Fin 8192 → BitVec 32)
  (hE : ∀ R k, V c main_arg0 (ix2 R k) = e R k) (hLR : ∀ R, V c main_v0 (ix2 R (0 : Fin 1)) = l R)
  (hLC : ∀ C, V c main_v1 (ix2 (0 : Fin 1) C) = l C)
  (hPM : ∀ R, V c main_v2_0 (ix2 R (0 : Fin 1)) = MSL.posMin e l R)
  (hNM : ∀ R, V c main_v2_1 (ix2 R (0 : Fin 1)) = MSL.negMax e l R)

include hE hLR hLC hPM hNM in
/-- After the last column tile of a row tile the six accumulators hold, at each row of the tile, the row's four sums
    and two flags. -/
theorem acc1_row (t : Fin cfg1.N) (ht : t.val % 16 = 15) (r : Fin 1024) (R : Fin 8192) (hR : R.val = 1024 * (t.val / 16) + r.val) :
    (acc1 (F := Ideal) V c t.val t.isLt).ph (ix2 r (0 : Fin 1)) = MSL.posHardSum e l R
    ∧ (acc1 (F := Ideal) V c t.val t.isLt).pa (ix2 r (0 : Fin 1)) = MSL.posAllSum e l R
    ∧ (acc1 (F := Ideal) V c t.val t.isLt).ap (ix2 r (0 : Fin 1)) = (if ∃ C, MSL.posHard e l R C then 1 else 0)
    ∧ (acc1 (F := Ideal) V c t.val t.isLt).nh (ix2 r (0 : Fin 1)) = MSL.negHardSum e l R
    ∧ (acc1 (F := Ideal) V c t.val t.isLt).na (ix2 r (0 : Fin 1)) = MSL.negAllSum e l R
    ∧ (acc1 (F := Ideal) V c t.val t.isLt).an (ix2 r (0 : Fin 1)) = (if ∃ C, MSL.negHard e l R C then 1 else 0) := by
  have hN : cfg1.N = 128 := N_1
  have htlt := t.isLt
  let I : Fin 8 := ⟨t.val / 16, by omega⟩
  have hI : I.val = t.val / 16 := rfl
  let P : Fin 16 → Fin cfg1.N := fun J => ⟨16 * I.val + J.val, by have := J.isLt; omega⟩
  have hP : ∀ J, (P J).val = 16 * I.val + J.val := fun _ => rfl
  have hdiv : ∀ J : Fin 16, (P J).val / 16 = I.val := fun J => by rw [hP]; have := J.isLt; omega
  have hmod : ∀ J : Fin 16, (P J).val % 16 = J.val := fun J => by rw [hP]; have := J.isLt; omega
  have hRow : R = row I r := Fin.ext (by rw [hR]; rfl)
  have h15 : ((15 : Fin 16)).val = 15 := rfl
  have key := pass2_sixteen_gen e l I (fun J => grid1.coords (P J))
    (fun J => by obtain ⟨-, -, -, -, -, -, -, -, -, -, -, -, -, -, -, -, g0, g1⟩ := idx1 (P J); rw [g0, hdiv])
    (fun J => by obtain ⟨-, -, -, -, -, -, -, -, -, -, -, -, -, -, -, -, g0, g1⟩ := idx1 (P J); rw [g1, hmod])
    (fun J => iblk1 V c 0 (P J)) (fun J => iblk1 V c 1 (P J)) (fun J => iblk1 V c 2 (P J)) (fun J => iblk1 V c 3 (P J))
    (fun J => iblk1 V c 4 (P J)) (fun J => iblk1 V c 5 (P J))
    (fun J r k => (iblk1_0_apply V c (P J) r k (row I r) (by rw [hdiv]; rfl)).trans (hE _ _))
    (fun J q k => (iblk1_1_apply V c (P J) q k (col J q) (by rw [hmod]; rfl)).trans (hE _ _))
    (fun J r => (iblk1_2_apply V c (P J) r 0 (row I r) (by rw [hdiv]; rfl)).trans (hLR _))
    (fun J q => (iblk1_3_apply V c (P J) 0 q (col J q) (by rw [hmod]; rfl)).trans (hLC _))
    (fun J r => (iblk1_4_apply V c (P J) r 0 (row I r) (by rw [hdiv]; rfl)).trans (hPM _))
    (fun J r => (iblk1_5_apply V c (P J) r 0 (row I r) (by rw [hdiv]; rfl)).trans (hNM _))
    (fun J => acc1 V c (P J).val (P J).isLt)
    (acc1_first V c (P 0) (by rw [hmod]; rfl))
    (fun J hJ => (acc1_next V c (P ⟨J.val + 1, hJ⟩) (by rw [hmod]; exact Nat.succ_ne_zero _)).trans
      (congrArg (step1 _ _ _ _ _ _ _) (acc1_congr V c (by show 16 * I.val + (J.val + 1) - 1 = 16 * I.val + J.val; omega) _ _)))
    r
  have hlast : acc1 (F := Ideal) V c (P 15).val (P 15).isLt = acc1 V c t.val t.isLt :=
    acc1_congr V c (by rw [hP, h15, hI]; omega) _ _
  rw [← hlast, hRow]
  exact key

end

/-! ## The write-back and the arrays after the grid -/

section Final
variable (V : (c : Dev nD) → (b : Ref sig .tc) → Buf (Elt Ideal) ((c : Thread nD τ).loc b)) (c : Dev nD)
  (q : Fin cfg1.W → PosShare TreeShare)
  (e : Fin 8192 → Fin 128 → EReal) (l : Fin 8192 → BitVec 32)
  (hE : ∀ R k, V c main_arg0 (ix2 R k) = e R k) (hLR : ∀ R, V c main_v0 (ix2 R (0 : Fin 1)) = l R)
  (hLC : ∀ C, V c main_v1 (ix2 (0 : Fin 1) C) = l C)
  (hPM : ∀ R, V c main_v2_0 (ix2 R (0 : Fin 1)) = MSL.posMin e l R)
  (hNM : ∀ R, V c main_v2_1 (ix2 R (0 : Fin 1)) = MSL.negMax e l R)
  (hfin : ∀ R k, ∃ x : ℝ, e R k = (x : EReal))

theorem emb1_6 (t : Fin cfg1.N) (r : Fin 1024) (u : Fin 1) (R : Fin 8192) (hR : R.val = 1024 * (t.val / 16) + r.val) :
    ((cfg1.win 6).blk t).view.emb (ix2 r u) = ix2 R (0 : Fin 1) := by
  obtain ⟨-, -, -, -, -, -, -, -, -, -, -, -, e0, e1, -⟩ := idx1 t
  have hu : u.val = 0 := by omega
  funext a; apply Fin.ext
  match a with
  | ⟨0, _⟩ => show win1_6.index t (0 : Fin 2) * 1024 + 1 * r.val = R.val; omega
  | ⟨1, _⟩ => show win1_6.index t (1 : Fin 2) * 1 + 1 * u.val = 0; omega

theorem emb1_7 (t : Fin cfg1.N) (r : Fin 1024) (u : Fin 1) (R : Fin 8192) (hR : R.val = 1024 * (t.val / 16) + r.val) :
    ((cfg1.win 7).blk t).view.emb (ix2 r u) = ix2 R (0 : Fin 1) := by
  obtain ⟨-, -, -, -, -, -, -, -, -, -, -, -, -, -, e0, e1, -⟩ := idx1 t
  have hu : u.val = 0 := by omega
  funext a; apply Fin.ext
  match a with
  | ⟨0, _⟩ => show win1_7.index t (0 : Fin 2) * 1024 + 1 * r.val = R.val; omega
  | ⟨1, _⟩ => show win1_7.index t (1 : Fin 2) * 1 + 1 * u.val = 0; omega

include hE hLR hLC hPM hNM hfin in
/-- What a flushing point writes back to the first output column is its block of the counted loss terms. -/
theorem flushed1_6_eq (t : Fin cfg1.N) (hf : (cfg1.win 6).flush t = true) :
    (dat1 (F := Ideal) V q c).flushed 6 t = ((cfg1.win 6).blk t).view.read (Elt Ideal) (G6 e l) := by
  have ht : t.val % 16 = 15 := (flush1_6 t).mp hf
  have hN : cfg1.N = 128 := N_1
  have htlt := t.isLt
  show (cfg1.win 6).cut (grid1.coords t) ((dat1 (F := Ideal) V q c).after 6 t) = _
  rw [after1_6]
  funext y
  obtain ⟨r, u, rfl⟩ : ∃ (r : Fin 1024) (u : Fin 1), y = ix2 r u := ⟨y 0, y 1, eq_ix2 y⟩
  obtain rfl : u = 0 := Subsingleton.elim _ _
  show (fin1 (iblk1 (F := Ideal) V c 4 t) (iblk1 V c 5 t) (acc1 V c t.val t.isLt)).1 (ix2 r (0 : Fin 1))
    = G6 e l (((cfg1.win 6).blk t).view.emb (ix2 r (0 : Fin 1)))
  have hr := r.isLt
  rw [emb1_6 t r 0 ⟨1024 * (t.val / 16) + r.val, by omega⟩ rfl]
  obtain ⟨hph, hpa, hap, hnh, hna, han⟩ := acc1_row V c e l hE hLR hLC hPM hNM t ht r ⟨1024 * (t.val / 16) + r.val, by omega⟩ rfl
  exact fin1_loss e l hfin ⟨1024 * (t.val / 16) + r.val, by omega⟩ r (acc1 V c t.val t.isLt) (iblk1 V c 4 t) (iblk1 V c 5 t)
    hph hpa hap hnh hna han
    ((iblk1_4_apply V c t r 0 ⟨1024 * (t.val / 16) + r.val, by omega⟩ rfl).trans (hPM _))
    ((iblk1_5_apply V c t r 0 ⟨1024 * (t.val / 16) + r.val, by omega⟩ rfl).trans (hNM _))

include hE hLR hLC hPM hNM hfin in
/-- What a flushing point writes back to the second output column is its block of the validity column. -/
theorem flushed1_7_eq (t : Fin cfg1.N) (hf : (cfg1.win 7).flush t = true) :
    (dat1 (F := Ideal) V q c).flushed 7 t = ((cfg1.win 7).blk t).view.read (Elt Ideal) (G7 l) := by
  have ht : t.val % 16 = 15 := (flush1_7 t).mp hf
  have hN : cfg1.N = 128 := N_1
  have htlt := t.isLt
  show (cfg1.win 7).cut (grid1.coords t) ((dat1 (F := Ideal) V q c).after 7 t) = _
  rw [after1_7]
  funext y
  obtain ⟨r, u, rfl⟩ : ∃ (r : Fin 1024) (u : Fin 1), y = ix2 r u := ⟨y 0, y 1, eq_ix2 y⟩
  obtain rfl : u = 0 := Subsingleton.elim _ _
  show (fin1 (iblk1 (F := Ideal) V c 4 t) (iblk1 V c 5 t) (acc1 V c t.val t.isLt)).2 (ix2 r (0 : Fin 1))
    = G7 l (((cfg1.win 7).blk t).view.emb (ix2 r (0 : Fin 1)))
  have hr := r.isLt
  rw [emb1_7 t r 0 ⟨1024 * (t.val / 16) + r.val, by omega⟩ rfl]
  exact fin1_valid e l hfin ⟨1024 * (t.val / 16) + r.val, by omega⟩ r (acc1 V c t.val t.isLt) (iblk1 V c 4 t) (iblk1 V c 5 t)
    ((iblk1_4_apply V c t r 0 ⟨1024 * (t.val / 16) + r.val, by omega⟩ rfl).trans (hPM _))
    ((iblk1_5_apply V c t r 0 ⟨1024 * (t.val / 16) + r.val, by omega⟩ rfl).trans (hNM _))

theorem mem_blk1_6 (t : Fin cfg1.N) (i : S8192x1.Idx) :
    i ∈ ((cfg1.win 6).blk t).view.set
      ↔ ∀ a : Fin 2, win1_6.index t a * S1024x1.size a ≤ (i a).val ∧ (i a).val < win1_6.index t a * S1024x1.size a + S1024x1.size a := by
  show i ∈ ((View.whole main_v3_0).slice (win1_6.rect t)).set ↔ _
  rw [View.set_slice_whole, Rect.mem_set_unit]
  exact Iff.rfl

theorem mem_blk1_7 (t : Fin cfg1.N) (i : S8192x1.Idx) :
    i ∈ ((cfg1.win 7).blk t).view.set
      ↔ ∀ a : Fin 2, win1_7.index t a * S1024x1.size a ≤ (i a).val ∧ (i a).val < win1_7.index t a * S1024x1.size a + S1024x1.size a := by
  show i ∈ ((View.whole main_v3_1).slice (win1_7.rect t)).set ↔ _
  rw [View.set_slice_whole, Rect.mem_set_unit]
  exact Iff.rfl

include hE hLR hLC hPM hNM hfin in
/-- THE FIRST OUTPUT COLUMN after the grid: every row's counted loss term. -/
theorem final1_6 (R : Fin 8192) : (dat1 (F := Ideal) V q c).arrAt 6 cfg1.N (ix2 R (0 : Fin 1)) = MSL.lossRow e l R := by
  have hN : cfg1.N = 128 := N_1
  have hRlt := R.isLt
  have hlt : 16 * (R.val / 1024) + 15 < cfg1.N := by omega
  have hf : (cfg1.win 6).flush ⟨16 * (R.val / 1024) + 15, hlt⟩ = true :=
    (flush1_6 _).mpr (by show (16 * (R.val / 1024) + 15) % 16 = 15; omega)
  refine ((dat1 (F := Ideal) V q c).arrAt_apply_of_mem 6 (G6 e l) (fun t hf => flushed1_6_eq V c q e l hE hLR hLC hPM hNM hfin t hf)
    cfg1.N ⟨16 * (R.val / 1024) + 15, hlt⟩ (ix2 R (0 : Fin 1)) hlt hf ?_).trans rfl
  rw [mem_blk1_6]
  obtain ⟨-, -, -, -, -, -, -, -, -, -, -, -, e0, e1, -⟩ := idx1 ⟨16 * (R.val / 1024) + 15, hlt⟩
  have e0' : win1_6.index ⟨16 * (R.val / 1024) + 15, hlt⟩ (0 : Fin 2) = (16 * (R.val / 1024) + 15) / 16 := e0
  intro a
  match a with
  | ⟨0, _⟩ =>
    show win1_6.index ⟨16 * (R.val / 1024) + 15, hlt⟩ (0 : Fin 2) * 1024 ≤ R.val
      ∧ R.val < win1_6.index ⟨16 * (R.val / 1024) + 15, hlt⟩ (0 : Fin 2) * 1024 + 1024
    omega
  | ⟨1, _⟩ =>
    show win1_6.index ⟨16 * (R.val / 1024) + 15, hlt⟩ (1 : Fin 2) * 1 ≤ 0
      ∧ 0 < win1_6.index ⟨16 * (R.val / 1024) + 15, hlt⟩ (1 : Fin 2) * 1 + 1
    omega

include hE hLR hLC hPM hNM hfin in
/-- THE SECOND OUTPUT COLUMN after the grid: 1 on every counted row, 0 elsewhere. -/
theorem final1_7 (R : Fin 8192) : (dat1 (F := Ideal) V q c).arrAt 7 cfg1.N (ix2 R (0 : Fin 1)) = MSL.validRow l R := by
  have hN : cfg1.N = 128 := N_1
  have hRlt := R.isLt
  have hlt : 16 * (R.val / 1024) + 15 < cfg1.N := by omega
  have hf : (cfg1.win 7).flush ⟨16 * (R.val / 1024) + 15, hlt⟩ = true :=
    (flush1_7 _).mpr (by show (16 * (R.val / 1024) + 15) % 16 = 15; omega)
  refine ((dat1 (F := Ideal) V q c).arrAt_apply_of_mem 7 (G7 l) (fun t hf => flushed1_7_eq V c q e l hE hLR hLC hPM hNM hfin t hf)
    cfg1.N ⟨16 * (R.val / 1024) + 15, hlt⟩ (ix2 R (0 : Fin 1)) hlt hf ?_).trans rfl
  rw [mem_blk1_7]
  obtain ⟨-, -, -, -, -, -, -, -, -, -, -, -, -, -, e0, e1, -⟩ := idx1 ⟨16 * (R.val / 1024) + 15, hlt⟩
  have e0' : win1_7.index ⟨16 * (R.val / 1024) + 15, hlt⟩ (0 : Fin 2) = (16 * (R.val / 1024) + 15) / 16 := e0
  intro a
  match a with
  | ⟨0, _⟩ =>
    show win1_7.index ⟨16 * (R.val / 1024) + 15, hlt⟩ (0 : Fin 2) * 1024 ≤ R.val
      ∧ R.val < win1_7.index ⟨16 * (R.val / 1024) + 15, hlt⟩ (0 : Fin 2) * 1024 + 1024
    omega
  | ⟨1, _⟩ =>
    show win1_7.index ⟨16 * (R.val / 1024) + 15, hlt⟩ (1 : Fin 2) * 1 ≤ 0
      ∧ 0 < win1_7.index ⟨16 * (R.val / 1024) + 15, hlt⟩ (1 : Fin 2) * 1 + 1
    omega

end Final

end Cert.KernelIdeal.KVal

end
-- ==== Proof.LibFiniteInputs.lean ====
/-
  Finite inputs.  A precondition of the form "every entry's absolute value is below +∞", taken over a whole array by an
  all-reduction, makes every entry of the array a real number: an all-reduction that is 1 has every compared entry 1;
  the word `0x7F800000` denotes `⊤`; and an extended real with `max x (-x) < ⊤` is neither infinity.
  Generic in the array's shape and in the axes reduced; the scalar shape is spelt literally so that any program's own
  abbreviation of it unifies.
-/
import Idealize.ShloMosaic.Lib.ReduceAll
import Idealize.ShloMosaic.Lib.ValueIdx
import Idealize.ShloMosaic.PureOps.Ideal.Laws

noncomputable section

namespace Cert.FiniteInputs

open Idealize.ShloMosaic Idealize.ShloMosaic.ValueIdx

/-- The scalar shape. -/
abbrev S0 : Shape := ⟨0, ![]⟩

instance : Subsingleton S0.Idx := ⟨fun a b => funext fun d => d.elim0⟩

/-- The word of +∞ denotes `⊤`. -/
theorem inf_f32 : Ideal.ofBits .f32 0x7F800000#32 = ⊤ := by simp [Ideal.ofBits, Ideal.ieee]

/-- An extended real whose absolute value compares below +∞ is a real. -/
theorem real_of_lt (x : EReal) (h : Ideal.cmp .olt (max x (-x)) (Ideal.ofBits .f32 0x7F800000#32) = 1#1) :
    ∃ r : ℝ, x = ((r : ℝ) : EReal) := by
  rw [inf_f32] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One array: the all-reduction of `|a| < +∞` is 1, so every entry of `a` is a real. -/
theorem all_real {s : Shape} {axes : List (Fin s.rank)} (a : FVec Ideal s .f32) (hb : S0.BroadcastsInDim s (![] : Fin 0 → Fin s.rank))
    (hr : s.ReducesTo axes S0) (hn : 0 < S0.numel)
    (e : Host.reduce IntOp.andi (cmpf .olt (Host.absf a) (broadcastInDim s ![] hb (constant (F := Ideal) S0 .f32 0x7F800000#32)))
      (constantI S0 1 1#1) hr hn ix0 = 1#1) (i : s.Idx) : ∃ r : ℝ, a i = ((r : ℝ) : EReal) :=
  real_of_lt (a i) (Host.reduce_andi_all _ _ hr hn ix0 e i)

end Cert.FiniteInputs

end
-- ==== Proof.KI.HostVal.lean ====
/-
  The host operations around the two kernels, read as values.

  Before the kernels the label vector is reshaped to a column [8192, 1] and to a row [1, 8192]: entry (R, 0) of the
  column and entry (0, C) of the row are the vector's entries R and C.  After them the two output columns are summed
  from zero, the second sum is raised to at least 1, and the first is divided by it.  And the claim's precondition,
  an all-reduction of |x| < +inf over the embedding matrix, makes every entry of the matrix a real number.
-/
import proofs.«144686_j9225589752058_2_alg».proof.Proof.Gen.KernelIdeal.Regions
import proofs.«144686_j9225589752058_2_alg».proof.Proof.Gen.Pre_finite_inputs
import proofs.«144686_j9225589752058_2_alg».proof.Proof.Spec
import proofs.«144686_j9225589752058_2_alg».proof.Proof.LibFiniteInputs
import proofs.«144686_j9225589752058_2_alg».proof.Defs
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.KVal

open Idealize.ShloMosaic Idealize.ShloMosaic.TcCoe Idealize.ShloMosaic.ValueIdx
open Idealize.SL.Sem
open Cert.KernelIdeal

/-! ## The two label reshapes -/

section Reshapes
variable {F : FTy → Type} [FloatOps F]
variable (m : (ℓ : Loc nD τ sig) → Buf (Elt F) ℓ) (c : Dev nD)

/-- The embedding matrix reaches the first kernel as launched. -/
theorem V1_arg0 : Gen.V1 m c main_arg0 = m ((c : Thread nD τ).loc main_arg0) :=
  (Gen.V1_of m c main_arg0 (by decide)).trans rfl

/-- The label column as a reshape of the label vector. -/
theorem V1_v0_eq : (Gen.V1 m c main_v0 : S8192x1.Idx → Elt F .i32)
    = shapeCast S8192x1 (m ((c : Thread nD τ).loc main_arg1) : S8192.Idx → Elt F .i32) Gen.shapeCasts_S8192_S8192x1 := by
  show StableHlo.after Gen.hostOps0 (fun b => m (c, b)) (Proc.devRef .tc main_v0) = _
  after_results; rfl

/-- The label row as a reshape of the label vector. -/
theorem V1_v1_eq : (Gen.V1 m c main_v1 : S1x8192.Idx → Elt F .i32)
    = shapeCast S1x8192 (m ((c : Thread nD τ).loc main_arg1) : S8192.Idx → Elt F .i32) Gen.shapeCasts_S8192_S1x8192 := by
  show StableHlo.after Gen.hostOps0 (fun b => m (c, b)) (Proc.devRef .tc main_v1) = _
  after_results; rfl

/-- Entry (R, 0) of the label column is the vector's entry R. -/
theorem V1_v0_apply (R : Fin 8192) :
    (Gen.V1 m c main_v0 : S8192x1.Idx → Elt F .i32) (ix2 R (0 : Fin 1)) = (m ((c : Thread nD τ).loc main_arg1) : S8192.Idx → Elt F .i32) (ix1 R) := by
  rw [V1_v0_eq]
  exact shapeCast_apply _ _ (ix2 R (0 : Fin 1)) (ix1 R) (by
    rw [Shape.rowMajor_val_two, Shape.rowMajor_val_one]; show R.val = R.val * 1 + 0; omega)

/-- Entry (0, C) of the label row is the vector's entry C. -/
theorem V1_v1_apply (C : Fin 8192) :
    (Gen.V1 m c main_v1 : S1x8192.Idx → Elt F .i32) (ix2 (0 : Fin 1) C) = (m ((c : Thread nD τ).loc main_arg1) : S8192.Idx → Elt F .i32) (ix1 C) := by
  rw [V1_v1_eq]
  exact shapeCast_apply _ _ (ix2 (0 : Fin 1) C) (ix1 C) (by
    rw [Shape.rowMajor_val_two, Shape.rowMajor_val_one]; show C.val = 0 * 8192 + C.val; omega)

end Reshapes

/-! ## The seven closing operations -/

/-- A sum over the indices of a column [8192, 1] is the sum over its rows. -/
theorem sum_col (x : S8192x1.Idx → EReal) : ∑ i : S8192x1.Idx, x i = ∑ R : Fin 8192, x (ix2 R (0 : Fin 1)) := by
  rw [sum_idx2]
  exact Finset.sum_congr rfl fun R _ => Fin.sum_univ_one _

/-- The scalar the program returns: the first column's sum over the larger of the second column's sum and 1. -/
theorem tail_val (W : Valuation τ sig (Elt Ideal)) (f g : Fin 8192 → EReal)
    (hf : ∀ R : Fin 8192, (W main_v3_0 : S8192x1.Idx → EReal) (ix2 R (0 : Fin 1)) = f R)
    (hg : ∀ R : Fin 8192, (W main_v3_1 : S8192x1.Idx → EReal) (ix2 R (0 : Fin 1)) = g R) :
    (StableHlo.after (Gen.hostOps2 (F := Ideal)) W main_v7 : S_.Idx → EReal)
      = fun _ => Ideal.div (∑ R : Fin 8192, f R) (max (∑ R : Fin 8192, g R) (Cert.MSL.w32 0x3F800000#32)) := by
  have e : (StableHlo.after (Gen.hostOps2 (F := Ideal)) W (Proc.devRef .tc main_v7) : S_.Idx → EReal)
      = Host.divf (Host.reduceAdd (W main_v3_0 : S8192x1.Idx → EReal) (constant (F := Ideal) S_ .f32 0x00000000#32) Gen.reducesTo_S8192x1_S_d0_1 Gen.h_S_)
          (maximumf (Host.reduceAdd (W main_v3_1 : S8192x1.Idx → EReal) (constant (F := Ideal) S_ .f32 0x00000000#32) Gen.reducesTo_S8192x1_S_d0_1 Gen.h_S_)
            (constant (F := Ideal) S_ .f32 0x3F800000#32)) := by
    after_results
  refine e.trans (funext fun j => ?_)
  show Ideal.div (Ideal.hostReduceAdd Gen.reducesTo_S8192x1_S_d0_1 (W main_v3_0 : S8192x1.Idx → EReal) (Ideal.ofBits .f32 0x00000000#32) j)
      (max (Ideal.hostReduceAdd Gen.reducesTo_S8192x1_S_d0_1 (W main_v3_1 : S8192x1.Idx → EReal) (Ideal.ofBits .f32 0x00000000#32) j) (Ideal.ofBits .f32 0x3F800000#32)) = _
  rw [Ideal.hostReduceAdd_total _ (fun b => b.elim0), Ideal.hostReduceAdd_total _ (fun b => b.elim0), Ideal.ofBits_zero_f32, zero_add, zero_add,
    sum_col, sum_col]
  simp only [hf, hg]

/-- With the two columns the counted rows' terms and the 0/1 counts, that scalar is the loss. -/
theorem tail_loss (W : Valuation τ sig (Elt Ideal)) (e : Fin 8192 → Fin 128 → EReal) (l : Fin 8192 → BitVec 32)
    (hf : ∀ R : Fin 8192, (W main_v3_0 : S8192x1.Idx → EReal) (ix2 R (0 : Fin 1)) = Cert.MSL.lossRow e l R)
    (hg : ∀ R : Fin 8192, (W main_v3_1 : S8192x1.Idx → EReal) (ix2 R (0 : Fin 1)) = Cert.MSL.validRow l R) :
    (StableHlo.after (Gen.hostOps2 (F := Ideal)) W main_v7 : S_.Idx → EReal) = fun _ => Cert.MSL.loss e l :=
  tail_val W _ _ hf hg

/-! ## Finite inputs -/

/-- Under the claim's precondition every entry of the embedding matrix is a real number. -/
theorem real_of_pre (m : (ℓ : Loc nD τ sig) → Buf (Elt Ideal) ℓ)
    (h : Cert.Pre_KernelIdeal (hPre_finite_inputs := Cert.Pre_finite_inputs.Gen.facts) m) (c : Dev nD) (R : Fin 8192) (k : Fin 128) :
    ∃ x : ℝ, (m ((c : Thread nD τ).loc main_arg0) : S8192x128.Idx → EReal) (ix2 R k) = (x : EReal) := by
  have h0 := congrFun (h c) ix0
  dsimp only [Cert.Pre_finite_inputs.fn] at h0
  exact Cert.FiniteInputs.all_real _ _ _ _ h0 (ix2 R k)

end Cert.KernelIdeal.KVal

end
-- ==== Proof.KI.KernelValue.lean ====
/-
  The kernel program's result at the ideal instance, as the loss of its two arguments.

  The run leaves the result buffer at the closing host operations' value of pass 2's two result columns. Those columns
  hold, row by row, the counted rows' loss terms and the 0/1 row counts, because pass 2's blocks are blocks of the
  embedding matrix, of the labels and of pass 1's two result columns, and those in turn hold the rows' least positive and
  greatest negative similarity. The closing operations sum the two columns and divide: the loss. Finiteness of the inputs
  enters once, where a row's "has a positive pair" is read off its minimum not being +inf.
-/
import proofs.«144686_j9225589752058_2_alg».proof.Proof.KI.Regs
import proofs.«144686_j9225589752058_2_alg».proof.Proof.KI.Blocks0
import proofs.«144686_j9225589752058_2_alg».proof.Proof.KI.Blocks1
import proofs.«144686_j9225589752058_2_alg».proof.Proof.KI.HostVal
import proofs.«144686_j9225589752058_2_alg».proof.Defs

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (c : Dev nD)

/-- The embedding matrix as the core finds it at launch, by row and column. -/
def emb : Fin 8192 → Fin 128 → EReal := fun R k => m ((c : Thread nD τ).loc main_arg0) (ix2 R k)

/-- The labels as the core finds them at launch. -/
def lab : Fin 8192 → BitVec 32 := fun R => m ((c : Thread nD τ).loc main_arg1) (ix1 R)

/-! ## What pass 1 is entered from -/

theorem U1_emb (R : Fin 8192) (k : Fin 128) : U1 m c main_arg0 (ix2 R k) = emb m c R k := by
  show Gen.V1 m c main_arg0 (ix2 R k) = _
  rw [V1_arg0]; rfl
theorem U1_row (R : Fin 8192) : U1 m c main_v0 (ix2 R (0 : Fin 1)) = lab m c R := V1_v0_apply m c R
theorem U1_col (C : Fin 8192) : U1 m c main_v1 (ix2 (0 : Fin 1) C) = lab m c C := V1_v1_apply m c C

/-! ## What pass 2 is entered from -/

theorem U2_emb (R : Fin 8192) (k : Fin 128) : U2 m c main_arg0 (ix2 R k) = emb m c R k := by
  show W2 m c main_arg0 (ix2 R k) = _
  rw [W2_of m c main_arg0 (by decide)]; exact U1_emb m c R k
theorem U2_row (R : Fin 8192) : U2 m c main_v0 (ix2 R (0 : Fin 1)) = lab m c R := by
  show W2 m c main_v0 (ix2 R (0 : Fin 1)) = _
  rw [W2_of m c main_v0 (by decide)]; exact U1_row m c R
theorem U2_col (C : Fin 8192) : U2 m c main_v1 (ix2 (0 : Fin 1) C) = lab m c C := by
  show W2 m c main_v1 (ix2 (0 : Fin 1) C) = _
  rw [W2_of m c main_v1 (by decide)]; exact U1_col m c C
theorem U2_posMin (R : Fin 8192) : U2 m c main_v2_0 (ix2 R (0 : Fin 1)) = MSL.posMin (emb m c) (lab m c) R := by
  show W2 m c main_v2_0 (ix2 R (0 : Fin 1)) = _
  rw [W2_v2_0]
  exact final0_4 (U1 m) c q0 (emb m c) (lab m c) (U1_emb m c) (U1_row m c) (U1_col m c) R
theorem U2_negMax (R : Fin 8192) : U2 m c main_v2_1 (ix2 R (0 : Fin 1)) = MSL.negMax (emb m c) (lab m c) R := by
  show W2 m c main_v2_1 (ix2 R (0 : Fin 1)) = _
  rw [W2_v2_1]
  exact final0_5 (U1 m) c q0 (emb m c) (lab m c) (U1_emb m c) (U1_row m c) (U1_col m c) R

/-! ## The result -/

/-- The result buffer's final contents are the loss of the launch contents of the two arguments. -/
theorem kernel_value (hpre : Cert.Pre_KernelIdeal m) :
    Gen.V4 m (outsF m) c main_v7 = fun _ => MSL.loss (emb m c) (lab m c) := by
  have hfin : ∀ R k, ∃ x : ℝ, emb m c R k = (x : EReal) := fun R k => real_of_pre m hpre c R k
  show StableHlo.after hostOps2 (Gen.V3 m (outsF m) c) main_v7 = _
  rw [V3_eq]
  refine tail_loss (W3 m c) (emb m c) (lab m c) (fun R => ?_) (fun R => ?_)
  · rw [W3_v3_0]
    exact final1_6 (U2 m) c q1 (emb m c) (lab m c) (U2_emb m c) (U2_row m c) (U2_col m c) (U2_posMin m c) (U2_negMax m c) hfin R
  · rw [W3_v3_1]
    exact final1_7 (U2 m) c q1 (emb m c) (lab m c) (U2_emb m c) (U2_row m c) (U2_col m c) (U2_posMin m c) (U2_negMax m c) hfin R

end Cert.KernelIdeal.KVal

end
-- ==== Proof.RefSpec.lean ====
/-
  The reference program read stage by stage against the loss's specification, on the extended reals.

  With e R k the embedding entry at (R, k) and l R the label of row R: the dot product stage is the similarity, the
  label comparisons and the diagonal mask give the positive and negative pair bits, the two row reductions of the masked
  similarities are the row's least positive and greatest negative similarity.
-/
import proofs.«144686_j9225589752058_2_alg».proof.Proof.RefRead
import proofs.«144686_j9225589752058_2_alg».proof.Proof.Spec

noncomputable section

namespace Cert.ReferenceIdeal.RefValue

open Cert.ReferenceIdeal Cert.ReferenceIdeal.Gen Cert.ReferenceIdeal.Read
open Idealize.ShloMosaic Idealize.SL.Sem Idealize.ShloMosaic.ValueIdx
open scoped Classical

/-! ## Words and bits -/

/-- The word 0x7F800000 denotes +inf. -/
theorem ofBits_pinf : Ideal.ofBits .f32 0x7F800000#32 = (⊤ : EReal) := by simp [Ideal.ofBits, Ideal.ieee]

/-- The word 0xFF800000 denotes -inf. -/
theorem ofBits_ninf : Ideal.ofBits .f32 0xFF800000#32 = (⊥ : EReal) := by simp [Ideal.ofBits, Ideal.ieee]

/-- The complement of a bit is set exactly when the bit is not. -/
theorem not_eq_one (b : BitVec 1) : ~~~b = 1#1 ↔ ¬b = 1#1 := by revert b; decide

/-- The conjunction of two bits is set exactly when both are. -/
theorem and_eq_one (a b : BitVec 1) : IntOp.andi a b = 1#1 ↔ a = 1#1 ∧ b = 1#1 := by
  unfold IntOp.andi; revert a b; decide

/-- The disjunction of two bits is set exactly when one is. -/
theorem or_eq_one (a b : BitVec 1) : IntOp.ori a b = 1#1 ↔ a = 1#1 ∨ b = 1#1 := by
  unfold IntOp.ori; revert a b; decide

/-- A select on a set bit takes the first value. -/
theorem select_pos {α : Type} {b : BitVec 1} (h : b = 1#1) (x y : α) : Scalar.select b x y = x := by
  subst h; exact select_one x y

/-- A select on a bit that is not set takes the second value. -/
theorem select_neg {α : Type} {b : BitVec 1} (h : ¬b = 1#1) (x y : α) : Scalar.select b x y = y := by
  rw [eq_zero_of_ne_one h]; exact select_zero x y

/-- The equality comparison of two words is set exactly when they are equal. -/
theorem cmpi_eq_iff {w : Nat} (x y : BitVec w) : IntOp.cmpi .eq x y = 1#1 ↔ x = y := by
  show BitVec.ofBool (x == y) = 1#1 ↔ x = y
  by_cases h : x = y
  · subst h; simp
  · rw [beq_eq_false_iff_ne.mpr h]
    exact ⟨fun h0 => absurd h0 (by decide), fun h1 => absurd h1 h⟩

/-- Two numbers below 2^32 are equal as 32-bit words exactly when they are equal. -/
theorem ofNat_inj_small (a b : Nat) (ha : a < 2 ^ 32) (hb : b < 2 ^ 32) : BitVec.ofNat 32 a = BitVec.ofNat 32 b ↔ a = b := by
  constructor
  · intro h
    have h1 := congrArg BitVec.toNat h
    simp only [BitVec.toNat_ofNat] at h1
    rwa [Nat.mod_eq_of_lt ha, Nat.mod_eq_of_lt hb] at h1
  · rintro rfl; rfl

/-! ## Folds -/

/-- A fold of minima from +inf is the infimum. -/
theorem fold_minimumf_eq_inf {ι : Type} (s : Finset ι) (f : ι → EReal) :
    s.fold (FloatOps.minimumf (F := Ideal) (φ := .f32)) (⊤ : EReal) f = s.inf f := by
  induction s using Finset.induction_on with
  | empty => simp
  | insert a s ha ih =>
    rw [Finset.fold_insert ha, Finset.inf_insert, ih]
    rfl

/-- A fold of maxima from -inf is the supremum. -/
theorem fold_maximumf_eq_sup {ι : Type} (s : Finset ι) (f : ι → EReal) :
    s.fold (FloatOps.maximumf (F := Ideal) (φ := .f32)) (⊥ : EReal) f = s.sup f := by
  induction s using Finset.induction_on with
  | empty => simp
  | insert a s ha ih =>
    rw [Finset.fold_insert ha, Finset.sup_insert, ih]
    rfl

/-- A fold of disjunctions from the clear bit is set exactly when some term is. -/
theorem fold_ori_eq_one {ι : Type} (s : Finset ι) (f : ι → BitVec 1) :
    s.fold (IntOp.ori (w := 1)) 0#1 f = 1#1 ↔ ∃ i ∈ s, f i = 1#1 := by
  induction s using Finset.induction_on with
  | empty => simp
  | insert a s ha ih =>
    rw [Finset.fold_insert ha, or_eq_one, ih]
    constructor
    · rintro (h | ⟨i, hi, h⟩)
      · exact ⟨a, Finset.mem_insert_self a s, h⟩
      · exact ⟨i, Finset.mem_insert_of_mem hi, h⟩
    · rintro ⟨i, hi, h⟩
      rcases Finset.mem_insert.mp hi with rfl | hi'
      · exact Or.inl h
      · exact Or.inr ⟨i, hi', h⟩

/-! ## A reduction along the rows -/

/-- Row R's index with column k put back is (R, k). -/
theorem lift_row (h : S8192x8192.Reduces [1] S8192) (R : Fin 8192) (k : Fin (S8192x8192.size 1)) :
    h.lift (ix1 R) k = ix2 R (⟨k.val, k.isLt⟩ : Fin 8192) := by
  funext c; apply Fin.ext
  fin_cases c <;> rfl

/-- A reduction over the columns with a commutative associative body, at row R, is the fold over the row. -/
theorem reduce_row_fold {α : Type} (f : α → α → α) [Std.Commutative f] [Std.Associative f] (x : S8192x8192.Idx → α)
    (init : S_.Idx → α) (h' : S8192x8192.ReducesTo [1] S8192) (hu : 0 < S_.numel) (R : Fin 8192) :
    Host.reduce f x init h' hu (ix1 R)
      = (Finset.univ : Finset (Fin 8192)).fold f (init (Shape.Idx.first hu)) (fun C => x (ix2 R C)) := by
  have h : S8192x8192.Reduces [1] S8192 := by decide
  rw [Host.reduce_eq_fold_single f x init h' h hu]
  have hf : (x ∘ h.lift (ix1 R)) = fun C : Fin 8192 => x (ix2 R C) := funext fun k => congrArg x (lift_row h R k)
  exact congrArg (fun g => Finset.fold f (init (Shape.Idx.first hu)) g (Finset.univ : Finset (Fin 8192))) hf

/-! ## The stages -/

section

variable (x0 : (⟨S8192x128, .f32⟩ : BufTy).Contents (Elt Ideal)) (x1 : (⟨S8192, .i32⟩ : BufTy).Contents (Elt Ideal))

/-- The embedding matrix by coordinates. -/
abbrev E : Fin 8192 → Fin 128 → EReal := fun R k => x0 (ix2 R k)
/-- The label vector by coordinate. -/
abbrev L : Fin 8192 → BitVec 32 := fun R => x1 (ix1 R)

/-- The product stage at (R, C) is the similarity of rows R and C. -/
theorem v1_at (R C : Fin 8192) : val_main_v1 (F := Ideal) x0 (ix2 R C) = MSL.sim (E x0) R C := by
  rw [val_main_v1_apply]
  unfold MSL.sim
  refine Finset.sum_congr rfl fun k _ => ?_
  rw [val_main_v0_apply]
  have e1 : lidx_main_v1 (ix2 R C) k = ix2 R k := funext fun a => match a with
    | ⟨0, _⟩ => rfl
    | ⟨1, _⟩ => rfl
  have e2 : idx_main_v0 (ridx_main_v1 (ix2 R C) k) = ix2 C k := funext fun a => match a with
    | ⟨0, _⟩ => rfl
    | ⟨1, _⟩ => rfl
  rw [e1, e2]

/-- The row labels broadcast along the columns. -/
theorem v4_at (R C : Fin 8192) : val_main_v4 (F := Ideal) x1 (ix2 R C) = x1 (ix1 R) := by
  rw [val_main_v4_apply, val_main_v2_apply]
  exact congrArg x1 (funext fun a => match a with | ⟨0, _⟩ => rfl)

/-- The column labels broadcast along the rows. -/
theorem v5_at (R C : Fin 8192) : val_main_v5 (F := Ideal) x1 (ix2 R C) = x1 (ix1 C) := by
  rw [val_main_v5_apply, val_main_v3_apply]
  exact congrArg x1 (funext fun a => match a with | ⟨0, _⟩ => rfl)

/-- The label comparison at (R, C) is set exactly when the labels agree. -/
theorem v6_at (R C : Fin 8192) : val_main_v6 (F := Ideal) x1 (ix2 R C) = 1#1 ↔ L x1 R = L x1 C := by
  rw [val_main_v6_apply, v4_at, v5_at, cmpi_eq_iff]

/-- The diagonal mask at (R, C) is set exactly when R = C. -/
theorem v11_at (R C : Fin 8192) : val_main_v11 (F := Ideal) (ix2 R C) = 1#1 ↔ R = C := by
  rw [val_main_v11_apply, val_main_v10_apply, val_main_v7_apply, val_main_v8_apply, val_main_v9_apply, val_main_c_apply,
    cmpi_eq_iff]
  show IntOp.addi (BitVec.ofNat 32 R.val) 0#32 = BitVec.ofNat 32 C.val ↔ R = C
  have hR := R.isLt
  have hC := C.isLt
  unfold IntOp.addi
  rw [BitVec.add_zero, ofNat_inj_small _ _ (by omega) (by omega)]
  exact Fin.val_inj

/-- The positive-pair bit. -/
theorem v13_at (R C : Fin 8192) : val_main_v13 (F := Ideal) x1 (ix2 R C) = 1#1 ↔ MSL.pos (L x1) R C := by
  rw [val_main_v13_apply, and_eq_one, v6_at, val_main_v12_apply, not_eq_one, v11_at]
  exact Iff.rfl

/-- The negative-pair bit. -/
theorem v14_at (R C : Fin 8192) : val_main_v14 (F := Ideal) x1 (ix2 R C) = 1#1 ↔ MSL.neg (L x1) R C := by
  rw [val_main_v14_apply, not_eq_one, v6_at]
  exact Iff.rfl

/-- The similarity masked to the positive pairs, +inf elsewhere. -/
theorem v15_at (R C : Fin 8192) :
    val_main_v15 (F := Ideal) x0 x1 (ix2 R C) = if MSL.pos (L x1) R C then MSL.sim (E x0) R C else ⊤ := by
  rw [val_main_v15_apply]
  by_cases h : MSL.pos (L x1) R C
  · rw [select_pos ((v13_at x1 R C).mpr h), if_pos h, v1_at]
  · rw [select_neg (fun hb => h ((v13_at x1 R C).mp hb)), if_neg h, val_main_call0_v1_apply, val_main_call0_v0_apply,
      val_main_cst_apply]
    exact ofBits_pinf

/-- The similarity masked to the negative pairs, -inf elsewhere. -/
theorem v17_at (R C : Fin 8192) :
    val_main_v17 (F := Ideal) x0 x1 (ix2 R C) = if MSL.neg (L x1) R C then MSL.sim (E x0) R C else ⊥ := by
  rw [val_main_v17_apply]
  by_cases h : MSL.neg (L x1) R C
  · rw [select_pos ((v14_at x1 R C).mpr h), if_pos h, v1_at]
  · rw [select_neg (fun hb => h ((v14_at x1 R C).mp hb)), if_neg h, val_main_call1_v1_apply, val_main_call1_v0_apply,
      val_main_cst_1_apply]
    exact ofBits_ninf

/-- The row's least similarity over its positive pairs. -/
theorem v16_at (R : Fin 8192) : val_main_v16 (F := Ideal) x0 x1 (ix1 R) = MSL.posMin (E x0) (L x1) R := by
  unfold val_main_v16
  rw [reduce_row_fold, val_main_cst_0_apply]
  show Finset.fold _ (Ideal.ofBits .f32 0x7F800000#32) _ _ = _
  rw [ofBits_pinf, fold_minimumf_eq_inf]
  unfold MSL.posMin
  exact congrArg (Finset.univ.inf) (funext fun C => v15_at x0 x1 R C)

/-- The row's greatest similarity over its negative pairs. -/
theorem v18_at (R : Fin 8192) : val_main_v18 (F := Ideal) x0 x1 (ix1 R) = MSL.negMax (E x0) (L x1) R := by
  unfold val_main_v18
  rw [reduce_row_fold, val_main_cst_2_apply]
  show Finset.fold _ (Ideal.ofBits .f32 0xFF800000#32) _ _ = _
  rw [ofBits_ninf, fold_maximumf_eq_sup]
  unfold MSL.negMax
  exact congrArg (Finset.univ.sup) (funext fun C => v17_at x0 x1 R C)

end

/-! ## The hard-pair bits and the row flags -/

section

variable (x0 : (⟨S8192x128, .f32⟩ : BufTy).Contents (Elt Ideal)) (x1 : (⟨S8192, .i32⟩ : BufTy).Contents (Elt Ideal))

/-- The row minima broadcast along the columns. -/
theorem v22_at (R C : Fin 8192) : val_main_v22 (F := Ideal) x0 x1 (ix2 R C) = val_main_v16 (F := Ideal) x0 x1 (ix1 R) := by
  rw [val_main_v22_apply, val_main_v21_apply]
  exact congrArg (val_main_v16 (F := Ideal) x0 x1) (funext fun a => match a with | ⟨0, _⟩ => rfl)

/-- The row maxima broadcast along the columns. -/
theorem v28_at (R C : Fin 8192) : val_main_v28 (F := Ideal) x0 x1 (ix2 R C) = val_main_v18 (F := Ideal) x0 x1 (ix1 R) := by
  rw [val_main_v28_apply, val_main_v27_apply]
  exact congrArg (val_main_v18 (F := Ideal) x0 x1) (funext fun a => match a with | ⟨0, _⟩ => rfl)

/-- The comparison "similarity + 0.1 above the row's least positive similarity". -/
theorem v23_at (R C : Fin 8192) : val_main_v23 (F := Ideal) x0 x1 (ix2 R C)
    = Ideal.cmp .ogt (MSL.sim (E x0) R C + MSL.w32 0x3DCCCCCD#32) (MSL.posMin (E x0) (L x1) R) := by
  rw [val_main_v23_apply, val_main_v20_apply, v1_at, val_main_v19_apply, val_main_cst_3_apply, v22_at, v16_at]
  rfl

/-- The comparison "similarity - 0.1 below the row's greatest negative similarity". -/
theorem v29_at (R C : Fin 8192) : val_main_v29 (F := Ideal) x0 x1 (ix2 R C)
    = Ideal.cmp .olt (MSL.sim (E x0) R C - MSL.w32 0x3DCCCCCD#32) (MSL.negMax (E x0) (L x1) R) := by
  rw [val_main_v29_apply, val_main_v26_apply, v1_at, val_main_v25_apply, val_main_cst_4_apply, v28_at, v18_at]
  rfl

/-- The hard-negative-pair bit. -/
theorem v24_at (R C : Fin 8192) : val_main_v24 (F := Ideal) x0 x1 (ix2 R C) = 1#1 ↔ MSL.negHard (E x0) (L x1) R C := by
  rw [val_main_v24_apply, and_eq_one, v14_at, v23_at]
  exact Iff.rfl

/-- The hard-positive-pair bit. -/
theorem v30_at (R C : Fin 8192) : val_main_v30 (F := Ideal) x0 x1 (ix2 R C) = 1#1 ↔ MSL.posHard (E x0) (L x1) R C := by
  rw [val_main_v30_apply, and_eq_one, v13_at, v29_at]
  exact Iff.rfl

/-- A row's disjunction of the bits of a mask is set exactly when some column's bit is. -/
theorem reduce_row_ori (x : S8192x8192.Idx → BitVec 1) (init : S_.Idx → BitVec 1) (hinit : ∀ i, init i = 0#1)
    (h' : S8192x8192.ReducesTo [1] S8192) (hu : 0 < S_.numel) (R : Fin 8192) :
    Host.reduce IntOp.ori x init h' hu (ix1 R) = 1#1 ↔ ∃ C : Fin 8192, x (ix2 R C) = 1#1 := by
  rw [reduce_row_fold, hinit, fold_ori_eq_one]
  constructor
  · rintro ⟨C, _, h⟩; exact ⟨C, h⟩
  · rintro ⟨C, h⟩; exact ⟨C, Finset.mem_univ C, h⟩

/-- The flag "the row has a hard negative pair". -/
theorem v31_at (R : Fin 8192) : val_main_v31 (F := Ideal) x0 x1 (ix1 R) = 1#1 ↔ ∃ C, MSL.negHard (E x0) (L x1) R C := by
  unfold val_main_v31
  rw [reduce_row_ori _ _ (fun i => val_main_c_5_apply i)]
  exact exists_congr fun C => v24_at x0 x1 R C

/-- The flag "the row has a hard positive pair". -/
theorem v34_at (R : Fin 8192) : val_main_v34 (F := Ideal) x0 x1 (ix1 R) = 1#1 ↔ ∃ C, MSL.posHard (E x0) (L x1) R C := by
  unfold val_main_v34
  rw [reduce_row_ori _ _ (fun i => val_main_c_6_apply i)]
  exact exists_congr fun C => v30_at x0 x1 R C

/-- The flag "the row has a positive pair". -/
theorem v57_at (R : Fin 8192) : val_main_v57 (F := Ideal) x1 (ix1 R) = 1#1 ↔ ∃ C, MSL.pos (L x1) R C := by
  unfold val_main_v57
  rw [reduce_row_ori _ _ (fun i => val_main_c_17_apply i)]
  exact exists_congr fun C => v13_at x1 R C

/-- The flag "the row has a negative pair". -/
theorem v58_at (R : Fin 8192) : val_main_v58 (F := Ideal) x1 (ix1 R) = 1#1 ↔ ∃ C, MSL.neg (L x1) R C := by
  unfold val_main_v58
  rw [reduce_row_ori _ _ (fun i => val_main_c_18_apply i)]
  exact exists_congr fun C => v14_at x1 R C

/-- The row counts. -/
theorem v59_at (R : Fin 8192) : val_main_v59 (F := Ideal) x1 (ix1 R) = 1#1 ↔ MSL.valid (L x1) R := by
  rw [val_main_v59_apply, and_eq_one, v57_at, v58_at]
  exact Iff.rfl

/-- The hard-negative flag broadcast along the columns. -/
theorem call2_at (R C : Fin 8192) :
    val_main_call2_v0 (F := Ideal) x0 x1 (ix2 R C) = val_main_v31 (F := Ideal) x0 x1 (ix1 R) := by
  rw [val_main_call2_v0_apply, val_main_v32_apply]
  exact congrArg (val_main_v31 (F := Ideal) x0 x1) (funext fun a => match a with | ⟨0, _⟩ => rfl)

/-- The hard-positive flag broadcast along the columns. -/
theorem call3_at (R C : Fin 8192) :
    val_main_call3_v0 (F := Ideal) x0 x1 (ix2 R C) = val_main_v34 (F := Ideal) x0 x1 (ix1 R) := by
  rw [val_main_call3_v0_apply, val_main_v35_apply]
  exact congrArg (val_main_v34 (F := Ideal) x0 x1) (funext fun a => match a with | ⟨0, _⟩ => rfl)

/-- The selected negative mask on a row with a hard negative pair: the hard pairs. -/
theorem v33_at_of (R C : Fin 8192) (h : ∃ C', MSL.negHard (E x0) (L x1) R C') :
    val_main_v33 (F := Ideal) x0 x1 (ix2 R C) = 1#1 ↔ MSL.negHard (E x0) (L x1) R C := by
  rw [val_main_v33_apply, select_pos (by rw [call2_at]; exact (v31_at x0 x1 R).mpr h)]
  exact v24_at x0 x1 R C

/-- The selected negative mask on a row without a hard negative pair: all the negative pairs. -/
theorem v33_at_not (R C : Fin 8192) (h : ¬∃ C', MSL.negHard (E x0) (L x1) R C') :
    val_main_v33 (F := Ideal) x0 x1 (ix2 R C) = 1#1 ↔ MSL.neg (L x1) R C := by
  rw [val_main_v33_apply, select_neg (by rw [call2_at]; exact fun hb => h ((v31_at x0 x1 R).mp hb))]
  exact v14_at x1 R C

/-- The selected positive mask on a row with a hard positive pair: the hard pairs. -/
theorem v36_at_of (R C : Fin 8192) (h : ∃ C', MSL.posHard (E x0) (L x1) R C') :
    val_main_v36 (F := Ideal) x0 x1 (ix2 R C) = 1#1 ↔ MSL.posHard (E x0) (L x1) R C := by
  rw [val_main_v36_apply, select_pos (by rw [call3_at]; exact (v34_at x0 x1 R).mpr h)]
  exact v30_at x0 x1 R C

/-- The selected positive mask on a row without a hard positive pair: all the positive pairs. -/
theorem v36_at_not (R C : Fin 8192) (h : ¬∃ C', MSL.posHard (E x0) (L x1) R C') :
    val_main_v36 (F := Ideal) x0 x1 (ix2 R C) = 1#1 ↔ MSL.pos (L x1) R C := by
  rw [val_main_v36_apply, select_neg (by rw [call3_at]; exact fun hb => h ((v34_at x0 x1 R).mp hb))]
  exact v13_at x1 R C

end

/-! ## The sums, the row terms and the loss -/

section

variable (x0 : (⟨S8192x128, .f32⟩ : BufTy).Contents (Elt Ideal)) (x1 : (⟨S8192, .i32⟩ : BufTy).Contents (Elt Ideal))

/-- exp(-2 (similarity - 1/2)). -/
theorem v41_at (R C : Fin 8192) : val_main_v41 (F := Ideal) x0 (ix2 R C) = MSL.expPos (E x0) R C := by
  rw [val_main_v41_apply, val_main_v40_apply, val_main_v39_apply, val_main_cst_8_apply, val_main_v38_apply, v1_at,
    val_main_v37_apply, val_main_cst_7_apply]
  rfl

/-- exp(50 (similarity - 1/2)). -/
theorem v51_at (R C : Fin 8192) : val_main_v51 (F := Ideal) x0 (ix2 R C) = MSL.expNeg (E x0) R C := by
  rw [val_main_v51_apply, val_main_v50_apply, val_main_v49_apply, val_main_cst_13_apply, val_main_v48_apply, v1_at,
    val_main_v47_apply, val_main_cst_12_apply]
  rfl

/-- The zero the positive terms are masked with. -/
theorem call4_at (i : S8192x8192.Idx) : val_main_call4_v1 (F := Ideal) i = (0 : EReal) := by
  rw [val_main_call4_v1_apply, val_main_call4_v0_apply, val_main_cst_9_apply]
  exact Ideal.ofBits_zero_f32

/-- The zero the negative terms are masked with. -/
theorem call5_at (i : S8192x8192.Idx) : val_main_call5_v1 (F := Ideal) i = (0 : EReal) := by
  rw [val_main_call5_v1_apply, val_main_call5_v0_apply, val_main_cst_14_apply]
  exact Ideal.ofBits_zero_f32

/-- The row's selected positive sum. -/
theorem v43_at (R : Fin 8192) : val_main_v43 (F := Ideal) x0 x1 (ix1 R) = MSL.posSel (E x0) (L x1) R := by
  rw [val_main_v43_apply, val_main_cst_10_apply]
  show Ideal.ofBits .f32 0x00000000#32 + _ = _
  rw [Ideal.ofBits_zero_f32, zero_add]
  have hidx : ∀ k : Fin 8192, idx_main_v43 (ix1 R) k = ix2 R k := fun k => funext fun a => match a with
    | ⟨0, _⟩ => rfl
    | ⟨1, _⟩ => rfl
  unfold MSL.posSel
  by_cases h : ∃ C, MSL.posHard (E x0) (L x1) R C
  · rw [if_pos h]
    unfold MSL.posHardSum
    refine Finset.sum_congr rfl fun k _ => ?_
    rw [hidx, val_main_v42_apply]
    by_cases hk : MSL.posHard (E x0) (L x1) R k
    · rw [select_pos ((v36_at_of x0 x1 R k h).mpr hk), if_pos hk, v41_at]
    · rw [select_neg (fun hb => hk ((v36_at_of x0 x1 R k h).mp hb)), if_neg hk, call4_at]
  · rw [if_neg h]
    unfold MSL.posAllSum
    refine Finset.sum_congr rfl fun k _ => ?_
    rw [hidx, val_main_v42_apply]
    by_cases hk : MSL.pos (L x1) R k
    · rw [select_pos ((v36_at_not x0 x1 R k h).mpr hk), if_pos hk, v41_at]
    · rw [select_neg (fun hb => hk ((v36_at_not x0 x1 R k h).mp hb)), if_neg hk, call4_at]

/-- The row's selected negative sum. -/
theorem v53_at (R : Fin 8192) : val_main_v53 (F := Ideal) x0 x1 (ix1 R) = MSL.negSel (E x0) (L x1) R := by
  rw [val_main_v53_apply, val_main_cst_15_apply]
  show Ideal.ofBits .f32 0x00000000#32 + _ = _
  rw [Ideal.ofBits_zero_f32, zero_add]
  have hidx : ∀ k : Fin 8192, idx_main_v53 (ix1 R) k = ix2 R k := fun k => funext fun a => match a with
    | ⟨0, _⟩ => rfl
    | ⟨1, _⟩ => rfl
  unfold MSL.negSel
  by_cases h : ∃ C, MSL.negHard (E x0) (L x1) R C
  · rw [if_pos h]
    unfold MSL.negHardSum
    refine Finset.sum_congr rfl fun k _ => ?_
    rw [hidx, val_main_v52_apply]
    by_cases hk : MSL.negHard (E x0) (L x1) R k
    · rw [select_pos ((v33_at_of x0 x1 R k h).mpr hk), if_pos hk, v51_at]
    · rw [select_neg (fun hb => hk ((v33_at_of x0 x1 R k h).mp hb)), if_neg hk, call5_at]
  · rw [if_neg h]
    unfold MSL.negAllSum
    refine Finset.sum_congr rfl fun k _ => ?_
    rw [hidx, val_main_v52_apply]
    by_cases hk : MSL.neg (L x1) R k
    · rw [select_pos ((v33_at_not x0 x1 R k h).mpr hk), if_pos hk, v51_at]
    · rw [select_neg (fun hb => hk ((v33_at_not x0 x1 R k h).mp hb)), if_neg hk, call5_at]

/-- The row's loss term. -/
theorem v60_at (R : Fin 8192) : val_main_v60 (F := Ideal) x0 x1 (ix1 R) = MSL.rowLoss (E x0) (L x1) R := by
  rw [val_main_v60_apply, val_main_v46_apply, val_main_v44_apply, v43_at, val_main_v45_apply, val_main_cst_11_apply,
    val_main_v56_apply, val_main_v54_apply, v53_at, val_main_v55_apply, val_main_cst_16_apply]
  unfold MSL.rowLoss
  simp only [Ideal.hostDivf_def, Ideal.hostUnary_log1p_def, Ideal.addf_def, Ideal.ofBits_def]

/-- 1 on a counted row, 0 elsewhere. -/
theorem v61_at (R : Fin 8192) : val_main_v61 (F := Ideal) x1 (ix1 R) = MSL.validRow (L x1) R := by
  rw [val_main_v61_apply]
  unfold MSL.validRow
  by_cases h : MSL.valid (L x1) R
  · rw [if_pos h, (v59_at x1 R).mpr h]
    show (((1#1 : BitVec 1).toNat : ℝ) : EReal) = 1
    simp
  · rw [if_neg h, eq_zero_of_ne_one (fun hb => h ((v59_at x1 R).mp hb))]
    show (((0#1 : BitVec 1).toNat : ℝ) : EReal) = 0
    simp

/-- The counted rows' terms, zero elsewhere. -/
theorem v64_at (R : Fin 8192) : val_main_v64 (F := Ideal) x0 x1 (ix1 R) = MSL.lossRow (E x0) (L x1) R := by
  rw [val_main_v64_apply]
  unfold MSL.lossRow
  by_cases h : MSL.valid (L x1) R
  · rw [select_pos ((v59_at x1 R).mpr h), if_pos h, v60_at]
  · rw [select_neg (fun hb => h ((v59_at x1 R).mp hb)), if_neg h, val_main_call6_v1_apply, val_main_call6_v0_apply,
      val_main_cst_21_apply]
    exact Ideal.ofBits_zero_f32

/-- A rank-1 index set is its coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The number of counted rows. -/
theorem v62_at (i : S_.Idx) : val_main_v62 (F := Ideal) x1 i = ∑ R : Fin 8192, MSL.validRow (L x1) R := by
  rw [val_main_v62_apply, val_main_cst_19_apply]
  show Ideal.ofBits .f32 0x00000000#32 + _ = _
  rw [Ideal.ofBits_zero_f32, zero_add, sum_idx1]
  exact Finset.sum_congr rfl fun R _ => v61_at x1 R

/-- The sum of the counted rows' terms. -/
theorem v65_at (i : S_.Idx) : val_main_v65 (F := Ideal) x0 x1 i = ∑ R : Fin 8192, MSL.lossRow (E x0) (L x1) R := by
  rw [val_main_v65_apply, val_main_cst_22_apply]
  show Ideal.ofBits .f32 0x00000000#32 + _ = _
  rw [Ideal.ofBits_zero_f32, zero_add, sum_idx1]
  exact Finset.sum_congr rfl fun R _ => v64_at x0 x1 R

/-- The reference's result is the loss of the embedding matrix and the label vector. -/
theorem ref_eq :
    val_main_v66 (F := Ideal) x0 x1 = fun _ => MSL.loss (fun R k => x0 (ix2 R k)) (fun R => x1 (ix1 R)) := by
  funext i
  rw [val_main_v66_apply, v65_at, val_main_v63_apply, v62_at, val_main_cst_20_apply]
  rfl

end

end Cert.ReferenceIdeal.RefValue

end
-- ==== Proof.lean ====
/-
  The certificate's five claims for the two-pass multi-similarity loss kernel against its jnp reference.

  The three frames: each program runs to the end from any memory, nothing faults, and the two argument arrays (the
  embedding matrix and the labels) end as launched — for the kernel program (at the word level and at the ideal
  instance) from its two regions' records, each region's body run at every grid point with its per-row accumulators
  carried from column tile to column tile; for the reference from its run. The idealization rewrote nothing, so
  "preserves" is trivial. The algebraic claim: at the ideal instance both programs end with the result buffer at ONE
  function of the arguments, the loss of Proof/Spec.lean — the kernel because sixteen column tiles of running minima,
  maxima, masked sums and flags are the whole-row minimum, maximum, sums and "some hard pair" flags (minimum, maximum and
  addition on the extended reals are associative and commutative), and, the inputs being finite, a row has a positive pair
  exactly when its minimum is not +inf and a negative pair exactly when its maximum is not -inf; the reference by reading
  its host operations one at a time.
-/
import proofs.«144686_j9225589752058_2_alg».proof.Defs
import proofs.«144686_j9225589752058_2_alg».proof.Proof.Gen.Kernel
import proofs.«144686_j9225589752058_2_alg».proof.Proof.Gen.KernelIdeal
import proofs.«144686_j9225589752058_2_alg».proof.Proof.Gen.ReferenceIdeal
import proofs.«144686_j9225589752058_2_alg».proof.Proof.Gen.Pre_finite_inputs
import proofs.«144686_j9225589752058_2_alg».proof.Proof.K.Regs
import proofs.«144686_j9225589752058_2_alg».proof.Proof.KI.Regs
import proofs.«144686_j9225589752058_2_alg».proof.Proof.KI.KernelValue
import proofs.«144686_j9225589752058_2_alg».proof.Proof.RefRun
import proofs.«144686_j9225589752058_2_alg».proof.Proof.RefSpec
import Idealize.ShloMosaic.Adequacy
import Idealize.ShloMosaic.Init

noncomputable section

namespace Cert.Proof

open Idealize.ShloMosaic Idealize.SL.Sem

/-- The word-level kernel program's frame. -/
theorem frame_k : Cert.frame_Kernel := fun m ρ _ => Cert.Kernel.Hand.frame (F := Bits) m ρ

/-- The idealized kernel program's frame. -/
theorem frame_ki : Cert.frame_KernelIdeal := fun m ρ _ => Cert.KernelIdeal.Hand.frame (F := Ideal) m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the result at the loss of the arguments. -/
theorem algebraic : Cert.algebraic_KernelIdeal_ReferenceIdeal := by
  intro m ρ m' ρ' hpre hagree
  refine ⟨fun c => fun _ => Cert.MSL.loss (Cert.KernelIdeal.KVal.emb m c) (Cert.KernelIdeal.KVal.lab m c), ?_, ?_⟩
  · exact (θ_run Cert.KernelIdeal.defs _ _).mono
      (fun _ h c => ⟨(h c).1.trans (Cert.KernelIdeal.KVal.kernel_value m c hpre), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v66_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
